-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x256 : Shape := ⟨2, ![16384, 256]⟩
abbrev S524288 : Shape := ⟨1, ![524288]⟩
abbrev S256x128 : Shape := ⟨2, ![256, 128]⟩
abbrev S128 : Shape := ⟨1, ![128]⟩
abbrev S128x32 : Shape := ⟨2, ![128, 32]⟩
abbrev S32 : Shape := ⟨1, ![32]⟩
abbrev S16384x32 : Shape := ⟨2, ![16384, 32]⟩
abbrev S_ : Shape := ⟨0, ![]⟩

class Facts : Prop where
  bcast_S_S16384x256 : S_.BroadcastsInDim S16384x256 (![] : Fin 0 → Fin S16384x256.rank)
  reducesTo_S16384x256_S_d0_1 : S16384x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S16384x32 : S_.BroadcastsInDim S16384x32 (![] : Fin 0 → Fin S16384x32.rank)
  reducesTo_S16384x32_S_d0_1 : S16384x32.ReducesTo [0, 1] S_

variable [Facts]

def fn_part1 {F : FTy → Type} [FloatOps F] (main_arg6 : FVec F S32 .f32) (main_arg7 : FVec F S16384x32 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S16384x32 .f32 := Host.absf main_arg7
  let main_cst_8 : FVec F S_ .f32 := constant S_ .f32 0x7F800000#32
  let main_v25 : FVec F S16384x32 .f32 := broadcastInDim S16384x32 ![] bcast_S_S16384x32 main_cst_8
  let main_v26 : IVec S16384x32 1 := cmpf .olt main_v24 main_v25
  let main_c_9 : IVec S_ 1 := constantI S_ 1 1#1
  let main_v27 : IVec S_ 1 := (fun x v => Host.reduce IntOp.andi x v reducesTo_S16384x32_S_d0_1 h_S_) main_v26 main_c_9
  let main_v28 : IVec S_ 1 := andi main_v23 main_v27
  main_v28

def fn {F : FTy → Type} [FloatOps F] (main_arg0 : FVec F S16384x256 .f32) (main_arg1 : IVec S524288 32) (main_arg2 : IVec S524288 32) (main_arg3 : FVec F S256x128 .f32) (main_arg4 : FVec F S128 .f32) (main_arg5 : FVec F S128x32 .f32) (main_arg6 : FVec F S32 .f32) (main_arg7 : FVec F S16384x32 .f32) : IVec S_ 1 :=
  let main_v0 : FVec F S16384x256 .f32 := Host.absf main_arg0
  let main_cst : FVec F S_ .f32 := constant S_ .f32 0x7F800000#32
  let main_v1 : FVec F S16384x256 .f32 := broadcastInDim S16384x256 ![] bcast_S_S16384x256 main_cst
  let main_v2 : IVec S16384x256 1 := cmpf .olt main_v0 main_v1
  let main_c : IVec S_ 1 := constantI S_ 1 1#1
  let main_v3 : IVec S_ 1 := (fun x v => Host.reduce IntOp.andi x v reducesTo_S16384x256_S_d0_1 h_S_) main_v2 main_c
  let main_v4 : FVec F S256x128 .f32 := Host.absf main_arg3
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x32 .f32 := Host.absf main_arg5
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg6 main_arg7 main_v13 main_v16
-- ==== Kernel.lean ====
abbrev S16384x256 : Shape := ⟨2, ![16384, 256]⟩
abbrev S524288 : Shape := ⟨1, ![524288]⟩
abbrev S256x128 : Shape := ⟨2, ![256, 128]⟩
abbrev S128 : Shape := ⟨1, ![128]⟩
abbrev S128x32 : Shape := ⟨2, ![128, 32]⟩
abbrev S32 : Shape := ⟨1, ![32]⟩
abbrev S16384x32 : Shape := ⟨2, ![16384, 32]⟩
abbrev S16384x128 : Shape := ⟨2, ![16384, 128]⟩
abbrev S2048x256 : Shape := ⟨2, ![2048, 256]⟩
abbrev S2048x128 : Shape := ⟨2, ![2048, 128]⟩
abbrev S_ : Shape := ⟨0, ![]⟩
abbrev S524288x1 : Shape := ⟨2, ![524288, 1]⟩
abbrev S524288x128 : Shape := ⟨2, ![524288, 128]⟩
abbrev S1x128 : Shape := ⟨2, ![1, 128]⟩
abbrev S2048x32 : Shape := ⟨2, ![2048, 32]⟩
abbrev S524288x32 : Shape := ⟨2, ![524288, 32]⟩
abbrev S1x32 : Shape := ⟨2, ![1, 32]⟩
abbrev S16384x16384 : Shape := ⟨2, ![16384, 16384]⟩
abbrev S1024x32 : Shape := ⟨2, ![1024, 32]⟩
abbrev S2048x1024 : Shape := ⟨2, ![2048, 1024]⟩
abbrev S32x1024 : Shape := ⟨2, ![32, 1024]⟩

abbrev nBuf : Space → Nat
  | .hbm => 42
  | .vmem => 24
  | .smem => 0
  | _ => 0

abbrev bufTy : (tb : Table) → Fin (tcTables nBuf tb) → BufTy
  | .hbm, ⟨0, _⟩ => ⟨S16384x256, .f32⟩
  | .hbm, ⟨1, _⟩ => ⟨S524288, .i32⟩
  | .hbm, ⟨2, _⟩ => ⟨S524288, .i32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S16384x32, .f32⟩
  | .hbm, ⟨8, _⟩ => ⟨S256x128, .bf16⟩
  | .hbm, ⟨9, _⟩ => ⟨S16384x128, .f32⟩
  | .hbm, ⟨10, _⟩ => ⟨S_, .i32⟩
  | .hbm, ⟨11, _⟩ => ⟨S524288, .i32⟩
  | .hbm, ⟨12, _⟩ => ⟨S524288, .i1⟩
  | .hbm, ⟨13, _⟩ => ⟨S_, .i32⟩
  | .hbm, ⟨14, _⟩ => ⟨S524288, .i32⟩
  | .hbm, ⟨15, _⟩ => ⟨S524288, .i32⟩
  | .hbm, ⟨16, _⟩ => ⟨S524288, .i32⟩
  | .hbm, ⟨17, _⟩ => ⟨S524288x1, .i32⟩
  | .hbm, ⟨18, _⟩ => ⟨S524288x128, .f32⟩
  | .hbm, ⟨19, _⟩ => ⟨S_, .f32⟩
  | .hbm, ⟨20, _⟩ => ⟨S16384x128, .f32⟩
  | .hbm, ⟨21, _⟩ => ⟨S524288x1, .i32⟩
  | .hbm, ⟨22, _⟩ => ⟨S16384x128, .f32⟩
  | .hbm, ⟨23, _⟩ => ⟨S1x128, .f32⟩
  | .hbm, ⟨24, _⟩ => ⟨S128x32, .bf16⟩
  | .hbm, ⟨25, _⟩ => ⟨S16384x32, .f32⟩
  | .hbm, ⟨26, _⟩ => ⟨S_, .i32⟩
  | .hbm, ⟨27, _⟩ => ⟨S524288, .i32⟩
  | .hbm, ⟨28, _⟩ => ⟨S524288, .i1⟩
  | .hbm, ⟨29, _⟩ => ⟨S_, .i32⟩
  | .hbm, ⟨30, _⟩ => ⟨S524288, .i32⟩
  | .hbm, ⟨31, _⟩ => ⟨S524288, .i32⟩
  | .hbm, ⟨32, _⟩ => ⟨S524288, .i32⟩
  | .hbm, ⟨33, _⟩ => ⟨S524288x1, .i32⟩
  | .hbm, ⟨34, _⟩ => ⟨S524288x32, .f32⟩
  | .hbm, ⟨35, _⟩ => ⟨S_, .f32⟩
  | .hbm, ⟨36, _⟩ => ⟨S16384x32, .f32⟩
  | .hbm, ⟨37, _⟩ => ⟨S524288x1, .i32⟩
  | .hbm, ⟨38, _⟩ => ⟨S16384x32, .f32⟩
  | .hbm, ⟨39, _⟩ => ⟨S1x32, .f32⟩
  | .hbm, ⟨40, _⟩ => ⟨S16384x32, .f32⟩
  | .hbm, ⟨41, _⟩ => ⟨S16384x16384, .f32⟩
  | .local _ .vmem, ⟨0, _⟩ => ⟨S2048x256, .f32⟩
  | .local _ .vmem, ⟨1, _⟩ => ⟨S2048x256, .f32⟩
  | .local _ .vmem, ⟨2, _⟩ => ⟨S256x128, .bf16⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S1x128, .f32⟩
  | .local _ .vmem, ⟨8, _⟩ => ⟨S128x32, .bf16⟩
  | .local _ .vmem, ⟨9, _⟩ => ⟨S2048x32, .f32⟩
  | .local _ .vmem, ⟨10, _⟩ => ⟨S2048x32, .f32⟩
  | .local _ .vmem, ⟨11, _⟩ => ⟨S2048x32, .f32⟩
  | .local _ .vmem, ⟨12, _⟩ => ⟨S2048x32, .f32⟩
  | .local _ .vmem, ⟨13, _⟩ => ⟨S1x32, .f32⟩
  | .local _ .vmem, ⟨14, _⟩ => ⟨S2048x32, .f32⟩
  | .local _ .vmem, ⟨15, _⟩ => ⟨S2048x32, .f32⟩
  | .local _ .vmem, ⟨16, _⟩ => ⟨S2048x32, .f32⟩
  | .local _ .vmem, ⟨17, _⟩ => ⟨S2048x32, .f32⟩
  | .local _ .vmem, ⟨18, _⟩ => ⟨S2048x32, .f32⟩
  | .local _ .vmem, ⟨19, _⟩ => ⟨S2048x32, .f32⟩
  | .local _ .vmem, ⟨20, _⟩ => ⟨S1024x32, .f32⟩
  | .local _ .vmem, ⟨21, _⟩ => ⟨S1024x32, .f32⟩
  | .local _ .vmem, ⟨22, _⟩ => ⟨S2048x1024, .f32⟩
  | .local _ .vmem, ⟨23, _⟩ => ⟨S2048x1024, .f32⟩
  | _, _ => ⟨S16384x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_c_0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_c_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x32 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2048x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2048x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2048x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2048x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨2, ![8, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1024x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2048x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

class Facts₀ : Prop where
  bitsLt_bf16_f32 : FTy.bits .bf16 < FTy.bits .f32
  inb_S2048x256_S2048x256_0_0 : ∀ a, (![0, 0] : Fin 2 → Nat) a + S2048x256.size a ≤ S2048x256.size a
  h_S2048x256 : 0 < S2048x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x128_S2048x128_0_0 : ∀ a, (![0, 0] : Fin 2 → Nat) a + S2048x128.size a ≤ S2048x128.size a
  h_S2048x128 : 0 < S2048x128.numel
  bcast_S_S524288 : S_.BroadcastsInDim S524288 (![] : Fin 0 → Fin S524288.rank)
  bcast_S524288_S524288x1_0 : S524288.BroadcastsInDim S524288x1 (![0] : Fin 1 → Fin S524288x1.rank)
  bcast_S_S16384x128 : S_.BroadcastsInDim S16384x128 (![] : Fin 0 → Fin S16384x128.rank)
  shapeCasts_S128_S1x128 : S128.ShapeCasts S1x128
  shapeCasts_S2048x128_S2048x128 : S2048x128.ShapeCasts S2048x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x32_S128x32_0_0 : ∀ a, (![0, 0] : Fin 2 → Nat) a + S128x32.size a ≤ S128x32.size a
  h_S128x32 : 0 < S128x32.numel
  shapeCasts_S128x32_S128x32 : S128x32.ShapeCasts S128x32
  inb_S2048x32_S2048x32_0_0 : ∀ a, (![0, 0] : Fin 2 → Nat) a + S2048x32.size a ≤ S2048x32.size a
  h_S2048x32 : 0 < S2048x32.numel
  bcast_S_S16384x32 : S_.BroadcastsInDim S16384x32 (![] : Fin 0 → Fin S16384x32.rank)
  shapeCasts_S32_S1x32 : S32.ShapeCasts S1x32
  shapeCasts_S2048x32_S2048x32 : S2048x32.ShapeCasts S2048x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  transposes_S1024x32_p1_0_S32x1024 : S1024x32.Transposes [1, 0] S32x1024
  inb_S2048x1024_S2048x1024_0_0 : ∀ a, (![0, 0] : Fin 2 → Nat) a + S2048x1024.size a ≤ S2048x1024.size a
  h_S2048x1024 : 0 < S2048x1024.numel
  dot_S2048x256_S256x128_S2048x128_1_0_0_1_n_n_wf : DotDims.WF S2048x256 S256x128 S2048x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S2048x128_S128x32_S2048x32_1_0_0_1_n_n_wf : DotDims.WF S2048x128 S128x32 S2048x32 [1] [0] [0] [1] [] []
  gather_S16384x32_S524288x1_S524288x32_1_0_n_n_0_1_132_wf : GatherDims.WF S16384x32 S524288x1 S524288x32 [1] [0] [] [0] [] 1 ![1, 32]
  scatter_S16384x32_S524288x1_S524288x32_1_0_0_1_wf : ScatterDims.WF S16384x32 S524288x1 S524288x32 [1] [0] [0] 1
  dot_S2048x32_S32x1024_S2048x1024_1_0_0_1_n_n_wf : DotDims.WF S2048x32 S32x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S16384x256.size a
  hwx0_0 : ∀ i : grid0.Coords, EltTy.bits .f32 = 32 ∨ (Rect.block (s := S16384x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S16384x128.size a
  hwx0_2 : ∀ i : grid0.Coords, EltTy.bits .f32 = 32 ∨ (Rect.block (s := S16384x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S16384x128.size a
  hwx1_0 : ∀ i : grid1.Coords, EltTy.bits .f32 = 32 ∨ (Rect.block (s := S16384x128) S2048x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x32.size a ≤ S128x32.size a
  hwx1_2 : ∀ i : grid1.Coords, EltTy.bits .bf16 = 32 ∨ (Rect.block (s := S128x32) S128x32.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x32.size a ≤ S16384x32.size a
  hwx1_3 : ∀ i : grid1.Coords, EltTy.bits .f32 = 32 ∨ (Rect.block (s := S16384x32) S2048x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x32.size a ≤ S16384x32.size a
  hwx2_0 : ∀ i : grid2.Coords, EltTy.bits .f32 = 32 ∨ (Rect.block (s := S16384x32) S2048x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x32.size a ≤ S16384x32.size a
  hwx2_2 : ∀ i : grid2.Coords, EltTy.bits .f32 = 32 ∨ (Rect.block (s := S16384x32) S2048x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2048x32.size a ≤ S16384x32.size a
  hwx2_3 : ∀ i : grid2.Coords, EltTy.bits .f32 = 32 ∨ (Rect.block (s := S16384x32) S2048x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x32.size a ≤ S16384x32.size a
  hwx3_0 : ∀ i : grid3.Coords, EltTy.bits .f32 = 32 ∨ (Rect.block (s := S16384x32) S2048x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x32.size a ≤ S16384x32.size a
  hwx3_1 : ∀ i : grid3.Coords, EltTy.bits .f32 = 32 ∨ (Rect.block (s := S16384x32) S1024x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x1024.size a ≤ S16384x16384.size a
  hwx3_2 : ∀ i : grid3.Coords, EltTy.bits .f32 = 32 ∨ (Rect.block (s := S16384x16384) S2048x1024.size (cc3_transform_2 i) (hinb3_2 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S2048x128_S128x32_S2048x32_1_0_0_1_n_n : DotDims S2048x128 S128x32 S2048x32 where
  lhsContracting := [1]
  rhsContracting := [0]
  lhsNonContracting := [0]
  rhsNonContracting := [1]
  lhsBatch := []
  rhsBatch := []
  wf := dot_S2048x128_S128x32_S2048x32_1_0_0_1_n_n_wf
def gather_S16384x32_S524288x1_S524288x32_1_0_n_n_0_1_132 : GatherDims S16384x32 S524288x1 S524288x32 where
  offsetDims := [1]
  collapsedSliceDims := [0]
  operandBatchingDims := []
  startIndicesBatchingDims := []
  startIndexMap := [0]
  indexVectorDim := 1
  sliceSizes := ![1, 32]
  wf := gather_S16384x32_S524288x1_S524288x32_1_0_n_n_0_1_132_wf
def scatter_S16384x32_S524288x1_S524288x32_1_0_0_1 : ScatterDims S16384x32 S524288x1 S524288x32 where
  updateWindowDims := [1]
  insertedWindowDims := [0]
  scatterDimsToOperandDims := [0]
  indexVectorDim := 1
  wf := scatter_S16384x32_S524288x1_S524288x32_1_0_0_1_wf
def dot_S2048x32_S32x1024_S2048x1024_1_0_0_1_n_n : DotDims S2048x32 S32x1024 S2048x1024 where
  lhsContracting := [1]
  rhsContracting := [0]
  lhsNonContracting := [0]
  rhsNonContracting := [1]
  lhsBatch := []
  rhsBatch := []
  wf := dot_S2048x32_S32x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v11) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S2048x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S2048x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S2048x32.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26) S2048x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v26) S2048x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S1024x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v27) S2048x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S16384x256 : Shape := ⟨2, ![16384, 256]⟩
abbrev S524288 : Shape := ⟨1, ![524288]⟩
abbrev S256x128 : Shape := ⟨2, ![256, 128]⟩
abbrev S128 : Shape := ⟨1, ![128]⟩
abbrev S128x32 : Shape := ⟨2, ![128, 32]⟩
abbrev S32 : Shape := ⟨1, ![32]⟩
abbrev S16384x32 : Shape := ⟨2, ![16384, 32]⟩
abbrev S_ : Shape := ⟨0, ![]⟩
abbrev S524288x1 : Shape := ⟨2, ![524288, 1]⟩
abbrev S524288x256 : Shape := ⟨2, ![524288, 256]⟩
abbrev S16384x128 : Shape := ⟨2, ![16384, 128]⟩
abbrev S1x128 : Shape := ⟨2, ![1, 128]⟩
abbrev S524288x128 : Shape := ⟨2, ![524288, 128]⟩
abbrev S1x32 : Shape := ⟨2, ![1, 32]⟩
abbrev S32x16384 : Shape := ⟨2, ![32, 16384]⟩
abbrev S16384x16384 : Shape := ⟨2, ![16384, 16384]⟩

abbrev nBuf : Space → Nat
  | .hbm => 48
  | .vmem => 0
  | .smem => 0
  | _ => 0

abbrev bufTy : (tb : Table) → Fin (tcTables nBuf tb) → BufTy
  | .hbm, ⟨0, _⟩ => ⟨S16384x256, .f32⟩
  | .hbm, ⟨1, _⟩ => ⟨S524288, .i32⟩
  | .hbm, ⟨2, _⟩ => ⟨S524288, .i32⟩
  | .hbm, ⟨3, _⟩ => ⟨S256x128, .f32⟩
  | .hbm, ⟨4, _⟩ => ⟨S128, .f32⟩
  | .hbm, ⟨5, _⟩ => ⟨S128x32, .f32⟩
  | .hbm, ⟨6, _⟩ => ⟨S32, .f32⟩
  | .hbm, ⟨7, _⟩ => ⟨S16384x32, .f32⟩
  | .hbm, ⟨8, _⟩ => ⟨S_, .i32⟩
  | .hbm, ⟨9, _⟩ => ⟨S524288, .i32⟩
  | .hbm, ⟨10, _⟩ => ⟨S524288, .i1⟩
  | .hbm, ⟨11, _⟩ => ⟨S_, .i32⟩
  | .hbm, ⟨12, _⟩ => ⟨S524288, .i32⟩
  | .hbm, ⟨13, _⟩ => ⟨S524288, .i32⟩
  | .hbm, ⟨14, _⟩ => ⟨S524288, .i32⟩
  | .hbm, ⟨15, _⟩ => ⟨S524288x1, .i32⟩
  | .hbm, ⟨16, _⟩ => ⟨S524288x256, .f32⟩
  | .hbm, ⟨17, _⟩ => ⟨S_, .f32⟩
  | .hbm, ⟨18, _⟩ => ⟨S16384x256, .f32⟩
  | .hbm, ⟨19, _⟩ => ⟨S524288x1, .i32⟩
  | .hbm, ⟨20, _⟩ => ⟨S16384x256, .f32⟩
  | .hbm, ⟨21, _⟩ => ⟨S16384x128, .f32⟩
  | .hbm, ⟨22, _⟩ => ⟨S1x128, .f32⟩
  | .hbm, ⟨23, _⟩ => ⟨S16384x128, .f32⟩
  | .hbm, ⟨24, _⟩ => ⟨S16384x128, .f32⟩
  | .hbm, ⟨25, _⟩ => ⟨S_, .f32⟩
  | .hbm, ⟨26, _⟩ => ⟨S16384x128, .f32⟩
  | .hbm, ⟨27, _⟩ => ⟨S16384x128, .f32⟩
  | .hbm, ⟨28, _⟩ => ⟨S_, .i32⟩
  | .hbm, ⟨29, _⟩ => ⟨S524288, .i32⟩
  | .hbm, ⟨30, _⟩ => ⟨S524288, .i1⟩
  | .hbm, ⟨31, _⟩ => ⟨S_, .i32⟩
  | .hbm, ⟨32, _⟩ => ⟨S524288, .i32⟩
  | .hbm, ⟨33, _⟩ => ⟨S524288, .i32⟩
  | .hbm, ⟨34, _⟩ => ⟨S524288, .i32⟩
  | .hbm, ⟨35, _⟩ => ⟨S524288x1, .i32⟩
  | .hbm, ⟨36, _⟩ => ⟨S524288x128, .f32⟩
  | .hbm, ⟨37, _⟩ => ⟨S_, .f32⟩
  | .hbm, ⟨38, _⟩ => ⟨S16384x128, .f32⟩
  | .hbm, ⟨39, _⟩ => ⟨S524288x1, .i32⟩
  | .hbm, ⟨40, _⟩ => ⟨S16384x128, .f32⟩
  | .hbm, ⟨41, _⟩ => ⟨S16384x32, .f32⟩
  | .hbm, ⟨42, _⟩ => ⟨S1x32, .f32⟩
  | .hbm, ⟨43, _⟩ => ⟨S16384x32, .f32⟩
  | .hbm, ⟨44, _⟩ => ⟨S16384x32, .f32⟩
  | .hbm, ⟨45, _⟩ => ⟨S16384x32, .f32⟩
  | .hbm, ⟨46, _⟩ => ⟨S32x16384, .f32⟩
  | .hbm, ⟨47, _⟩ => ⟨S16384x16384, .f32⟩
  | _, _ => ⟨S16384x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_cst : Ref sig .tc := ⟨.hbm, 25, rfl⟩
abbrev main_call0_v0 : Ref sig .tc := ⟨.hbm, 26, rfl⟩
abbrev main_v14 : Ref sig .tc := ⟨.hbm, 27, rfl⟩
abbrev main_c_1 : Ref sig .tc := ⟨.hbm, 28, rfl⟩
abbrev main_v15 : Ref sig .tc := ⟨.hbm, 29, rfl⟩
abbrev main_v16 : Ref sig .tc := ⟨.hbm, 30, rfl⟩
abbrev main_c_2 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S_S524288 : S_.BroadcastsInDim S524288 (![] : Fin 0 → Fin S524288.rank)
  bcast_S524288_S524288x1_0 : S524288.BroadcastsInDim S524288x1 (![0] : Fin 1 → Fin S524288x1.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S32_S1x32_1 : S32.BroadcastsInDim S1x32 (![1] : Fin 1 → Fin S1x32.rank)
  bcast_S1x32_S16384x32_0_1 : S1x32.BroadcastsInDim S16384x32 (![0, 1] : Fin 2 → Fin S16384x32.rank)
  transposes_S16384x32_S32x16384_1_0 : S16384x32.Transposes [1, 0] S32x16384
  gather_S16384x256_S524288x1_S524288x256_1_0_n_n_0_1_1256_wf : GatherDims.WF S16384x256 S524288x1 S524288x256 [1] [0] [] [0] [] 1 ![1, 256]
  scatter_S16384x256_S524288x1_S524288x256_1_0_0_1_wf : ScatterDims.WF S16384x256 S524288x1 S524288x256 [1] [0] [0] 1
  dot_S16384x256_S256x128_S16384x128_1_0_0_1_n_n_wf : DotDims.WF S16384x256 S256x128 S16384x128 [1] [0] [0] [1] [] []
  gather_S16384x128_S524288x1_S524288x128_1_0_n_n_0_1_1128_wf : GatherDims.WF S16384x128 S524288x1 S524288x128 [1] [0] [] [0] [] 1 ![1, 128]
  scatter_S16384x128_S524288x1_S524288x128_1_0_0_1_wf : ScatterDims.WF S16384x128 S524288x1 S524288x128 [1] [0] [0] 1
  dot_S16384x128_S128x32_S16384x32_1_0_0_1_n_n_wf : DotDims.WF S16384x128 S128x32 S16384x32 [1] [0] [0] [1] [] []
  dot_S16384x32_S32x16384_S16384x16384_1_0_0_1_n_n_wf : DotDims.WF S16384x32 S32x16384 S16384x16384 [1] [0] [0] [1] [] []

variable [Facts₀]

def gather_S16384x256_S524288x1_S524288x256_1_0_n_n_0_1_1256 : GatherDims S16384x256 S524288x1 S524288x256 where
  offsetDims := [1]
  collapsedSliceDims := [0]
  operandBatchingDims := []
  startIndicesBatchingDims := []
  startIndexMap := [0]
  indexVectorDim := 1
  sliceSizes := ![1, 256]
  wf := gather_S16384x256_S524288x1_S524288x256_1_0_n_n_0_1_1256_wf
def scatter_S16384x256_S524288x1_S524288x256_1_0_0_1 : ScatterDims S16384x256 S524288x1 S524288x256 where
  updateWindowDims := [1]
  insertedWindowDims := [0]
  scatterDimsToOperandDims := [0]
  indexVectorDim := 1
  wf := scatter_S16384x256_S524288x1_S524288x256_1_0_0_1_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf
def gather_S16384x128_S524288x1_S524288x128_1_0_n_n_0_1_1128 : GatherDims S16384x128 S524288x1 S524288x128 where
  offsetDims := [1]
  collapsedSliceDims := [0]
  operandBatchingDims := []
  startIndicesBatchingDims := []
  startIndexMap := [0]
  indexVectorDim := 1
  sliceSizes := ![1, 128]
  wf := gather_S16384x128_S524288x1_S524288x128_1_0_n_n_0_1_1128_wf
def scatter_S16384x128_S524288x1_S524288x128_1_0_0_1 : ScatterDims S16384x128 S524288x1 S524288x128 where
  updateWindowDims := [1]
  insertedWindowDims := [0]
  scatterDimsToOperandDims := [0]
  indexVectorDim := 1
  wf := scatter_S16384x128_S524288x1_S524288x128_1_0_0_1_wf
def dot_S16384x128_S128x32_S16384x32_1_0_0_1_n_n : DotDims S16384x128 S128x32 S16384x32 where
  lhsContracting := [1]
  rhsContracting := [0]
  lhsNonContracting := [0]
  rhsNonContracting := [1]
  lhsBatch := []
  rhsBatch := []
  wf := dot_S16384x128_S128x32_S16384x32_1_0_0_1_n_n_wf
def dot_S16384x32_S32x16384_S16384x16384_1_0_0_1_n_n : DotDims S16384x32 S32x16384 S16384x16384 where
  lhsContracting := [1]
  rhsContracting := [0]
  lhsNonContracting := [0]
  rhsNonContracting := [1]
  lhsBatch := []
  rhsBatch := []
  wf := dot_S16384x32_S32x16384_S16384x16384_1_0_0_1_n_n_wf

class Facts : Prop extends Facts₀ where

variable [Facts]
-- ==== Proof.K.Blocks.lean ====
import proofs.«135382_j20864951123973_2_alg».proof.Proof.Gen.Kernel.Launch
import proofs.«135382_j20864951123973_2_alg».proof.Proof.Gen.Kernel.Skeleton
import proofs.«135382_j20864951123973_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What each of the four kernel regions does to its windows, stated at a parameter `V`: the contents of the
    TensorCore's buffers when the region is entered. Per region: a window's block at a grid point, the value the
    body's one store leaves in the output window's buffer (the payload of the input blocks), and the pipeline's
    proof data built from them. -/

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

/-- The output window's staging buffer after the body: its one store, the payload of the input blocks. -/
def out0_2 (x0 : Vec F S2048x256 .f32) (x1 : Vec F S256x128 .bf16) : Vec F S2048x128 .f32 :=
  View.canon [⟨r0_2, k0_pay1 (View.ld x0 r0_0) (View.ld x1 r0_1)⟩]

/-- The store's rectangle is the whole buffer. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

/-- The proof data of pipeline 0 on core `c`: the arrays as the region finds them; after the body at point `t` each
    input's buffer still at its block and the output's at the payload of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
abbrev r1_0 : Rect S2048x128 := Rect.unit (s := S2048x128) ![0, 0] S2048x128.size inb_S2048x128_S2048x128_0_0
abbrev r1_1 : Rect S1x128 := Rect.unit (s := S1x128) ![0, 0] S1x128.size inb_S1x128_S1x128_0_0
abbrev r1_2 : Rect S128x32 := Rect.unit (s := S128x32) ![0, 0] S128x32.size inb_S128x32_S128x32_0_0
abbrev r1_3 : Rect S2048x32 := Rect.unit (s := S2048x32) ![0, 0] S2048x32.size inb_S2048x32_S2048x32_0_0

/-- The output window's staging buffer after the body: its one store, the payload of the input blocks. -/
def out1_3 (x0 : Vec F S2048x128 .f32) (x1 : Vec F S1x128 .f32) (x2 : Vec F S128x32 .bf16) : Vec F S2048x32 .f32 :=
  View.canon [⟨r1_3, k1_pay1 (View.ld x0 r1_0) (View.ld x1 r1_1) (View.ld x2 r1_2)⟩]

/-- The store's rectangle is the whole buffer. -/
theorem cover1_3 (p0 : Vec F S2048x32 .f32) (y : S2048x32.Idx) :
    ∃ pc ∈ ([⟨r1_3, p0⟩] : List (View.Piece (Elt F) S2048x32 .f32)), y ∈ pc.1.set :=
  View.cover_of_tiled [⟨r1_3, p0⟩] S2048x32.size (by rfl) y

/-- The proof data of pipeline 1 on core `c`: the arrays as the region finds them; after the body at point `t` each
    input's buffer still at its block and the output's at the payload of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Region 2 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetches it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetches it or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetches it or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
abbrev r2_0 : Rect S2048x32 := Rect.unit (s := S2048x32) ![0, 0] S2048x32.size inb_S2048x32_S2048x32_0_0
abbrev r2_1 : Rect S1x32 := Rect.unit (s := S1x32) ![0, 0] S1x32.size inb_S1x32_S1x32_0_0
abbrev r2_2 : Rect S2048x32 := Rect.unit (s := S2048x32) ![0, 0] S2048x32.size inb_S2048x32_S2048x32_0_0
abbrev r2_3 : Rect S2048x32 := Rect.unit (s := S2048x32) ![0, 0] S2048x32.size inb_S2048x32_S2048x32_0_0

/-- The output window's staging buffer after the body: its one store, the payload of the input blocks. -/
def out2_3 (x0 : Vec F S2048x32 .f32) (x1 : Vec F S1x32 .f32) (x2 : Vec F S2048x32 .f32) : Vec F S2048x32 .f32 :=
  View.canon [⟨r2_3, k2_pay1 (View.ld x0 r2_0) (View.ld x1 r2_1) (View.ld x2 r2_2)⟩]

/-- The store's rectangle is the whole buffer. -/
theorem cover2_3 (p0 : Vec F S2048x32 .f32) (y : S2048x32.Idx) :
    ∃ pc ∈ ([⟨r2_3, p0⟩] : List (View.Piece (Elt F) S2048x32 .f32)), y ∈ pc.1.set :=
  View.cover_of_tiled [⟨r2_3, p0⟩] S2048x32.size (by rfl) y

/-- The proof data of pipeline 2 on core `c`: the arrays as the region finds them; after the body at point `t` each
    input's buffer still at its block and the output's at the payload of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## Region 3 -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the point fetches it or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the point fetches it or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
abbrev r3_0 : Rect S2048x32 := Rect.unit (s := S2048x32) ![0, 0] S2048x32.size inb_S2048x32_S2048x32_0_0
abbrev r3_1 : Rect S1024x32 := Rect.unit (s := S1024x32) ![0, 0] S1024x32.size inb_S1024x32_S1024x32_0_0
abbrev r3_2 : Rect S2048x1024 := Rect.unit (s := S2048x1024) ![0, 0] S2048x1024.size inb_S2048x1024_S2048x1024_0_0

/-- The output window's staging buffer after the body: its one store, the payload of the input blocks. -/
def out3_2 (x0 : Vec F S2048x32 .f32) (x1 : Vec F S1024x32 .f32) : Vec F S2048x1024 .f32 :=
  View.canon [⟨r3_2, k3_pay1 (View.ld x0 r3_0) (View.ld x1 r3_1)⟩]

/-- The store's rectangle is the whole buffer. -/
theorem cover3_2 (p0 : Vec F S2048x1024 .f32) (y : S2048x1024.Idx) :
    ∃ pc ∈ ([⟨r3_2, p0⟩] : List (View.Piece (Elt F) S2048x1024 .f32)), y ∈ pc.1.set :=
  View.cover_of_tiled [⟨r3_2, p0⟩] S2048x1024.size (by rfl) y

/-- The proof data of pipeline 3 on core `c`: the arrays as the region finds them; after the body at point `t` each
    input's buffer still at its block and the output's at the payload of the input blocks; nothing owed. The two input
    windows read ONE array, so each holds it at one half of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

end Cert.Kernel.Hand

end
-- ==== Proof.K.Body0.lean ====
import proofs.«135382_j20864951123973_2_alg».proof.Proof.K.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0's body obligation: the kernel function, called on whole staging buffers holding the input windows'
    blocks, loads them, stores the payload into the output window's buffer and leaves the inputs as they were. -/

variable (V : (c : Dev nD) → (b : Ref sig .tc) → Buf (Elt F) ((c : Thread nD τ).loc b))

set_option maxHeartbeats 4000000 in
/-- The body on whole staging memrefs: the inputs' at read contents, the output's at anything; it ends with the inputs'
    unchanged and the output's at the payload of the inputs. -/
theorem sound_kernel0 (c : Dev nD) (E : Set ℕ) (i : grid0.Coords) (arg0 : Memref sig .tc .vmem S2048x256 .f32) (harg0 : arg0.IsWhole) (arg1 : Memref sig .tc .vmem S256x128 .bf16) (harg1 : arg1.IsWhole) (arg2 : Memref sig .tc .vmem S2048x128 .f32) (harg2 : arg2.IsWhole)
    (x0 : Vec F S2048x256 .f32) (x1 : Vec F S256x128 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__project0_kernel i arg0 harg0 arg1 harg1 arg2 harg2) K := by
  simp only [cc0__project0_kernel_eq_skeleton]; unfold cc0__project0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«135382_j20864951123973_2_alg».proof.Proof.K.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1's body obligation: the kernel function, called on whole staging buffers holding the input windows'
    blocks, loads them, stores the payload into the output window's buffer and leaves the inputs as they were. -/

variable (V : (c : Dev nD) → (b : Ref sig .tc) → Buf (Elt F) ((c : Thread nD τ).loc b))

set_option maxHeartbeats 4000000 in
/-- The body on whole staging memrefs: the inputs' at read contents, the output's at anything; it ends with the inputs'
    unchanged and the output's at the payload of the inputs. -/
theorem sound_kernel1 (c : Dev nD) (E : Set ℕ) (i : grid1.Coords) (arg0 : Memref sig .tc .vmem S2048x128 .f32) (harg0 : arg0.IsWhole) (arg1 : Memref sig .tc .vmem S1x128 .f32) (harg1 : arg1.IsWhole) (arg2 : Memref sig .tc .vmem S128x32 .bf16) (harg2 : arg2.IsWhole) (arg3 : Memref sig .tc .vmem S2048x32 .f32) (harg3 : arg3.IsWhole)
    (x0 : Vec F S2048x128 .f32) (x1 : Vec F S1x128 .f32) (x2 : Vec F S128x32 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__post0_project1_kernel i arg0 harg0 arg1 harg1 arg2 harg2 arg3 harg3) K := by
  simp only [cc1__post0_project1_kernel_eq_skeleton]; unfold cc1__post0_project1_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Body2.lean ====
import proofs.«135382_j20864951123973_2_alg».proof.Proof.K.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2's body obligation: the kernel function, called on whole staging buffers holding the input windows'
    blocks, loads them, stores the payload into the output window's buffer and leaves the inputs as they were. -/

variable (V : (c : Dev nD) → (b : Ref sig .tc) → Buf (Elt F) ((c : Thread nD τ).loc b))

set_option maxHeartbeats 4000000 in
/-- The body on whole staging memrefs: the inputs' at read contents, the output's at anything; it ends with the inputs'
    unchanged and the output's at the payload of the inputs. -/
theorem sound_kernel2 (c : Dev nD) (E : Set ℕ) (i : grid2.Coords) (arg0 : Memref sig .tc .vmem S2048x32 .f32) (harg0 : arg0.IsWhole) (arg1 : Memref sig .tc .vmem S1x32 .f32) (harg1 : arg1.IsWhole) (arg2 : Memref sig .tc .vmem S2048x32 .f32) (harg2 : arg2.IsWhole) (arg3 : Memref sig .tc .vmem S2048x32 .f32) (harg3 : arg3.IsWhole)
    (x0 : Vec F S2048x32 .f32) (x1 : Vec F S1x32 .f32) (x2 : Vec F S2048x32 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__finalize_z_kernel i arg0 harg0 arg1 harg1 arg2 harg2 arg3 harg3) K := by
  simp only [cc2__finalize_z_kernel_eq_skeleton]; unfold cc2__finalize_z_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.K.Body3.lean ====
import proofs.«135382_j20864951123973_2_alg».proof.Proof.K.Blocks

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 3's body obligation: the kernel function, called on whole staging buffers holding the input windows'
    blocks, loads them, stores the payload into the output window's buffer and leaves the inputs as they were. -/

variable (V : (c : Dev nD) → (b : Ref sig .tc) → Buf (Elt F) ((c : Thread nD τ).loc b))

set_option maxHeartbeats 4000000 in
/-- The body on whole staging memrefs: the inputs' at read contents, the output's at anything; it ends with the inputs'
    unchanged and the output's at the payload of the inputs. -/
theorem sound_kernel3 (c : Dev nD) (E : Set ℕ) (i : grid3.Coords) (arg0 : Memref sig .tc .vmem S2048x32 .f32) (harg0 : arg0.IsWhole) (arg1 : Memref sig .tc .vmem S1024x32 .f32) (harg1 : arg1.IsWhole) (arg2 : Memref sig .tc .vmem S2048x1024 .f32) (harg2 : arg2.IsWhole)
    (x0 : Vec F S2048x32 .f32) (x1 : Vec F S1024x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__outer_kernel i arg0 harg0 arg1 harg1 arg2 harg2) K := by
  simp only [cc3__outer_kernel_eq_skeleton]; unfold cc3__outer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Run.lean ====
import proofs.«135382_j20864951123973_2_alg».proof.Proof.K.Body0
import proofs.«135382_j20864951123973_2_alg».proof.Proof.K.Body1
import proofs.«135382_j20864951123973_2_alg».proof.Proof.K.Body2
import proofs.«135382_j20864951123973_2_alg».proof.Proof.K.Body3
import proofs.«135382_j20864951123973_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole run of the program: three stretches of host operations and four kernel regions, in order. The contents of
    every unscoped buffer are followed from the launch memory through each item — a host stretch applies its operations,
    a region replaces its output array by what its grid points wrote back and leaves everything else — and the final
    state holds every unscoped buffer at the last of these. -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- At region 2's exit: its arrays at what the pipeline leaves, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- At region 3's exit: the result array at what the grid points wrote back; every other buffer as entered (the array
    its two input windows read included: nothing writes it). -/
def W7 (c : Dev nD) : Valuation τ sig (Elt F) :=
  Function.update (W6 m c) (Proc.devRef .tc main_v27) ((dat3 (U6 m) c).arrAt 2 cfg3.N)
abbrev U7 : (c : Dev nD) → (b : Ref sig .tc) → Buf (Elt F) ((c : Thread nD τ).loc b) := fun c b => W7 m c b
theorem W7_out (c : Dev nD) : W7 m c (Proc.devRef .tc main_v27) = (dat3 (U6 m) c).arrAt 2 cfg3.N := by
  unfold W7; exact Function.update_self ..
theorem W7_of_ne (c : Dev nD) (b : Ref sig .tc) (hb : b ≠ main_v27) : W7 m c (Proc.devRef .tc b) = W6 m c (Proc.devRef .tc b) := by
  unfold W7; exact Function.update_of_ne (StableHlo.devRef_ne_of_ne hb) ..
theorem hF3 (c : Dev nD) (w : Fin cfg3.W) : (dat3 (U6 m) c).arrAt w cfg3.N = U7 m c (Pipeline.arrRef spec3 w) := by
  match w with
  | ⟨0, _⟩ => exact (((dat3 (U6 m) c).arrAt_in 0 rfl _).trans (A_eq3 (U6 m) c 0)).trans (W7_of_ne m c main_v26 (by decide)).symm
  | ⟨1, _⟩ => exact (((dat3 (U6 m) c).arrAt_in 1 rfl _).trans (A_eq3 (U6 m) c 1)).trans (W7_of_ne m c main_v26 (by decide)).symm
  | ⟨2, _⟩ => exact (W7_out m c).symm
theorem hrest3 (c : Dev nD) : ∀ b, b ∉ Finset.univ.image (Pipeline.arrRef spec3) → U7 m c b = U6 m c b :=
  fun b hb => W7_of_ne m c b fun e => hb (Finset.mem_image.mpr ⟨2, Finset.mem_univ _, e.symm⟩)

/-! ## Region 3's arrays among the unscoped buffers: one array behind two windows -/

/-- The buffers behind region 3's windows are two: the node rows (read by both input windows) and the result. -/
theorem arrs3 : Finset.univ.image (Pipeline.arrRef spec3) = {main_v26, main_v27} := by decide

/-- A core's unscoped buffers at contents `V` are region 3's arrays at `V` — the shared array split into its two halves,
    one per input window — and the unscoped rest; and back. -/
theorem arrays3_iff (c : Dev nD) (V : (b : Ref sig .tc) → Buf (Elt F) ((c : Thread nD τ).loc b))
    (V' : (c : Dev nD) → (b : Ref sig .tc) → Buf (Elt F) ((c : Thread nD τ).loc b))
    (F₃ : (w : Fin cfg3.W) → Buf (Elt F) ((cfg3.win w).arr.view.loc (c : Thread nD τ)))
    (hF : ∀ w, F₃ w = V (Pipeline.arrRef spec3 w)) :
    (unscopedBufs c V : sProp 𝕄) ⊣⊢ iprop((dat3 V' c).arrays F₃ ∗ Pipeline.unscopedRest spec3 c V) := by
  rw [Pipeline.unscopedBufs_split₀ cfgs 3 winFacts₀3.arr_unscoped c V]
  have himg : Finset.univ.image (Pipeline.arrRef (cfgs 3).spec) = insert main_v26 {main_v27} := by decide
  have h0 : F₃ 0 = V main_v26 := hF 0
  have h1 : F₃ 1 = V main_v26 := hF 1
  have h2 : F₃ 2 = V main_v27 := hF 2
  have harr : (Pipeline.arrBufs (cfgs 3).spec c V : sProp 𝕄)
      = iprop((((c : Thread nD τ).loc main_v26) ↦{fullShare} V main_v26) ∗ (((c : Thread nD τ).loc main_v27) ↦{fullShare} V main_v27)) := by
    unfold Pipeline.arrBufs
    rw [himg, bigSep_insert (by decide), bigSep_singleton]
    rfl
  have hars : ((dat3 V' c).arrays F₃ : sProp 𝕄)
      = iprop((((c : Thread nD τ).loc main_v26) ↦{fullShare.left} V main_v26) ∗ (((c : Thread nD τ).loc main_v26) ↦{fullShare.right} V main_v26)
          ∗ (((c : Thread nD τ).loc main_v27) ↦{fullShare} V main_v27)) := by
    unfold Pipeline.Dat.arrays
    rw [bigSep_W3, (arr_whole3 0).set_eq_univ, (arr_whole3 2).set_eq_univ, h0, h1, h2]
    rfl
  rw [harr, hars]
  have hs : ((((c : Thread nD τ).loc main_v26) ↦{fullShare} V main_v26 : sProp 𝕄))
      ⊣⊢ iprop((((c : Thread nD τ).loc main_v26) ↦{fullShare.left} V main_v26) ∗ (((c : Thread nD τ).loc main_v26) ↦{fullShare.right} V main_v26)) :=
    pointsTo_share (PosShare.mem_left_op_right fullShare)
  refine ⟨sep_mono ?_ .rfl, sep_mono ?_ .rfl⟩
  · iintro ⟨HA, HB⟩
    ihave HA' := hs.1 $$ HA
    icases HA' with ⟨H1, H2⟩
    isplitl [H1]; · iexact H1
    isplitl [H2]; · iexact H2
    iexact HB
  · iintro ⟨H1, H2, HB⟩
    isplitl [H1 H2]
    · iapply hs.2
      isplitl [H1] <;> iassumption
    iexact HB

/-! ## The proof data family and what rides along -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at the contents the stretch before it left, left
    with them at the same contents but for the region's output array; the generator register goes into the kernel's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents the stretch before it left, left
    with them at the same contents but for the region's output array; the generator register goes into the kernel's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents the stretch before it left, left
    with them at the same contents but for the region's output array; the generator register goes into the kernel's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state. Its two input windows read one array, so at entry that array's full share is split
    in two halves, one per window, and at exit the halves are put together again. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (U6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U6 m c)
  hentry c := by
    rw [Pipeline.ownSems0_none]
    have hsplit : (unscopedBufs c (U6 m c) : sProp 𝕄)
        ⊢ iprop((pdats m 3 c).arrays ((pdats m 3 c).arrAt · 0) ∗ Pipeline.unscopedRest spec3 c (U6 m c)) :=
      (arrays3_iff (F := F) c (U6 m c) (U6 m) (fun w => (dat3 (U6 m) c).arrAt w 0) (fun w => A_eq3 (U6 m) c w)).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (U7 m c))
        ⊢ (unscopedBufs c (U7 m c) : sProp 𝕄) :=
      (arrays3_iff (F := F) c (U7 m c) (U6 m) (fun w => (dat3 (U6 m) c).arrAt w cfg3.N) (hF3 m c)).2
    have hrest : Pipeline.unscopedRest (Ix := Unit) (Name := ℕ) (U := UR sig nD τ) (Lvl := ℕ) spec3 c (U6 m c)
        = Pipeline.unscopedRest spec3 c (U7 m c) := by
      unfold Pipeline.unscopedRest
      exact bigSep_congr fun b hb => by rw [hrest3 m c b (Finset.mem_sdiff.mp hb).2]
    rw [Pipeline.unscopedBufs_held] at hjoin
    rw [hrest]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m) ]
/-- The program IS the run of the segments. -/
theorem main_run (c : Dev nD) : main (F := F) c = Pipeline.Seg.run (segs m) := (main_chain c).trans (by chain_rfl)

set_option backward.isDefEq.respectTransparency.types false in
/-- THE RUN: from any memory with zero counters every weakly fair execution of the program terminates, nothing faults,
    and the final state holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.Kernel.Hand

end
-- ==== Proof.K.Args.lean ====
import proofs.«135382_j20864951123973_2_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Every argument array ends as launched, and the frame: read off the run's last boundary. -/

variable (m : (ℓ : Loc nD τ sig) → Buf (Elt F) ℓ) (ρ : Dev nD → PrngReg)

/-- Argument 0 reaches the end as launched: no host operation writes it and no region changes it. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (U1 m) c).arrAt_in 0 rfl _).trans (A_eq0 (U1 m) c 0))
    _ = W0 m c (Proc.devRef .tc main_arg0) := StableHlo.after_of_writes_sub hostOps0 _ hostOps0_writes (by decide)
    _ = m ((c : Thread nD τ).loc main_arg0) := rfl

/-- Argument 1 reaches the end as launched: no host operation writes it and no region changes it. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- Argument 2 reaches the end as launched: no host operation writes it and no region changes it. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- Argument 3 reaches the end as launched: no host operation writes it and no region changes it. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- Argument 4 reaches the end as launched: no host operation writes it and no region changes it. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- Argument 5 reaches the end as launched: no host operation writes it and no region changes it. -/
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of_ne m c main_arg5 (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- Argument 6 reaches the end as launched: no host operation writes it and no region changes it. -/
theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_of_ne m c main_arg6 (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- Argument 7 reaches the end as launched: no host operation writes it and no region changes it. -/
theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_of_ne m c main_arg7 (by decide)
    _ = W5 m c (Proc.devRef .tc main_arg7) := (W6_arr m c 2).trans (((dat2 (U5 m) c).arrAt_in 2 rfl _).trans (A_eq2 (U5 m) c 2))
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-- The frame: the program runs to the end, nothing faults, and every argument array holds its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c)⟩) (run m ρ)

/-- The run with the result named: the result array ends at the last boundary's contents, the arguments as launched. -/
theorem run_out : θ_run defs (onTc (τ := τ) (main (F := F))) ⟨m, fun _ => 0, ρ⟩ (fun r => ∀ c : Dev nD,
      r.2.mem ((c.tc : Thread nD τ).loc main_v27) = W7 m c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v27 (by decide)),
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c)⟩) (run m ρ)

end Cert.Kernel.Hand

end
-- ==== Proof.KI.Blocks.lean ====
import proofs.«135382_j20864951123973_2_alg».proof.Proof.Gen.KernelIdeal.Launch
import proofs.«135382_j20864951123973_2_alg».proof.Proof.Gen.KernelIdeal.Skeleton
import proofs.«135382_j20864951123973_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! What each of the four kernel regions does to its windows, stated at a parameter `V`: the contents of the
    TensorCore's buffers when the region is entered. Per region: a window's block at a grid point, the value the
    body's one store leaves in the output window's buffer (the payload of the input blocks), and the pipeline's
    proof data built from them. -/

variable (V : (c : Dev nD) → (b : Ref sig .tc) → Buf (Elt F) ((c : Thread nD τ).loc b))

/-! ## Region 0 -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetches it or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
abbrev r0_0 : Rect S2048x256 := Rect.unit (s := S2048x256) ![0, 0] S2048x256.size inb_S2048x256_S2048x256_0_0
abbrev r0_1 : Rect S256x128 := Rect.unit (s := S256x128) ![0, 0] S256x128.size inb_S256x128_S256x128_0_0
abbrev r0_2 : Rect S2048x128 := Rect.unit (s := S2048x128) ![0, 0] S2048x128.size inb_S2048x128_S2048x128_0_0

/-- The output window's staging buffer after the body: its one store, the payload of the input blocks. -/
def out0_2 (x0 : Vec F S2048x256 .f32) (x1 : Vec F S256x128 .bf16) : Vec F S2048x128 .f32 :=
  View.canon [⟨r0_2, k0_pay1 (View.ld x0 r0_0) (View.ld x1 r0_1)⟩]

/-- The store's rectangle is the whole buffer. -/
theorem cover0_2 (p0 : Vec F S2048x128 .f32) (y : S2048x128.Idx) :
    ∃ pc ∈ ([⟨r0_2, p0⟩] : List (View.Piece (Elt F) S2048x128 .f32)), y ∈ pc.1.set :=
  View.cover_of_tiled [⟨r0_2, p0⟩] S2048x128.size (by rfl) y

/-- The proof data of pipeline 0 on core `c`: the arrays as the region finds them; after the body at point `t` each
    input's buffer still at its block and the output's at the payload of the input blocks; nothing owed, full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## Region 1 -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, whether the point fetches it or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, whether the point fetches it or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
abbrev r1_0 : Rect S2048x128 := Rect.unit (s := S2048x128) ![0, 0] S2048x128.size inb_S2048x128_S2048x128_0_0
abbrev r1_1 : Rect S1x128 := Rect.unit (s := S1x128) ![0, 0] S1x128.size inb_S1x128_S1x128_0_0
abbrev r1_2 : Rect S128x32 := Rect.unit (s := S128x32) ![0, 0] S128x32.size inb_S128x32_S128x32_0_0
abbrev r1_3 : Rect S2048x32 := Rect.unit (s := S2048x32) ![0, 0] S2048x32.size inb_S2048x32_S2048x32_0_0

/-- The output window's staging buffer after the body: its one store, the payload of the input blocks. -/
def out1_3 (x0 : Vec F S2048x128 .f32) (x1 : Vec F S1x128 .f32) (x2 : Vec F S128x32 .bf16) : Vec F S2048x32 .f32 :=
  View.canon [⟨r1_3, k1_pay1 (View.ld x0 r1_0) (View.ld x1 r1_1) (View.ld x2 r1_2)⟩]

/-- The store's rectangle is the whole buffer. -/
theorem cover1_3 (p0 : Vec F S2048x32 .f32) (y : S2048x32.Idx) :
    ∃ pc ∈ ([⟨r1_3, p0⟩] : List (View.Piece (Elt F) S2048x32 .f32)), y ∈ pc.1.set :=
  View.cover_of_tiled [⟨r1_3, p0⟩] S2048x32.size (by rfl) y

/-- The proof data of pipeline 1 on core `c`: the arrays as the region finds them; after the body at point `t` each
    input's buffer still at its block and the output's at the payload of the input blocks; nothing owed, full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## Region 2 -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the point fetches it or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the point fetches it or not. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the point fetches it or not. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
abbrev r2_0 : Rect S2048x32 := Rect.unit (s := S2048x32) ![0, 0] S2048x32.size inb_S2048x32_S2048x32_0_0
abbrev r2_1 : Rect S1x32 := Rect.unit (s := S1x32) ![0, 0] S1x32.size inb_S1x32_S1x32_0_0
abbrev r2_2 : Rect S2048x32 := Rect.unit (s := S2048x32) ![0, 0] S2048x32.size inb_S2048x32_S2048x32_0_0
abbrev r2_3 : Rect S2048x32 := Rect.unit (s := S2048x32) ![0, 0] S2048x32.size inb_S2048x32_S2048x32_0_0

/-- The output window's staging buffer after the body: its one store, the payload of the input blocks. -/
def out2_3 (x0 : Vec F S2048x32 .f32) (x1 : Vec F S1x32 .f32) (x2 : Vec F S2048x32 .f32) : Vec F S2048x32 .f32 :=
  View.canon [⟨r2_3, k2_pay1 (View.ld x0 r2_0) (View.ld x1 r2_1) (View.ld x2 r2_2)⟩]

/-- The store's rectangle is the whole buffer. -/
theorem cover2_3 (p0 : Vec F S2048x32 .f32) (y : S2048x32.Idx) :
    ∃ pc ∈ ([⟨r2_3, p0⟩] : List (View.Piece (Elt F) S2048x32 .f32)), y ∈ pc.1.set :=
  View.cover_of_tiled [⟨r2_3, p0⟩] S2048x32.size (by rfl) y

/-- The proof data of pipeline 2 on core `c`: the arrays as the region finds them; after the body at point `t` each
    input's buffer still at its block and the output's at the payload of the input blocks; nothing owed, full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## Region 3 -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, whether the point fetches it or not. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, whether the point fetches it or not. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
abbrev r3_0 : Rect S2048x32 := Rect.unit (s := S2048x32) ![0, 0] S2048x32.size inb_S2048x32_S2048x32_0_0
abbrev r3_1 : Rect S1024x32 := Rect.unit (s := S1024x32) ![0, 0] S1024x32.size inb_S1024x32_S1024x32_0_0
abbrev r3_2 : Rect S2048x1024 := Rect.unit (s := S2048x1024) ![0, 0] S2048x1024.size inb_S2048x1024_S2048x1024_0_0

/-- The output window's staging buffer after the body: its one store, the payload of the input blocks. -/
def out3_2 (x0 : Vec F S2048x32 .f32) (x1 : Vec F S1024x32 .f32) : Vec F S2048x1024 .f32 :=
  View.canon [⟨r3_2, k3_pay1 (View.ld x0 r3_0) (View.ld x1 r3_1)⟩]

/-- The store's rectangle is the whole buffer. -/
theorem cover3_2 (p0 : Vec F S2048x1024 .f32) (y : S2048x1024.Idx) :
    ∃ pc ∈ ([⟨r3_2, p0⟩] : List (View.Piece (Elt F) S2048x1024 .f32)), y ∈ pc.1.set :=
  View.cover_of_tiled [⟨r3_2, p0⟩] S2048x1024.size (by rfl) y

/-- The proof data of pipeline 3 on core `c`: the arrays as the region finds them; after the body at point `t` each
    input's buffer still at its block and the output's at the payload of the input blocks; nothing owed. The two input
    windows read ONE array, so each holds it at one half of the full share. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q w := match w with
    | ⟨0, _⟩ => fullShare.left
    | ⟨1, _⟩ => fullShare.right
    | ⟨2, _⟩ => fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

end Cert.KernelIdeal.Hand

end
-- ==== Proof.KI.Body0.lean ====
import proofs.«135382_j20864951123973_2_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 0's body obligation: the kernel function, called on whole staging buffers holding the input windows'
    blocks, loads them, stores the payload into the output window's buffer and leaves the inputs as they were. -/

variable (V : (c : Dev nD) → (b : Ref sig .tc) → Buf (Elt F) ((c : Thread nD τ).loc b))

set_option maxHeartbeats 4000000 in
/-- The body on whole staging memrefs: the inputs' at read contents, the output's at anything; it ends with the inputs'
    unchanged and the output's at the payload of the inputs. -/
theorem sound_kernel0 (c : Dev nD) (E : Set ℕ) (i : grid0.Coords) (arg0 : Memref sig .tc .vmem S2048x256 .f32) (harg0 : arg0.IsWhole) (arg1 : Memref sig .tc .vmem S256x128 .bf16) (harg1 : arg1.IsWhole) (arg2 : Memref sig .tc .vmem S2048x128 .f32) (harg2 : arg2.IsWhole)
    (x0 : Vec F S2048x256 .f32) (x1 : Vec F S256x128 .bf16) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__project0_kernel i arg0 harg0 arg1 harg1 arg2 harg2) K := by
  simp only [cc0__project0_kernel_eq_skeleton]; unfold cc0__project0_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«135382_j20864951123973_2_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 1's body obligation: the kernel function, called on whole staging buffers holding the input windows'
    blocks, loads them, stores the payload into the output window's buffer and leaves the inputs as they were. -/

variable (V : (c : Dev nD) → (b : Ref sig .tc) → Buf (Elt F) ((c : Thread nD τ).loc b))

set_option maxHeartbeats 4000000 in
/-- The body on whole staging memrefs: the inputs' at read contents, the output's at anything; it ends with the inputs'
    unchanged and the output's at the payload of the inputs. -/
theorem sound_kernel1 (c : Dev nD) (E : Set ℕ) (i : grid1.Coords) (arg0 : Memref sig .tc .vmem S2048x128 .f32) (harg0 : arg0.IsWhole) (arg1 : Memref sig .tc .vmem S1x128 .f32) (harg1 : arg1.IsWhole) (arg2 : Memref sig .tc .vmem S128x32 .bf16) (harg2 : arg2.IsWhole) (arg3 : Memref sig .tc .vmem S2048x32 .f32) (harg3 : arg3.IsWhole)
    (x0 : Vec F S2048x128 .f32) (x1 : Vec F S1x128 .f32) (x2 : Vec F S128x32 .bf16) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out1_3 x0 x1 x2)) -∗ K ⟨⟩))
      ⊢ wp frame (wpE (defs₀ (F := F)) Variants.none c none) E (cc1__post0_project1_kernel i arg0 harg0 arg1 harg1 arg2 harg2 arg3 harg3) K := by
  simp only [cc1__post0_project1_kernel_eq_skeleton]; unfold cc1__post0_project1_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so `sound_kernel1` applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Body2.lean ====
import proofs.«135382_j20864951123973_2_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 2's body obligation: the kernel function, called on whole staging buffers holding the input windows'
    blocks, loads them, stores the payload into the output window's buffer and leaves the inputs as they were. -/

variable (V : (c : Dev nD) → (b : Ref sig .tc) → Buf (Elt F) ((c : Thread nD τ).loc b))

set_option maxHeartbeats 4000000 in
/-- The body on whole staging memrefs: the inputs' at read contents, the output's at anything; it ends with the inputs'
    unchanged and the output's at the payload of the inputs. -/
theorem sound_kernel2 (c : Dev nD) (E : Set ℕ) (i : grid2.Coords) (arg0 : Memref sig .tc .vmem S2048x32 .f32) (harg0 : arg0.IsWhole) (arg1 : Memref sig .tc .vmem S1x32 .f32) (harg1 : arg1.IsWhole) (arg2 : Memref sig .tc .vmem S2048x32 .f32) (harg2 : arg2.IsWhole) (arg3 : Memref sig .tc .vmem S2048x32 .f32) (harg3 : arg3.IsWhole)
    (x0 : Vec F S2048x32 .f32) (x1 : Vec F S1x32 .f32) (x2 : Vec F S2048x32 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__finalize_z_kernel i arg0 harg0 arg1 harg1 arg2 harg2 arg3 harg3) K := by
  simp only [cc2__finalize_z_kernel_eq_skeleton]; unfold cc2__finalize_z_kernel_skel
  unfold owns
  iintro ⟨⟨%f0, %hf0, H0⟩, ⟨%f1, %hf1, H1⟩, ⟨%f2, %hf2, H2⟩, ⟨%d3, %f3, -, H3⟩, Hk⟩
  subst hf0
  subst hf1
  subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' buffers hold their blocks, so `sound_kernel2` applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KI.Body3.lean ====
import proofs.«135382_j20864951123973_2_alg».proof.Proof.KI.Blocks

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Region 3's body obligation: the kernel function, called on whole staging buffers holding the input windows'
    blocks, loads them, stores the payload into the output window's buffer and leaves the inputs as they were. -/

variable (V : (c : Dev nD) → (b : Ref sig .tc) → Buf (Elt F) ((c : Thread nD τ).loc b))

set_option maxHeartbeats 4000000 in
/-- The body on whole staging memrefs: the inputs' at read contents, the output's at anything; it ends with the inputs'
    unchanged and the output's at the payload of the inputs. -/
theorem sound_kernel3 (c : Dev nD) (E : Set ℕ) (i : grid3.Coords) (arg0 : Memref sig .tc .vmem S2048x32 .f32) (harg0 : arg0.IsWhole) (arg1 : Memref sig .tc .vmem S1024x32 .f32) (harg1 : arg1.IsWhole) (arg2 : Memref sig .tc .vmem S2048x1024 .f32) (harg2 : arg2.IsWhole)
    (x0 : Vec F S2048x32 .f32) (x1 : Vec F S1024x32 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__outer_kernel i arg0 harg0 arg1 harg1 arg2 harg2) K := by
  simp only [cc3__outer_kernel_eq_skeleton]; unfold cc3__outer_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Run.lean ====
import proofs.«135382_j20864951123973_2_alg».proof.Proof.KI.Body0
import proofs.«135382_j20864951123973_2_alg».proof.Proof.KI.Body1
import proofs.«135382_j20864951123973_2_alg».proof.Proof.KI.Body2
import proofs.«135382_j20864951123973_2_alg».proof.Proof.KI.Body3
import proofs.«135382_j20864951123973_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The whole run of the program: three stretches of host operations and four kernel regions, in order. The contents of
    every unscoped buffer are followed from the launch memory through each item — a host stretch applies its operations,
    a region replaces its output array by what its grid points wrote back and leaves everything else — and the final
    state holds every unscoped buffer at the last of these. -/

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev U1 : (c : Dev nD) → (b : Ref sig .tc) → Buf (Elt F) ((c : Thread nD τ).loc b) := fun c b => W1 m c b

/-- At region 0's exit: its arrays at what the pipeline leaves, every other buffer as entered. -/
def W2 (c : Dev nD) : Valuation τ sig (Elt F) :=
  Pipeline.withArrays spec0 c (W1 m c) fun w => (dat0 (U1 m) c).arrAt w cfg0.N
theorem W2_arr (c : Dev nD) (w : Fin cfg0.W) :
    W2 m c (Proc.devRef .tc (Pipeline.arrRef spec0 w)) = (dat0 (U1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- The same read at the TensorCore's references. -/
abbrev U2 : (c : Dev nD) → (b : Ref sig .tc) → Buf (Elt F) ((c : Thread nD τ).loc b) := fun c b => W2 m c b
theorem hF0 (c : Dev nD) (w : Fin cfg0.W) : (dat0 (U1 m) c).arrAt w cfg0.N = U2 m c (Pipeline.arrRef spec0 w) :=
  (W2_arr m c w).symm
theorem hrest0 (c : Dev nD) : ∀ b, b ∉ Finset.univ.image (Pipeline.arrRef spec0) → U2 m c b = U1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev U3 : (c : Dev nD) → (b : Ref sig .tc) → Buf (Elt F) ((c : Thread nD τ).loc b) := fun c b => W3 m c b

/-- At region 1's exit: its arrays at what the pipeline leaves, every other buffer as entered. -/
def W4 (c : Dev nD) : Valuation τ sig (Elt F) :=
  Pipeline.withArrays spec1 c (W3 m c) fun w => (dat1 (U3 m) c).arrAt w cfg1.N
theorem W4_arr (c : Dev nD) (w : Fin cfg1.W) :
    W4 m c (Proc.devRef .tc (Pipeline.arrRef spec1 w)) = (dat1 (U3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- The same read at the TensorCore's references. -/
abbrev U4 : (c : Dev nD) → (b : Ref sig .tc) → Buf (Elt F) ((c : Thread nD τ).loc b) := fun c b => W4 m c b
theorem hF1 (c : Dev nD) (w : Fin cfg1.W) : (dat1 (U3 m) c).arrAt w cfg1.N = U4 m c (Pipeline.arrRef spec1 w) :=
  (W4_arr m c w).symm
theorem hrest1 (c : Dev nD) : ∀ b, b ∉ Finset.univ.image (Pipeline.arrRef spec1) → U4 m c b = U3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev U5 : (c : Dev nD) → (b : Ref sig .tc) → Buf (Elt F) ((c : Thread nD τ).loc b) := fun c b => W5 m c b

/-- At region 2's exit: its arrays at what the pipeline leaves, every other buffer as entered. -/
def W6 (c : Dev nD) : Valuation τ sig (Elt F) :=
  Pipeline.withArrays spec2 c (W5 m c) fun w => (dat2 (U5 m) c).arrAt w cfg2.N
theorem W6_arr (c : Dev nD) (w : Fin cfg2.W) :
    W6 m c (Proc.devRef .tc (Pipeline.arrRef spec2 w)) = (dat2 (U5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- The same read at the TensorCore's references. -/
abbrev U6 : (c : Dev nD) → (b : Ref sig .tc) → Buf (Elt F) ((c : Thread nD τ).loc b) := fun c b => W6 m c b
theorem hF2 (c : Dev nD) (w : Fin cfg2.W) : (dat2 (U5 m) c).arrAt w cfg2.N = U6 m c (Pipeline.arrRef spec2 w) :=
  (W6_arr m c w).symm
theorem hrest2 (c : Dev nD) : ∀ b, b ∉ Finset.univ.image (Pipeline.arrRef spec2) → U6 m c b = U5 m c b :=
  fun b hb => W6_of_ne m c b fun w e => hb (Finset.mem_image.mpr ⟨w, Finset.mem_univ _, e⟩)

/-- At region 3's exit: the result array at what the grid points wrote back; every other buffer as entered (the array
    its two input windows read included: nothing writes it). -/
def W7 (c : Dev nD) : Valuation τ sig (Elt F) :=
  Function.update (W6 m c) (Proc.devRef .tc main_v27) ((dat3 (U6 m) c).arrAt 2 cfg3.N)
abbrev U7 : (c : Dev nD) → (b : Ref sig .tc) → Buf (Elt F) ((c : Thread nD τ).loc b) := fun c b => W7 m c b
theorem W7_out (c : Dev nD) : W7 m c (Proc.devRef .tc main_v27) = (dat3 (U6 m) c).arrAt 2 cfg3.N := by
  unfold W7; exact Function.update_self ..
theorem W7_of_ne (c : Dev nD) (b : Ref sig .tc) (hb : b ≠ main_v27) : W7 m c (Proc.devRef .tc b) = W6 m c (Proc.devRef .tc b) := by
  unfold W7; exact Function.update_of_ne (StableHlo.devRef_ne_of_ne hb) ..
theorem hF3 (c : Dev nD) (w : Fin cfg3.W) : (dat3 (U6 m) c).arrAt w cfg3.N = U7 m c (Pipeline.arrRef spec3 w) := by
  match w with
  | ⟨0, _⟩ => exact (((dat3 (U6 m) c).arrAt_in 0 rfl _).trans (A_eq3 (U6 m) c 0)).trans (W7_of_ne m c main_v26 (by decide)).symm
  | ⟨1, _⟩ => exact (((dat3 (U6 m) c).arrAt_in 1 rfl _).trans (A_eq3 (U6 m) c 1)).trans (W7_of_ne m c main_v26 (by decide)).symm
  | ⟨2, _⟩ => exact (W7_out m c).symm
theorem hrest3 (c : Dev nD) : ∀ b, b ∉ Finset.univ.image (Pipeline.arrRef spec3) → U7 m c b = U6 m c b :=
  fun b hb => W7_of_ne m c b fun e => hb (Finset.mem_image.mpr ⟨2, Finset.mem_univ _, e.symm⟩)

/-! ## Region 3's arrays among the unscoped buffers: one array behind two windows -/

/-- The buffers behind region 3's windows are two: the node rows (read by both input windows) and the result. -/
theorem arrs3 : Finset.univ.image (Pipeline.arrRef spec3) = {main_v26, main_v27} := by decide

/-- A core's unscoped buffers at contents `V` are region 3's arrays at `V` — the shared array split into its two halves,
    one per input window — and the unscoped rest; and back. -/
theorem arrays3_iff (c : Dev nD) (V : (b : Ref sig .tc) → Buf (Elt F) ((c : Thread nD τ).loc b))
    (V' : (c : Dev nD) → (b : Ref sig .tc) → Buf (Elt F) ((c : Thread nD τ).loc b))
    (F₃ : (w : Fin cfg3.W) → Buf (Elt F) ((cfg3.win w).arr.view.loc (c : Thread nD τ)))
    (hF : ∀ w, F₃ w = V (Pipeline.arrRef spec3 w)) :
    (unscopedBufs c V : sProp 𝕄) ⊣⊢ iprop((dat3 V' c).arrays F₃ ∗ Pipeline.unscopedRest spec3 c V) := by
  rw [Pipeline.unscopedBufs_split₀ cfgs 3 winFacts₀3.arr_unscoped c V]
  have himg : Finset.univ.image (Pipeline.arrRef (cfgs 3).spec) = insert main_v26 {main_v27} := by decide
  have h0 : F₃ 0 = V main_v26 := hF 0
  have h1 : F₃ 1 = V main_v26 := hF 1
  have h2 : F₃ 2 = V main_v27 := hF 2
  have harr : (Pipeline.arrBufs (cfgs 3).spec c V : sProp 𝕄)
      = iprop((((c : Thread nD τ).loc main_v26) ↦{fullShare} V main_v26) ∗ (((c : Thread nD τ).loc main_v27) ↦{fullShare} V main_v27)) := by
    unfold Pipeline.arrBufs
    rw [himg, bigSep_insert (by decide), bigSep_singleton]
    rfl
  have hars : ((dat3 V' c).arrays F₃ : sProp 𝕄)
      = iprop((((c : Thread nD τ).loc main_v26) ↦{fullShare.left} V main_v26) ∗ (((c : Thread nD τ).loc main_v26) ↦{fullShare.right} V main_v26)
          ∗ (((c : Thread nD τ).loc main_v27) ↦{fullShare} V main_v27)) := by
    unfold Pipeline.Dat.arrays
    rw [bigSep_W3, (arr_whole3 0).set_eq_univ, (arr_whole3 2).set_eq_univ, h0, h1, h2]
    rfl
  rw [harr, hars]
  have hs : ((((c : Thread nD τ).loc main_v26) ↦{fullShare} V main_v26 : sProp 𝕄))
      ⊣⊢ iprop((((c : Thread nD τ).loc main_v26) ↦{fullShare.left} V main_v26) ∗ (((c : Thread nD τ).loc main_v26) ↦{fullShare.right} V main_v26)) :=
    pointsTo_share (PosShare.mem_left_op_right fullShare)
  refine ⟨sep_mono ?_ .rfl, sep_mono ?_ .rfl⟩
  · iintro ⟨HA, HB⟩
    ihave HA' := hs.1 $$ HA
    icases HA' with ⟨H1, H2⟩
    isplitl [H1]; · iexact H1
    isplitl [H2]; · iexact H2
    iexact HB
  · iintro ⟨H1, H2, HB⟩
    isplitl [H1 H2]
    · iapply hs.2
      isplitl [H1] <;> iassumption
    iexact HB

/-! ## The proof data family and what rides along -/

/-- Every pipeline's proof data, each at its region's entry contents. -/
def pdats : (p : Fin 4) → (c : Dev nD) → Dat τ (Elt F) Unit ℕ (UR sig nD τ) ℕ (Pipeline.pin (pcfgs (F := F)) adm p) c
  | ⟨0, _⟩ => fun c => dat0 (U1 m) c
  | ⟨1, _⟩ => fun c => dat1 (U3 m) c
  | ⟨2, _⟩ => fun c => dat2 (U5 m) c
  | ⟨3, _⟩ => fun c => dat3 (U6 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, none. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last contents, the generator register at some state. -/
abbrev Tₙ (c : Dev nD) : sProp 𝕄 := iprop(StableHlo.held (c : Thread nD τ) (Pipeline.ucRefs τ sig) (W7 m c) ∗ ∃ r, prngReg c r)

/-! ## The regions as segments -/

set_option backward.isDefEq.respectTransparency.types false in
/-- Region 0 over the thread state: entered with every unscoped buffer at the contents the stretch before it left, left
    with them at the same contents but for the region's output array; the generator register goes into the kernel's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (U2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the contents the stretch before it left, left
    with them at the same contents but for the region's output array; the generator register goes into the kernel's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (U4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the contents the stretch before it left, left
    with them at the same contents but for the region's output array; the generator register goes into the kernel's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (U6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state. Its two input windows read one array, so at entry that array's full share is split
    in two halves, one per window, and at exit the halves are put together again. -/
def reg3 : Pipeline.RegionSeg (pcfgs (F := F)) adm (pdats m) () defs₀ 𝒱₀ L lv 3 where
  win := winFacts₀3
  block_pos := block_pos3
  stage_whole := stage_whole3
  K := PEmpty
  osem k := k.elim
  ho := Pipeline.OwnSemFacts.none _
  hbody c := (body_obligation3 (U6 m) c).loose
  hwaits := Pipeline.hwaits_of_owed_zero _ _ _ _ L lv 3 fun _ _ => rfl
  pre c := iprop(StableHlo.held (c : Thread nD τ) (Pipeline.ucRefs τ sig) (W6 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (U6 m c)
  hentry c := by
    rw [Pipeline.ownSems0_none]
    have hsplit : (unscopedBufs c (U6 m c) : sProp 𝕄)
        ⊢ iprop((pdats m 3 c).arrays ((pdats m 3 c).arrAt · 0) ∗ Pipeline.unscopedRest spec3 c (U6 m c)) :=
      (arrays3_iff (F := F) c (U6 m c) (U6 m) (fun w => (dat3 (U6 m) c).arrAt w 0) (fun w => A_eq3 (U6 m) c w)).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin : iprop((pdats m 3 c).arrays ((pdats m 3 c).arrAt · cfg3.N) ∗ Pipeline.unscopedRest spec3 c (U7 m c))
        ⊢ (unscopedBufs c (U7 m c) : sProp 𝕄) :=
      (arrays3_iff (F := F) c (U7 m c) (U6 m) (fun w => (dat3 (U6 m) c).arrAt w cfg3.N) (hF3 m c)).2
    have hrest : Pipeline.unscopedRest (Ix := Unit) (Name := ℕ) (U := UR sig nD τ) (Lvl := ℕ) spec3 c (U6 m c)
        = Pipeline.unscopedRest spec3 c (U7 m c) := by
      unfold Pipeline.unscopedRest
      exact bigSep_congr fun b hb => by rw [hrest3 m c b (Finset.mem_sdiff.mp hb).2]
    rw [Pipeline.unscopedBufs_held] at hjoin
    rw [hrest]
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's seven items in order. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .region (reg3 m) ]
/-- The program IS the run of the segments. -/
theorem main_run (c : Dev nD) : main (F := F) c = Pipeline.Seg.run (segs m) := (main_chain c).trans (by chain_rfl)

set_option backward.isDefEq.respectTransparency.types false in
/-- THE RUN: from any memory with zero counters every weakly fair execution of the program terminates, nothing faults,
    and the final state holds every unscoped buffer of every core at the last boundary's contents. -/
theorem run : θ_run defs (onTc (τ := τ) (main (F := F))) ⟨m, fun _ => 0, ρ⟩ (fun r => ∀ c : Dev nD,
      ∀ b ∈ Pipeline.ucRefs τ sig, r.2.mem (((c : Thread nD τ)).1, b) = W7 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m c b)
    (hfin := fun c s' => by
      iintro ⟨⟨Hh, -⟩, HSI⟩
      unfold StableHlo.held
      imodintro
      iapply (pointsTo_read_all (Pipeline.ucRefs τ sig) (fun b => (((c : Thread nD τ)).1, b)) (W7 m c) s')
      isplitl [Hh] <;> iassumption)
    (hQ := fun s h c => h c)

end Cert.KernelIdeal.Hand

end
-- ==== Proof.KI.Args.lean ====
import proofs.«135382_j20864951123973_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! Every argument array ends as launched, and the frame: read off the run's last boundary. -/

variable (m : (ℓ : Loc nD τ sig) → Buf (Elt F) ℓ) (ρ : Dev nD → PrngReg)

/-- Argument 0 reaches the end as launched: no host operation writes it and no region changes it. -/
theorem W7_main_arg0 (c : Dev nD) : W7 m c (Proc.devRef .tc main_arg0) = m ((c : Thread nD τ).loc main_arg0) :=
  calc W7 m c (Proc.devRef .tc main_arg0)
    _ = W6 m c (Proc.devRef .tc main_arg0) := W7_of_ne m c main_arg0 (by decide)
    _ = W5 m c (Proc.devRef .tc main_arg0) := W6_of_ne m c main_arg0 (by decide)
    _ = W4 m c (Proc.devRef .tc main_arg0) := StableHlo.after_of_writes_sub hostOps2 _ hostOps2_writes (by decide)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (U1 m) c).arrAt_in 0 rfl _).trans (A_eq0 (U1 m) c 0))
    _ = W0 m c (Proc.devRef .tc main_arg0) := StableHlo.after_of_writes_sub hostOps0 _ hostOps0_writes (by decide)
    _ = m ((c : Thread nD τ).loc main_arg0) := rfl

/-- Argument 1 reaches the end as launched: no host operation writes it and no region changes it. -/
theorem W7_main_arg1 (c : Dev nD) : W7 m c (Proc.devRef .tc main_arg1) = m ((c : Thread nD τ).loc main_arg1) :=
  calc W7 m c (Proc.devRef .tc main_arg1)
    _ = W6 m c (Proc.devRef .tc main_arg1) := W7_of_ne m c main_arg1 (by decide)
    _ = W5 m c (Proc.devRef .tc main_arg1) := W6_of_ne m c main_arg1 (by decide)
    _ = W4 m c (Proc.devRef .tc main_arg1) := StableHlo.after_of_writes_sub hostOps2 _ hostOps2_writes (by decide)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

/-- Argument 2 reaches the end as launched: no host operation writes it and no region changes it. -/
theorem W7_main_arg2 (c : Dev nD) : W7 m c (Proc.devRef .tc main_arg2) = m ((c : Thread nD τ).loc main_arg2) :=
  calc W7 m c (Proc.devRef .tc main_arg2)
    _ = W6 m c (Proc.devRef .tc main_arg2) := W7_of_ne m c main_arg2 (by decide)
    _ = W5 m c (Proc.devRef .tc main_arg2) := W6_of_ne m c main_arg2 (by decide)
    _ = W4 m c (Proc.devRef .tc main_arg2) := StableHlo.after_of_writes_sub hostOps2 _ hostOps2_writes (by decide)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

/-- Argument 3 reaches the end as launched: no host operation writes it and no region changes it. -/
theorem W7_main_arg3 (c : Dev nD) : W7 m c (Proc.devRef .tc main_arg3) = m ((c : Thread nD τ).loc main_arg3) :=
  calc W7 m c (Proc.devRef .tc main_arg3)
    _ = W6 m c (Proc.devRef .tc main_arg3) := W7_of_ne m c main_arg3 (by decide)
    _ = W5 m c (Proc.devRef .tc main_arg3) := W6_of_ne m c main_arg3 (by decide)
    _ = W4 m c (Proc.devRef .tc main_arg3) := StableHlo.after_of_writes_sub hostOps2 _ hostOps2_writes (by decide)
    _ = W3 m c (Proc.devRef .tc main_arg3) := W4_of_ne m c main_arg3 (by decide)
    _ = W2 m c (Proc.devRef .tc main_arg3) := StableHlo.after_of_writes_sub hostOps1 _ hostOps1_writes (by decide)
    _ = W1 m c (Proc.devRef .tc main_arg3) := W2_of_ne m c main_arg3 (by decide)
    _ = W0 m c (Proc.devRef .tc main_arg3) := StableHlo.after_of_writes_sub hostOps0 _ hostOps0_writes (by decide)
    _ = m ((c : Thread nD τ).loc main_arg3) := rfl

/-- Argument 4 reaches the end as launched: no host operation writes it and no region changes it. -/
theorem W7_main_arg4 (c : Dev nD) : W7 m c (Proc.devRef .tc main_arg4) = m ((c : Thread nD τ).loc main_arg4) :=
  calc W7 m c (Proc.devRef .tc main_arg4)
    _ = W6 m c (Proc.devRef .tc main_arg4) := W7_of_ne m c main_arg4 (by decide)
    _ = W5 m c (Proc.devRef .tc main_arg4) := W6_of_ne m c main_arg4 (by decide)
    _ = W4 m c (Proc.devRef .tc main_arg4) := StableHlo.after_of_writes_sub hostOps2 _ hostOps2_writes (by decide)
    _ = W3 m c (Proc.devRef .tc main_arg4) := W4_of_ne m c main_arg4 (by decide)
    _ = W2 m c (Proc.devRef .tc main_arg4) := StableHlo.after_of_writes_sub hostOps1 _ hostOps1_writes (by decide)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

/-- Argument 5 reaches the end as launched: no host operation writes it and no region changes it. -/
theorem W7_main_arg5 (c : Dev nD) : W7 m c (Proc.devRef .tc main_arg5) = m ((c : Thread nD τ).loc main_arg5) :=
  calc W7 m c (Proc.devRef .tc main_arg5)
    _ = W6 m c (Proc.devRef .tc main_arg5) := W7_of_ne m c main_arg5 (by decide)
    _ = W5 m c (Proc.devRef .tc main_arg5) := W6_of_ne m c main_arg5 (by decide)
    _ = W4 m c (Proc.devRef .tc main_arg5) := StableHlo.after_of_writes_sub hostOps2 _ hostOps2_writes (by decide)
    _ = W3 m c (Proc.devRef .tc main_arg5) := W4_of_ne m c main_arg5 (by decide)
    _ = W2 m c (Proc.devRef .tc main_arg5) := StableHlo.after_of_writes_sub hostOps1 _ hostOps1_writes (by decide)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

/-- Argument 6 reaches the end as launched: no host operation writes it and no region changes it. -/
theorem W7_main_arg6 (c : Dev nD) : W7 m c (Proc.devRef .tc main_arg6) = m ((c : Thread nD τ).loc main_arg6) :=
  calc W7 m c (Proc.devRef .tc main_arg6)
    _ = W6 m c (Proc.devRef .tc main_arg6) := W7_of_ne m c main_arg6 (by decide)
    _ = W5 m c (Proc.devRef .tc main_arg6) := W6_of_ne m c main_arg6 (by decide)
    _ = W4 m c (Proc.devRef .tc main_arg6) := StableHlo.after_of_writes_sub hostOps2 _ hostOps2_writes (by decide)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

/-- Argument 7 reaches the end as launched: no host operation writes it and no region changes it. -/
theorem W7_main_arg7 (c : Dev nD) : W7 m c (Proc.devRef .tc main_arg7) = m ((c : Thread nD τ).loc main_arg7) :=
  calc W7 m c (Proc.devRef .tc main_arg7)
    _ = W6 m c (Proc.devRef .tc main_arg7) := W7_of_ne m c main_arg7 (by decide)
    _ = W5 m c (Proc.devRef .tc main_arg7) := (W6_arr m c 2).trans (((dat2 (U5 m) c).arrAt_in 2 rfl _).trans (A_eq2 (U5 m) c 2))
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

/-- The frame: the program runs to the end, nothing faults, and every argument array holds its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c)⟩) (run m ρ)

/-- The run with the result named: the result array ends at the last boundary's contents, the arguments as launched. -/
theorem run_out : θ_run defs (onTc (τ := τ) (main (F := F))) ⟨m, fun _ => 0, ρ⟩ (fun r => ∀ c : Dev nD,
      r.2.mem ((c.tc : Thread nD τ).loc main_v27) = W7 m c (Proc.devRef .tc main_v27)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨h c _ (mem_uc main_v27 (by decide)),
    (h c _ (mem_uc main_arg0 (by decide))).trans (W7_main_arg0 m c),
    (h c _ (mem_uc main_arg1 (by decide))).trans (W7_main_arg1 m c),
    (h c _ (mem_uc main_arg2 (by decide))).trans (W7_main_arg2 m c),
    (h c _ (mem_uc main_arg3 (by decide))).trans (W7_main_arg3 m c),
    (h c _ (mem_uc main_arg4 (by decide))).trans (W7_main_arg4 m c),
    (h c _ (mem_uc main_arg5 (by decide))).trans (W7_main_arg5 m c),
    (h c _ (mem_uc main_arg6 (by decide))).trans (W7_main_arg6 m c),
    (h c _ (mem_uc main_arg7 (by decide))).trans (W7_main_arg7 m c)⟩) (run m ρ)

end Cert.KernelIdeal.Hand

end
-- ==== Proof.KI.Mid.lean ====
import proofs.«135382_j20864951123973_2_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The argument arrays at the boundaries where a later item reads them: still as launched. -/

variable (m : (ℓ : Loc nD τ sig) → Buf (Elt F) ℓ)

theorem W1_main_arg0 (c : Dev nD) : W1 m c (Proc.devRef .tc main_arg0) = m ((c : Thread nD τ).loc main_arg0) :=
  calc W1 m c (Proc.devRef .tc main_arg0)
    _ = W0 m c (Proc.devRef .tc main_arg0) := StableHlo.after_of_writes_sub hostOps0 _ hostOps0_writes (by decide)
    _ = m ((c : Thread nD τ).loc main_arg0) := rfl

theorem W1_main_arg3 (c : Dev nD) : W1 m c (Proc.devRef .tc main_arg3) = m ((c : Thread nD τ).loc main_arg3) :=
  calc W1 m c (Proc.devRef .tc main_arg3)
    _ = W0 m c (Proc.devRef .tc main_arg3) := StableHlo.after_of_writes_sub hostOps0 _ hostOps0_writes (by decide)
    _ = m ((c : Thread nD τ).loc main_arg3) := rfl

theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W2_main_arg4 (c : Dev nD) : W2 m c (Proc.devRef .tc main_arg4) = m ((c : Thread nD τ).loc main_arg4) :=
  calc W2 m c (Proc.devRef .tc main_arg4)
    _ = W1 m c (Proc.devRef .tc main_arg4) := W2_of_ne m c main_arg4 (by decide)
    _ = W0 m c (Proc.devRef .tc main_arg4) := StableHlo.after_of_writes_sub hostOps0 _ hostOps0_writes (by decide)
    _ = m ((c : Thread nD τ).loc main_arg4) := rfl

theorem W2_main_arg5 (c : Dev nD) : W2 m c (Proc.devRef .tc main_arg5) = m ((c : Thread nD τ).loc main_arg5) :=
  calc W2 m c (Proc.devRef .tc main_arg5)
    _ = W1 m c (Proc.devRef .tc main_arg5) := W2_of_ne m c main_arg5 (by decide)
    _ = W0 m c (Proc.devRef .tc main_arg5) := StableHlo.after_of_writes_sub hostOps0 _ hostOps0_writes (by decide)
    _ = m ((c : Thread nD τ).loc main_arg5) := rfl

theorem W4_main_arg1 (c : Dev nD) : W4 m c (Proc.devRef .tc main_arg1) = m ((c : Thread nD τ).loc main_arg1) :=
  calc W4 m c (Proc.devRef .tc main_arg1)
    _ = W3 m c (Proc.devRef .tc main_arg1) := W4_of_ne m c main_arg1 (by decide)
    _ = W2 m c (Proc.devRef .tc main_arg1) := StableHlo.after_of_writes_sub hostOps1 _ hostOps1_writes (by decide)
    _ = W1 m c (Proc.devRef .tc main_arg1) := W2_of_ne m c main_arg1 (by decide)
    _ = W0 m c (Proc.devRef .tc main_arg1) := StableHlo.after_of_writes_sub hostOps0 _ hostOps0_writes (by decide)
    _ = m ((c : Thread nD τ).loc main_arg1) := rfl

theorem W4_main_arg2 (c : Dev nD) : W4 m c (Proc.devRef .tc main_arg2) = m ((c : Thread nD τ).loc main_arg2) :=
  calc W4 m c (Proc.devRef .tc main_arg2)
    _ = W3 m c (Proc.devRef .tc main_arg2) := W4_of_ne m c main_arg2 (by decide)
    _ = W2 m c (Proc.devRef .tc main_arg2) := StableHlo.after_of_writes_sub hostOps1 _ hostOps1_writes (by decide)
    _ = W1 m c (Proc.devRef .tc main_arg2) := W2_of_ne m c main_arg2 (by decide)
    _ = W0 m c (Proc.devRef .tc main_arg2) := StableHlo.after_of_writes_sub hostOps0 _ hostOps0_writes (by decide)
    _ = m ((c : Thread nD τ).loc main_arg2) := rfl

theorem W4_main_arg6 (c : Dev nD) : W4 m c (Proc.devRef .tc main_arg6) = m ((c : Thread nD τ).loc main_arg6) :=
  calc W4 m c (Proc.devRef .tc main_arg6)
    _ = W3 m c (Proc.devRef .tc main_arg6) := W4_of_ne m c main_arg6 (by decide)
    _ = W2 m c (Proc.devRef .tc main_arg6) := StableHlo.after_of_writes_sub hostOps1 _ hostOps1_writes (by decide)
    _ = W1 m c (Proc.devRef .tc main_arg6) := W2_of_ne m c main_arg6 (by decide)
    _ = W0 m c (Proc.devRef .tc main_arg6) := StableHlo.after_of_writes_sub hostOps0 _ hostOps0_writes (by decide)
    _ = m ((c : Thread nD τ).loc main_arg6) := rfl

theorem W5_main_arg7 (c : Dev nD) : W5 m c (Proc.devRef .tc main_arg7) = m ((c : Thread nD τ).loc main_arg7) :=
  calc W5 m c (Proc.devRef .tc main_arg7)
    _ = W4 m c (Proc.devRef .tc main_arg7) := StableHlo.after_of_writes_sub hostOps2 _ hostOps2_writes (by decide)
    _ = W3 m c (Proc.devRef .tc main_arg7) := W4_of_ne m c main_arg7 (by decide)
    _ = W2 m c (Proc.devRef .tc main_arg7) := StableHlo.after_of_writes_sub hostOps1 _ hostOps1_writes (by decide)
    _ = W1 m c (Proc.devRef .tc main_arg7) := W2_of_ne m c main_arg7 (by decide)
    _ = W0 m c (Proc.devRef .tc main_arg7) := StableHlo.after_of_writes_sub hostOps0 _ hostOps0_writes (by decide)
    _ = m ((c : Thread nD τ).loc main_arg7) := rfl

end Cert.KernelIdeal.Hand

end
-- ==== Proof.HostIndex.lean ====
import Idealize.ShloMosaic.PureOps.Ideal
import Idealize.ShloMosaic.Lib.ValueIdx

/-! Row gather and row scatter-add read at an index.

A gather of whole rows of an `[N, W]` array by `E` start indices (one word each) reads, at `(e, k)`, the operand at
`(row e, k)`, the row being the start word read signed and clamped into `[0, N − 1]`. A scatter-add of `E` rows of
width `W` into an `[N, W]` array holds at `(n, k)`, over the extended reals, the operand's element plus the sum of the
updates `(e, k)` over the edges `e` whose index word, read signed, is exactly `n` (an index outside `[0, N)` lands
nowhere). Neither the row nor the set of edges depends on the width. -/

noncomputable section

open scoped BigOperators

namespace Cert.HostIndex

open Idealize.ShloMosaic Idealize.ShloMosaic.ValueIdx

/-- The dimension numbers of a gather of whole rows: the result's axis 1 is the row's offset, the operand's axis 0 is
    collapsed and is the one the start index addresses, slices are `1 × W`. -/
abbrev gatherRows (N W E : Nat)
    (wf : GatherDims.WF ⟨2, ![N, W]⟩ ⟨2, ![E, 1]⟩ ⟨2, ![E, W]⟩ [1] [0] [] [0] [] 1 ![1, W]) :
    GatherDims ⟨2, ![N, W]⟩ ⟨2, ![E, 1]⟩ ⟨2, ![E, W]⟩ :=
  { offsetDims := [1], collapsedSliceDims := [0], operandBatchingDims := [], startIndicesBatchingDims := [],
    startIndexMap := [0], indexVectorDim := 1, sliceSizes := ![1, W], wf := wf }

/-- The dimension numbers of a scatter of whole rows: the updates' axis 1 is the window, the operand's axis 0 is
    inserted and is the one the scatter index addresses. -/
abbrev scatterRows (N W E : Nat)
    (wf : ScatterDims.WF ⟨2, ![N, W]⟩ ⟨2, ![E, 1]⟩ ⟨2, ![E, W]⟩ [1] [0] [0] 1) :
    ScatterDims ⟨2, ![N, W]⟩ ⟨2, ![E, 1]⟩ ⟨2, ![E, W]⟩ :=
  { updateWindowDims := [1], insertedWindowDims := [0], scatterDimsToOperandDims := [0], indexVectorDim := 1, wf := wf }

/-- The row a start-index word selects: read signed, clamped into `[0, N − 1]`. -/
def rowOf (N : Nat) (hN : 0 < N) {w : Nat} (v : BitVec w) : Fin N := ⟨min v.toInt.toNat (N - 1), by omega⟩

/-- A row gather at `(e, k)` is the operand at `(rowOf (idx e), k)`. -/
theorem gather_rows_apply {α : Type} {N W E w : Nat} (hN : 0 < N)
    (wf : GatherDims.WF ⟨2, ![N, W]⟩ ⟨2, ![E, 1]⟩ ⟨2, ![E, W]⟩ [1] [0] [] [0] [] 1 ![1, W])
    (x : (⟨2, ![N, W]⟩ : Shape).Idx → α) (idx : IVec ⟨2, ![E, 1]⟩ w) (e : Fin E) (k : Fin W) :
    Host.gather (gatherRows N W E wf) x idx (ix2 e k) = x (ix2 (rowOf N hN (idx (ix2 e (0 : Fin 1)))) k) := by
  unfold Host.gather
  congr 1
  funext a
  refine Fin.ext ?_
  match a with
  | ⟨0, _⟩ =>
    -- axis 0 is collapsed and addressed by the start index: the clamped signed word, nothing added
    show (gatherRows N W E wf).start (ix2 e k) idx 0 + (gatherRows N W E wf).batchCoord (ix2 e k) 0
      + (gatherRows N W E wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherRows N W E wf).startIndexMap from List.mem_singleton.mpr rfl)]
    have hsi : (gatherRows N W E wf).siIdx (ix2 e k) ⟨List.idxOf (0 : Fin 2) (gatherRows N W E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1 is the offset axis: start 0, no batching, the result's coordinate on its axis 1
    show (gatherRows N W E wf).start (ix2 e k) idx 1 + (gatherRows N W E wf).batchCoord (ix2 e k) 1
      + (gatherRows N W E wf).offCoord (ix2 e k) 1 = k.val
    rw [GatherDims.batchCoord_eq_zero _ _ _ List.not_mem_nil]
    have hs : (gatherRows N W E wf).start (ix2 e k) idx 1 = 0 := by
      unfold GatherDims.start
      rw [dif_neg (fun h => absurd (List.mem_singleton.mp h) (show (1 : Fin 2) ≠ 0 by decide))]
    rw [hs]
    simp only [Nat.add_zero, Nat.zero_add]
    rfl

/-! The scatter's start and window of the update `(e, k')` on the operand's two axes. -/

section Scatter
variable {N W E w : Nat} (wf : ScatterDims.WF ⟨2, ![N, W]⟩ ⟨2, ![E, 1]⟩ ⟨2, ![E, W]⟩ [1] [0] [0] 1)
  (idx : IVec ⟨2, ![E, 1]⟩ w) (e : Fin E) (k' : Fin W)

/-- On axis 0 the start is the edge's index word, read signed. -/
private theorem start_zero :
    (scatterRows N W E wf).start (ix2 e k') idx 0 = (idx (ix2 e (0 : Fin 1))).toInt := by
  unfold ScatterDims.start
  rw [dif_pos (show (0 : Fin 2) ∈ (scatterRows N W E wf).scatterDimsToOperandDims from List.mem_singleton.mpr rfl)]
  have hsi : (scatterRows N W E wf).siIdx (ix2 e k') ⟨List.idxOf (0 : Fin 2) (scatterRows N W E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Axis 1 is not addressed by the scatter index: start 0. -/
private theorem start_one : (scatterRows N W E wf).start (ix2 e k') idx 1 = 0 := by
  unfold ScatterDims.start
  rw [dif_neg (fun h => absurd (List.mem_singleton.mp h) (show (1 : Fin 2) ≠ 0 by decide))]

/-- Axis 0 is inserted: window coordinate 0. -/
private theorem window_zero : (scatterRows N W E wf).window (ix2 e k') 0 = 0 := rfl

/-- Axis 1 carries the update's window coordinate. -/
private theorem window_one : (scatterRows N W E wf).window (ix2 e k') 1 = k'.val := rfl

/-- The update `(e, k')` lands at `(n, k)` exactly when the edge's index word is `n` and `k' = k`. -/
private theorem resultIdx_rows_iff (n : Fin N) (k : Fin W) :
    (scatterRows N W E wf).resultIdx? (ix2 e k') idx = some (ix2 n k)
      ↔ (idx (ix2 e (0 : Fin 1))).toInt = (n.val : Int) ∧ k' = k := by
  have h0 : (scatterRows N W E wf).start (ix2 e k') idx 0 + ((scatterRows N W E wf).window (ix2 e k') 0 : Nat)
      = (idx (ix2 e (0 : Fin 1))).toInt := by
    rw [start_zero, window_zero]; simp
  have h1 : (scatterRows N W E wf).start (ix2 e k') idx 1 + ((scatterRows N W E wf).window (ix2 e k') 1 : Nat)
      = (k'.val : Int) := by
    rw [start_one, window_one]; simp
  unfold ScatterDims.resultIdx?
  constructor
  · intro h
    split at h
    · rename_i hc
      have hf := Option.some.inj h
      have e0 : ((scatterRows N W E wf).start (ix2 e k') idx 0
          + ((scatterRows N W E wf).window (ix2 e k') 0 : Nat)).toNat = n.val :=
        congrArg (fun f => (f 0).val) hf
      have e1 : ((scatterRows N W E wf).start (ix2 e k') idx 1
          + ((scatterRows N W E wf).window (ix2 e k') 1 : Nat)).toNat = k.val :=
        congrArg (fun f => (f 1).val) hf
      have c0 := (hc 0).1
      rw [h0] at e0 c0
      rw [h1] at e1
      exact ⟨by omega, Fin.ext (by omega)⟩
    · exact absurd h (by simp)
  · rintro ⟨hn, rfl⟩
    have hc : ∀ a, 0 ≤ (scatterRows N W E wf).start (ix2 e k') idx a + ((scatterRows N W E wf).window (ix2 e k') a : Nat)
        ∧ (scatterRows N W E wf).start (ix2 e k') idx a + ((scatterRows N W E wf).window (ix2 e k') a : Nat)
          < ((⟨2, ![N, W]⟩ : Shape).size a : Nat) := by
      intro a
      match a with
      | ⟨0, _⟩ =>
        show 0 ≤ (scatterRows N W E wf).start (ix2 e k') idx 0 + ((scatterRows N W E wf).window (ix2 e k') 0 : Nat)
          ∧ (scatterRows N W E wf).start (ix2 e k') idx 0 + ((scatterRows N W E wf).window (ix2 e k') 0 : Nat) < (N : Int)
        rw [h0, hn]; have := n.isLt; omega
      | ⟨1, _⟩ =>
        show 0 ≤ (scatterRows N W E wf).start (ix2 e k') idx 1 + ((scatterRows N W E wf).window (ix2 e k') 1 : Nat)
          ∧ (scatterRows N W E wf).start (ix2 e k') idx 1 + ((scatterRows N W E wf).window (ix2 e k') 1 : Nat) < (W : Int)
        rw [h1]; have := k'.isLt; omega
    rw [dif_pos hc]
    refine congrArg some ?_
    funext a
    refine Fin.ext ?_
    match a with
    | ⟨0, _⟩ =>
      show ((scatterRows N W E wf).start (ix2 e k') idx 0 + ((scatterRows N W E wf).window (ix2 e k') 0 : Nat)).toNat = n.val
      rw [h0, hn]; simp
    | ⟨1, _⟩ =>
      show ((scatterRows N W E wf).start (ix2 e k') idx 1 + ((scatterRows N W E wf).window (ix2 e k') 1 : Nat)).toNat = k'.val
      rw [h1]; simp

end Scatter

/-- A row scatter-add over the extended reals at `(n, k)`: the operand's element plus the updates `(e, k)` of the edges
    whose index word is `n`. -/
theorem scatterAdd_rows_apply {N W E w : Nat}
    (wf : ScatterDims.WF ⟨2, ![N, W]⟩ ⟨2, ![E, 1]⟩ ⟨2, ![E, W]⟩ [1] [0] [0] 1)
    (x : (⟨2, ![N, W]⟩ : Shape).Idx → EReal) (idx : IVec ⟨2, ![E, 1]⟩ w) (upd : (⟨2, ![E, W]⟩ : Shape).Idx → EReal)
    (n : Fin N) (k : Fin W) :
    Ideal.hostScatterAdd (scatterRows N W E wf) x idx upd (ix2 n k)
      = x (ix2 n k) + ∑ e ∈ Finset.univ.filter (fun e : Fin E => (idx (ix2 e (0 : Fin 1))).toInt = (n.val : Int)), upd (ix2 e k) := by
  unfold Ideal.hostScatterAdd
  congr 1
  -- the updates that land at `(n, k)` are the `(e, k)` with `e` an edge whose word is `n`: re-index by `e`
  refine Finset.sum_nbij' (fun j => (j 0 : Fin E)) (fun e => ix2 e k) ?_ ?_ ?_ ?_ ?_
  · intro j hj
    obtain ⟨a, b, rfl⟩ : ∃ a b, j = ix2 a b := ⟨_, _, eq_ix2 j⟩
    exact Finset.mem_filter.2 ⟨Finset.mem_univ _, ((resultIdx_rows_iff wf idx a b n k).1 (Finset.mem_filter.1 hj).2).1⟩
  · intro e he
    exact Finset.mem_filter.2 ⟨Finset.mem_univ _, (resultIdx_rows_iff wf idx e k n k).2 ⟨(Finset.mem_filter.1 he).2, rfl⟩⟩
  · intro j hj
    obtain ⟨a, b, rfl⟩ : ∃ a b, j = ix2 a b := ⟨_, _, eq_ix2 j⟩
    obtain ⟨-, rfl⟩ := (resultIdx_rows_iff wf idx a b n k).1 (Finset.mem_filter.1 hj).2
    rfl
  · intro e _
    rfl
  · intro j hj
    obtain ⟨a, b, rfl⟩ : ∃ a b, j = ix2 a b := ⟨_, _, eq_ix2 j⟩
    obtain ⟨-, rfl⟩ := (resultIdx_rows_iff wf idx a b n k).1 (Finset.mem_filter.1 hj).2
    rfl

end Cert.HostIndex

end
-- ==== Proof.Spec.lean ====
import Idealize.ShloMosaic.PureOps.Ideal
import Idealize.ShloMosaic.Lib.ValueIdx
import proofs.«135382_j20864951123973_2_alg».proof.Proof.HostIndex

/-! The two computations, as functions of the argument arrays, over any scalar type with a sum, a product and a maximum.

A graph on `N` nodes is given by `E` edges; edge `e` reads node `row e` and lands at the nodes `n` with `e ∈ into n`.
Neighbour aggregation sums, at node `n`, the rows read by the edges landing there. Both computations are two rounds of
"aggregate, multiply by a weight matrix, add a bias", a rectifier after the first round, a mask after the second, and then
the matrix of inner products of the nodes' final rows. They differ only in the order of "aggregate" and "multiply":
the reference aggregates first, the kernel multiplies first. -/

noncomputable section

open scoped BigOperators

namespace Cert.Spec

open Idealize.ShloMosaic Idealize.ShloMosaic.ValueIdx

variable {R : Type} [AddCommMonoid R] [Mul R] [Max R]
variable {N E K J C : Type} [Fintype K] [Fintype J] [Fintype C]

/-- Neighbour aggregation: at node `n`, the sum over the edges landing at `n` of the row each reads. -/
def agg (row : E → N) (into : N → Finset E) {K : Type} (X : N → K → R) : N → K → R :=
  fun n k => ∑ e ∈ into n, X (row e) k

/-- The matrix product. -/
def mm {K J : Type} [Fintype K] (X : N → K → R) (W : K → J → R) : N → J → R :=
  fun n j => ∑ k, X n k * W k j

/-- The reference's node rows: aggregate, then multiply. -/
def zRef (row : E → N) (into : N → Finset E) (feat : N → K → R) (W0 : K → J → R) (b0 : J → R) (W1 : J → C → R) (b1 : C → R)
    (drop : N → C → R) : N → C → R :=
  fun n c => (mm (agg row into fun n j => max (mm (agg row into feat) W0 n j + b0 j) 0) W1 n c + b1 c) * drop n c

/-- The kernel's node rows: multiply, then aggregate. -/
def zKer (row : E → N) (into : N → Finset E) (feat : N → K → R) (W0 : K → J → R) (b0 : J → R) (W1 : J → C → R) (b1 : C → R)
    (drop : N → C → R) : N → C → R :=
  fun n c => (agg row into (mm (fun n j => max (agg row into (mm feat W0) n j + b0 j) 0) W1) n c + b1 c) * drop n c

/-- The matrix of inner products of the rows. -/
def outer (z : N → C → R) : N → N → R := fun n n' => ∑ c, z n c * z n' c

/-! ## The graph both programs read off their two index arrays -/

/-- A source index word as both programs normalise it: a negative word has the node count added. -/
def normWord (v : BitVec 32) : BitVec 32 := Scalar.select (IntOp.cmpi .slt v 0#32) (IntOp.addi v 16384#32) v

/-- The node edge `e` reads: its normalised source word, read signed and clamped into the node range. -/
def row (src : (⟨1, ![524288]⟩ : Shape).Idx → BitVec 32) (e : Fin 524288) : Fin 16384 :=
  Cert.HostIndex.rowOf 16384 (by decide) (normWord (src (ix1 e)))

/-- The edges landing at node `n`: those whose destination word, read signed, is `n`. -/
def into (dst : (⟨1, ![524288]⟩ : Shape).Idx → BitVec 32) (n : Fin 16384) : Finset (Fin 524288) :=
  Finset.univ.filter fun e => (dst (ix1 e)).toInt = (n.val : Int)

/-- A rank-2 array as a function of its two coordinates. -/
abbrev at2 {α : Type} {a b : Nat} (x : (⟨2, ![a, b]⟩ : Shape).Idx → α) : Fin a → Fin b → α := fun i j => x (ix2 i j)
/-- A rank-1 array as a function of its coordinate. -/
abbrev at1 {α : Type} {a : Nat} (x : (⟨1, ![a]⟩ : Shape).Idx → α) : Fin a → α := fun i => x (ix1 i)

end Cert.Spec

end
-- ==== Proof.AggApply.lean ====
import proofs.«135382_j20864951123973_2_alg».proof.Proof.Spec
import proofs.«135382_j20864951123973_2_alg».proof.Proof.HostIndex

/-! The aggregation stage read at an index: a scatter-add, into zeros, of the rows a gather read, is the
    specification's neighbour aggregation — whatever the row width. -/

noncomputable section

open scoped BigOperators

namespace Cert.Spec

open Idealize.ShloMosaic Idealize.ShloMosaic.ValueIdx Cert.HostIndex

/-- Scatter-add into an all-zero array, at the destination words, of the rows gathered at the normalised source words:
    at `(n, k)` the sum, over the edges landing at `n`, of the entry `k` of the row each reads. -/
theorem agg_apply {W : Nat}
    (wfg : GatherDims.WF ⟨2, ![16384, W]⟩ ⟨2, ![524288, 1]⟩ ⟨2, ![524288, W]⟩ [1] [0] [] [0] [] 1 ![1, W])
    (wfs : ScatterDims.WF ⟨2, ![16384, W]⟩ ⟨2, ![524288, 1]⟩ ⟨2, ![524288, W]⟩ [1] [0] [0] 1)
    (zero : (⟨2, ![16384, W]⟩ : Shape).Idx → EReal) (hz : ∀ i, zero i = 0)
    (X : (⟨2, ![16384, W]⟩ : Shape).Idx → EReal) (src dst : (⟨1, ![524288]⟩ : Shape).Idx → BitVec 32)
    (scol dcol : IVec ⟨2, ![524288, 1]⟩ 32)
    (hs : ∀ e : Fin 524288, scol (ix2 e (0 : Fin 1)) = normWord (src (ix1 e)))
    (hd : ∀ e : Fin 524288, dcol (ix2 e (0 : Fin 1)) = dst (ix1 e)) (n : Fin 16384) (k : Fin W) :
    Ideal.hostScatterAdd (scatterRows 16384 W 524288 wfs) zero dcol (Host.gather (gatherRows 16384 W 524288 wfg) X scol) (ix2 n k)
      = agg (row src) (into dst) (at2 X) n k := by
  rw [scatterAdd_rows_apply, hz, zero_add]
  unfold agg into row at2
  simp only [hd, gather_rows_apply (by decide : 0 < 16384), hs]

end Cert.Spec

end
-- ==== Proof.KI.HostVals.lean ====
import proofs.«135382_j20864951123973_2_alg».proof.Proof.Gen.KernelIdeal.Launch
import proofs.«135382_j20864951123973_2_alg».proof.Proof.AggApply
import Idealize.ShloMosaic.Lib.Pipeline.Value
import Idealize.ShloMosaic.Lib.ValueIdx
import Idealize.ShloMosaic.Lib.StableHlo.Run
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

/-! What the host stretches between the regions compute, over the extended reals, read at an index — from ANY contents
    `Wv` of the buffers before the stretch. The first stretch rounds the first weight matrix (the identity here); the
    second aggregates the first projection over the graph, re-lays the first bias as a row and rounds the second weight
    matrix; the third aggregates the second projection and re-lays the second bias. -/

variable (Wv : Valuation τ sig (Elt Ideal))

/-- A column of words read at `(e, 0)` is the word `e`. -/
theorem col_apply (y : (⟨S524288, .i32⟩ : BufTy).Contents (Elt Ideal)) (e : Fin 524288) :
    broadcastInDim S524288x1 ![0] bcast_S524288_S524288x1_0 y (ix2 e (0 : Fin 1)) = y (ix1 e) :=
  broadcastInDim_apply _ bcast_S524288_S524288x1_0 y (ix2 e (0 : Fin 1)) (ix1 e) (fun a => match a with
    | ⟨0, _⟩ => by show e.val = if (524288 : Nat) = 1 then 0 else e.val; rw [if_neg (by decide)])

/-- The normalised source words as a column: at `(e, 0)` the normalised word `e`. -/
theorem srcCol_apply (src : (⟨S524288, .i32⟩ : BufTy).Contents (Elt Ideal)) (e : Fin 524288) :
    broadcastInDim S524288x1 ![0] bcast_S524288_S524288x1_0
        (select (cmpi .slt src (broadcastInDim S524288 ![] bcast_S_S524288 (constantI S_ 32 0#32)))
          (addi src (broadcastInDim S524288 ![] bcast_S_S524288 (constantI S_ 32 16384#32))) src) (ix2 e (0 : Fin 1))
      = Cert.Spec.normWord (src (ix1 e)) := by
  rw [col_apply]
  show Scalar.select (IntOp.cmpi .slt (src (ix1 e)) (broadcastInDim S524288 ![] bcast_S_S524288 (constantI S_ 32 0#32) (ix1 e)))
      (IntOp.addi (src (ix1 e)) (broadcastInDim S524288 ![] bcast_S_S524288 (constantI S_ 32 16384#32) (ix1 e))) (src (ix1 e)) = _
  rw [broadcastInDim_apply _ bcast_S_S524288 (constantI S_ 32 0#32) (ix1 e) (fun a => a.elim0) (fun a => a.elim0),
    broadcastInDim_apply _ bcast_S_S524288 (constantI S_ 32 16384#32) (ix1 e) (fun a => a.elim0) (fun a => a.elim0)]
  rfl

/-- After the first stretch the rounded first weight matrix is the first weight matrix. -/
theorem v0_apply (i : S256x128.Idx) :
    StableHlo.after (hostOps0 (F := Ideal)) Wv (Proc.devRef .tc main_v0) i = Wv (Proc.devRef .tc main_arg3) i := by
  after_results
  rfl

/-- After the second stretch `main_v11` holds the aggregation of `main_v1` over the graph the two index arrays give. -/
theorem v11_apply (n : Fin 16384) (j : Fin 128) :
    StableHlo.after (hostOps1 (F := Ideal)) Wv (Proc.devRef .tc main_v11) (ix2 n j)
      = Cert.Spec.agg (R := EReal) (Cert.Spec.row (Wv (Proc.devRef .tc main_arg1) : S524288.Idx → BitVec 32))
          (Cert.Spec.into (Wv (Proc.devRef .tc main_arg2) : S524288.Idx → BitVec 32))
          (Cert.Spec.at2 (Wv (Proc.devRef .tc main_v1) : S16384x128.Idx → EReal)) n j := by
  after_results
  generalize (Wv (Proc.devRef .tc main_v1) : S16384x128.Idx → EReal) = X
  generalize (Wv (Proc.devRef .tc main_arg1) : S524288.Idx → BitVec 32) = src
  generalize (Wv (Proc.devRef .tc main_arg2) : S524288.Idx → BitVec 32) = dst
  have hg : gather_S16384x128_S524288x1_S524288x128_1_0_n_n_0_1_1128
      = Cert.HostIndex.gatherRows 16384 128 524288 gather_S16384x128_S524288x1_S524288x128_1_0_n_n_0_1_1128_wf := rfl
  have hsc : scatter_S16384x128_S524288x1_S524288x128_1_0_0_1
      = Cert.HostIndex.scatterRows 16384 128 524288 scatter_S16384x128_S524288x1_S524288x128_1_0_0_1_wf := rfl
  rw [hg, hsc]
  unfold Host.scatterAdd
  rw [Ideal.hostScatterAdd_def]
  refine Cert.Spec.agg_apply _ _ _ (fun i => ?_) X src dst _ _ (fun e => srcCol_apply src e) (fun e => col_apply dst e) n j
  exact (broadcastInDim_apply _ bcast_S_S16384x128 _ i (fun a => a.elim0) (fun a => a.elim0)).trans Ideal.ofBits_zero_f32

/-- After the second stretch `main_v12` is the first bias laid as a row. -/
theorem v12_apply (j : Fin 128) :
    StableHlo.after (hostOps1 (F := Ideal)) Wv (Proc.devRef .tc main_v12) (ix2 (0 : Fin 1) j)
      = (Wv (Proc.devRef .tc main_arg4) : S128.Idx → EReal) (ix1 j) := by
  after_results
  generalize (Wv (Proc.devRef .tc main_arg4) : S128.Idx → EReal) = y
  show shapeCast S1x128 y shapeCasts_S128_S1x128 (ix2 (0 : Fin 1) j) = y (ix1 j)
  exact (shapeCast_addUnit_apply ![128] y shapeCasts_S128_S1x128 (ix2 (0 : Fin 1) j)).trans
    (congrArg y (funext fun a => by match a with | ⟨0, _⟩ => rfl))

/-- After the second stretch the rounded second weight matrix is the second weight matrix. -/
theorem v13_apply (i : S128x32.Idx) :
    StableHlo.after (hostOps1 (F := Ideal)) Wv (Proc.devRef .tc main_v13) i = Wv (Proc.devRef .tc main_arg5) i := by
  after_results
  rfl

/-- After the third stretch `main_v24` holds the aggregation of `main_v14` over the graph the two index arrays give. -/
theorem v24_apply (n : Fin 16384) (j : Fin 32) :
    StableHlo.after (hostOps2 (F := Ideal)) Wv (Proc.devRef .tc main_v24) (ix2 n j)
      = Cert.Spec.agg (R := EReal) (Cert.Spec.row (Wv (Proc.devRef .tc main_arg1) : S524288.Idx → BitVec 32))
          (Cert.Spec.into (Wv (Proc.devRef .tc main_arg2) : S524288.Idx → BitVec 32))
          (Cert.Spec.at2 (Wv (Proc.devRef .tc main_v14) : S16384x32.Idx → EReal)) n j := by
  after_results
  generalize (Wv (Proc.devRef .tc main_v14) : S16384x32.Idx → EReal) = X
  generalize (Wv (Proc.devRef .tc main_arg1) : S524288.Idx → BitVec 32) = src
  generalize (Wv (Proc.devRef .tc main_arg2) : S524288.Idx → BitVec 32) = dst
  have hg : gather_S16384x32_S524288x1_S524288x32_1_0_n_n_0_1_132
      = Cert.HostIndex.gatherRows 16384 32 524288 gather_S16384x32_S524288x1_S524288x32_1_0_n_n_0_1_132_wf := rfl
  have hsc : scatter_S16384x32_S524288x1_S524288x32_1_0_0_1
      = Cert.HostIndex.scatterRows 16384 32 524288 scatter_S16384x32_S524288x1_S524288x32_1_0_0_1_wf := rfl
  rw [hg, hsc]
  unfold Host.scatterAdd
  rw [Ideal.hostScatterAdd_def]
  refine Cert.Spec.agg_apply _ _ _ (fun i => ?_) X src dst _ _ (fun e => srcCol_apply src e) (fun e => col_apply dst e) n j
  exact (broadcastInDim_apply _ bcast_S_S16384x32 _ i (fun a => a.elim0) (fun a => a.elim0)).trans Ideal.ofBits_zero_f32

/-- After the third stretch `main_v25` is the second bias laid as a row. -/
theorem v25_apply (j : Fin 32) :
    StableHlo.after (hostOps2 (F := Ideal)) Wv (Proc.devRef .tc main_v25) (ix2 (0 : Fin 1) j)
      = (Wv (Proc.devRef .tc main_arg6) : S32.Idx → EReal) (ix1 j) := by
  after_results
  generalize (Wv (Proc.devRef .tc main_arg6) : S32.Idx → EReal) = y
  show shapeCast S1x32 y shapeCasts_S32_S1x32 (ix2 (0 : Fin 1) j) = y (ix1 j)
  exact (shapeCast_addUnit_apply ![32] y shapeCasts_S32_S1x32 (ix2 (0 : Fin 1) j)).trans
    (congrArg y (funext fun a => by match a with | ⟨0, _⟩ => rfl))

end Cert.KernelIdeal.Hand

end
-- ==== Proof.KI.Value0.lean ====
import proofs.«135382_j20864951123973_2_alg».proof.Proof.KI.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! Region 0's output array, read at an index as one function of the arrays the region finds on entry. The grid has eight
    points; point `t` stages rows `[2048 t, 2048 t + 2048)` of the [16384,256] operand and the whole [256,128] operand, and
    writes back rows `[2048 t, 2048 t + 2048)` of the [16384,128] result: the block of rows times the second operand, a plain sum of
    products over the 256 contracted positions (at the extended reals the change of float format is the identity and the
    accumulator is zero). The eight row blocks tile the result, so entry `(n, j)` of the result is row `n` of the first
    operand against column `j` of the second. -/

/-- A rectangle's offsets spelt as a literal vector of zeros are the zero offsets. -/
theorem zero_offsets2 : (![0, 0] : Fin 2 → Nat) = fun _ => 0 := funext fun a => by fin_cases a <;> rfl

/-- The product's row operand is read at the output's row … -/
theorem dot0_lhs_0 (i : S2048x128.Idx) (r : dot_S2048x256_S256x128_S2048x128_1_0_0_1_n_n.contr.Idx) :
    (dot_S2048x256_S256x128_S2048x128_1_0_0_1_n_n.lhsIdx i r 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
/-- … and the contracted coordinate; -/
theorem dot0_lhs_1 (i : S2048x128.Idx) (r : dot_S2048x256_S256x128_S2048x128_1_0_0_1_n_n.contr.Idx) :
    (dot_S2048x256_S256x128_S2048x128_1_0_0_1_n_n.lhsIdx i r 1).val = (r ⟨0, by decide⟩).val :=
  dot_S2048x256_S256x128_S2048x128_1_0_0_1_n_n.lhsIdx_val_of_single rfl i r
/-- the column operand at the contracted coordinate … -/
theorem dot0_rhs_0 (i : S2048x128.Idx) (r : dot_S2048x256_S256x128_S2048x128_1_0_0_1_n_n.contr.Idx) :
    (dot_S2048x256_S256x128_S2048x128_1_0_0_1_n_n.rhsIdx i r 0).val = (r ⟨0, by decide⟩).val :=
  dot_S2048x256_S256x128_S2048x128_1_0_0_1_n_n.rhsIdx_val_of_single rfl i r
/-- … and the output's column. -/
theorem dot0_rhs_1 (i : S2048x128.Idx) (r : dot_S2048x256_S256x128_S2048x128_1_0_0_1_n_n.contr.Idx) :
    (dot_S2048x256_S256x128_S2048x128_1_0_0_1_n_n.rhsIdx i r 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The body's stored value at row `p`, column `q` of the block: the row of the first block times the column of the second. -/
theorem pay0_apply (x0 : FVec Ideal S2048x256 .f32) (x1 : FVec Ideal S256x128 .bf16) (p : Fin 2048) (q : Fin 128) :
    k0_pay1 (F := Ideal) x0 x1 (ix2 p q) = ∑ k : Fin 256, x0 (ix2 p k) * x1 (ix2 k q) := by
  unfold k0_pay1
  rw [shapeCast_self]
  refine (Ideal.matmul_constant_zero_apply _ none _ _ (ix2 p q)).trans ?_
  rw [← Equiv.sum_comp (contrEquiv1 dot_S2048x256_S256x128_S2048x128_1_0_0_1_n_n 256 rfl rfl).symm]
  refine Finset.sum_congr rfl fun k _ => ?_
  have hk := contrEquiv1_symm_val dot_S2048x256_S256x128_S2048x128_1_0_0_1_n_n 256 rfl rfl k
  have el : dot_S2048x256_S256x128_S2048x128_1_0_0_1_n_n.lhsIdx (ix2 p q) ((contrEquiv1 dot_S2048x256_S256x128_S2048x128_1_0_0_1_n_n 256 rfl rfl).symm k) = ix2 p k := funext fun a => Fin.ext (by
    match a with
    | ⟨0, _⟩ => exact dot0_lhs_0 _ _
    | ⟨1, _⟩ => exact (dot0_lhs_1 _ _).trans hk)
  have er : dot_S2048x256_S256x128_S2048x128_1_0_0_1_n_n.rhsIdx (ix2 p q) ((contrEquiv1 dot_S2048x256_S256x128_S2048x128_1_0_0_1_n_n 256 rfl rfl).symm k) = ix2 k q := funext fun a => Fin.ext (by
    match a with
    | ⟨0, _⟩ => exact (dot0_rhs_0 _ _).trans hk
    | ⟨1, _⟩ => exact dot0_rhs_1 _ _)
  rw [el, er]
  rfl

variable (V : (c : Dev nD) → (b : Ref sig .tc) → Buf (Elt Ideal) ((c : Thread nD τ).loc b))

/-- The product of a [16384,256] array by a [256,128] array, entry by entry: row `i 0` of the first against column `i 1`
    of the second, summed over the 256 contracted positions. -/
def prod0 (a : S16384x256.Idx → EReal) (b : S256x128.Idx → EReal) : S16384x128.Idx → EReal :=
  fun i => ∑ k : Fin 256, a (ix2 (⟨(i 0).val, idx2_lt0 i⟩ : Fin 16384) k) * b (ix2 k (⟨(i 1).val, idx2_lt1 i⟩ : Fin 128))

theorem prod0_apply (a : S16384x256.Idx → EReal) (b : S256x128.Idx → EReal) (n : Fin 16384) (j : Fin 128) :
    prod0 a b (ix2 n j) = ∑ k : Fin 256, a (ix2 n k) * b (ix2 k j) := rfl

/-- The three index maps over the grid's eight points: the row operand's and the output's blocks are block `t` of the rows,
    the column operand's block is the whole array. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The stored block of a point whose row block is rows `[2048 r, 2048 r + 2048)` of `a` and whose column block is `b`:
    at block position `j` it is the product's entry at row `2048 r + j 0`, column `j 1`. -/
theorem block0_apply (x0 : FVec Ideal S2048x256 .f32) (x1 : FVec Ideal S256x128 .bf16)
    (a : S16384x256.Idx → EReal) (b : S256x128.Idx → EReal) (r : Nat)
    (h0 : ∀ (p : Fin 2048) (k : Fin 256) (i : S16384x256.Idx), (i 0).val = r * 2048 + p.val → (i 1).val = k.val → x0 (ix2 p k) = a i)
    (h1 : ∀ (k : Fin 256) (q : Fin 128), x1 (ix2 k q) = b (ix2 k q))
    (j : S2048x128.Idx) (i : S16384x128.Idx) (hi0 : (i 0).val = r * 2048 + (j 0).val) (hi1 : (i 1).val = (j 1).val) :
    k0_pay1 (F := Ideal) x0 x1 j = prod0 a b i := by
  obtain ⟨p, q, rfl⟩ : ∃ (p : Fin 2048) (q : Fin 128), j = ix2 p q := ⟨j 0, j 1, eq_ix2 j⟩
  rw [pay0_apply]
  unfold prod0
  refine Finset.sum_congr rfl fun k _ => ?_
  rw [h0 p k (ix2 (⟨(i 0).val, idx2_lt0 i⟩ : Fin 16384) k) hi0 rfl, h1 k q]
  exact congrArg (fun z => a _ * b (ix2 k z)) (Fin.ext hi1.symm)

/-- What point `t` writes back is block `t` of the product of the two arrays the region found. -/
theorem flushed0_eq (c : Dev nD) (t : Fin cfg0.N) :
    (dat0 (F := Ideal) V c).flushed 2 t
      = ((cfg0.win 2).blk t).view.read (Elt Ideal) (prod0 (V c main_arg0) (V c main_v0)) := by
  show (cfg0.win 2).cut (grid0.coords t) ((dat0 V c).after 2 t) = _
  rw [after0_2]
  unfold out0_2
  rw [View.canon_unit_zero zero_offsets2]
  simp only [View.ld_unit_zero (S := S2048x256) zero_offsets2, View.ld_unit_zero (S := S256x128) zero_offsets2]
  obtain ⟨e0, e1, e2, e3, e4, e5⟩ := idx_facts0 t
  funext j
  show k0_pay1 (iblk0 V c 0 t) (iblk0 V c 1 t) j = prod0 (V c main_arg0) (V c main_v0) (((cfg0.win 2).blk t).view.emb j)
  refine block0_apply (iblk0 V c 0 t) (iblk0 V c 1 t) (V c main_arg0) (V c main_v0) t.val ?_ ?_ j (((cfg0.win 2).blk t).view.emb j) ?_ ?_
  · intro p k i hi0 hi1
    show V c main_arg0 (((cfg0.win 0).blk t).view.emb (ix2 p k)) = V c main_arg0 i
    refine congrArg (V c main_arg0) (funext fun a => Fin.ext ?_)
    match a with
    | ⟨0, _⟩ => show win0_0.index t (0 : Fin 2) * 2048 + 1 * p.val = (i 0).val; omega
    | ⟨1, _⟩ => show win0_0.index t (1 : Fin 2) * 256 + 1 * k.val = (i 1).val; omega
  · intro k q
    show V c main_v0 (((cfg0.win 1).blk t).view.emb (ix2 k q)) = V c main_v0 (ix2 k q)
    refine congrArg (V c main_v0) (funext fun a => Fin.ext ?_)
    match a with
    | ⟨0, _⟩ => show win0_1.index t (0 : Fin 2) * 256 + 1 * k.val = k.val; omega
    | ⟨1, _⟩ => show win0_1.index t (1 : Fin 2) * 128 + 1 * q.val = q.val; omega
  · show win0_2.index t (0 : Fin 2) * 2048 + 1 * (j 0).val = t.val * 2048 + (j 0).val; omega
  · show win0_2.index t (1 : Fin 2) * 128 + 1 * (j 1).val = (j 1).val; omega

/-- An index of the output array is in point `t`'s block iff each coordinate is in the block's range on its axis. -/
theorem mem_blk0 (t : Fin cfg0.N) (i : S16384x128.Idx) :
    i ∈ ((cfg0.win 2).blk t).view.set ↔ ∀ a : Fin 2, win0_2.index t a * S2048x128.size a ≤ (i a).val ∧ (i a).val < win0_2.index t a * S2048x128.size a + S2048x128.size a := by
  show i ∈ ((View.whole main_v1).slice (win0_2.rect t)).set ↔ _
  rw [View.set_slice_whole, Rect.mem_set_unit]
  exact Iff.rfl

/-- Row `r` of the output lies in the block of point `r / 2048`: the eight blocks tile the array. -/
theorem cover0 (i : S16384x128.Idx) :
    ∃ t : Fin cfg0.N, (cfg0.win 2).flush t = true ∧ i ∈ ((cfg0.win 2).blk t).view.set := by
  have hN : grid0.N = 8 := N_0
  have hi0 : (i 0).val < 16384 := idx2_lt0 i
  have hi1 : (i 1).val < 128 := idx2_lt1 i
  obtain ⟨t, ht⟩ : ∃ t : Fin cfg0.N, t.val = (i 0).val / 2048 :=
    ⟨⟨(i 0).val / 2048, by show (i 0).val / 2048 < grid0.N; rw [hN]; omega⟩, rfl⟩
  obtain ⟨e0, e1, e2, e3, e4, e5⟩ := idx_facts0 t
  refine ⟨t, flush0_2 t, ?_⟩
  rw [mem_blk0]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- After the last point the output array is the product of the two arrays the region found. -/
theorem final0 (c : Dev nD) : (dat0 (F := Ideal) V c).arrAt 2 cfg0.N = prod0 (V c main_arg0) (V c main_v0) :=
  (dat0 V c).arrAt_eq_of_cover 2 _ (fun t _ => flushed0_eq V c t) cover0

/-- Region 0's output at row `n`, column `j`, with the two operand arrays named: row `n` of the first against column `j`
    of the second. -/
theorem value0_of (c : Dev nD) (a : S16384x256.Idx → EReal) (b : S256x128.Idx → EReal)
    (ha : a = V c main_arg0) (hb : b = V c main_v0) (n : Fin 16384) (j : Fin 128) :
    (dat0 (F := Ideal) V c).arrAt 2 cfg0.N (ix2 n j) = ∑ k : Fin 256, a (ix2 n k) * b (ix2 k j) := by
  subst ha hb
  rw [final0]
  rfl

/-- The same with the operands read off the entry contents directly. -/
theorem value0 (c : Dev nD) (n : Fin 16384) (j : Fin 128) :
    (dat0 (F := Ideal) V c).arrAt 2 cfg0.N (ix2 n j)
      = ∑ k : Fin 256, HMul.hMul (α := EReal) (β := EReal) (γ := EReal) (V c main_arg0 (ix2 n k)) (V c main_v0 (ix2 k j)) :=
  value0_of V c _ _ rfl rfl n j

end Cert.KernelIdeal.Hand

end
-- ==== Proof.KI.Value1.lean ====
import proofs.«135382_j20864951123973_2_alg».proof.Proof.KI.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

/-! Region 1's output array, read at an index as one function of the arrays the region finds on entry. The grid has eight
    points; point `t` stages rows `[2048 t, 2048 t + 2048)` of the [16384,128] operand and the whole of the [1,128] and
    [128,32] operands, and writes back rows `[2048 t, 2048 t + 2048)` of the [16384,32] result: the block of rows with the
    one-row operand added to every row, clamped below at zero, times the third operand — a plain sum of products over the
    128 contracted positions (at the extended reals the change of float format is the identity, the clamp is `max · 0` and
    the accumulator is zero). The eight row blocks tile the result, so entry `(n, q)` of the result is row `n` so treated
    against column `q` of the third operand. -/

/-- A rectangle's offsets spelt as a literal vector of zeros are the zero offsets. -/
theorem zero_offsets_pair : (![0, 0] : Fin 2 → Nat) = fun _ => 0 := funext fun a => by fin_cases a <;> rfl

/-- The product's row operand is read at the output's row … -/
theorem dot1_lhs_0 (i : S2048x32.Idx) (r : dot_S2048x128_S128x32_S2048x32_1_0_0_1_n_n.contr.Idx) :
    (dot_S2048x128_S128x32_S2048x32_1_0_0_1_n_n.lhsIdx i r 0).val = (i 0).val := by
  unfold DotDims.lhsIdx
  rw [dif_neg (show ¬(0 : Fin S2048x128.rank) ∈ dot_S2048x128_S128x32_S2048x32_1_0_0_1_n_n.lhsBatch by decide), dif_pos (show (0 : Fin S2048x128.rank) ∈ dot_S2048x128_S128x32_S2048x32_1_0_0_1_n_n.lhsNonContracting by decide)]
  rfl
/-- … and the contracted coordinate; -/
theorem dot1_lhs_1 (i : S2048x32.Idx) (r : dot_S2048x128_S128x32_S2048x32_1_0_0_1_n_n.contr.Idx) :
    (dot_S2048x128_S128x32_S2048x32_1_0_0_1_n_n.lhsIdx i r 1).val = (r ⟨0, by decide⟩).val :=
  dot_S2048x128_S128x32_S2048x32_1_0_0_1_n_n.lhsIdx_val_of_single rfl i r
/-- the column operand at the contracted coordinate … -/
theorem dot1_rhs_0 (i : S2048x32.Idx) (r : dot_S2048x128_S128x32_S2048x32_1_0_0_1_n_n.contr.Idx) :
    (dot_S2048x128_S128x32_S2048x32_1_0_0_1_n_n.rhsIdx i r 0).val = (r ⟨0, by decide⟩).val :=
  dot_S2048x128_S128x32_S2048x32_1_0_0_1_n_n.rhsIdx_val_of_single rfl i r
/-- … and the output's column. -/
theorem dot1_rhs_1 (i : S2048x32.Idx) (r : dot_S2048x128_S128x32_S2048x32_1_0_0_1_n_n.contr.Idx) :
    (dot_S2048x128_S128x32_S2048x32_1_0_0_1_n_n.rhsIdx i r 1).val = (i 1).val := by
  unfold DotDims.rhsIdx
  rw [dif_neg (show ¬(1 : Fin S128x32.rank) ∈ dot_S2048x128_S128x32_S2048x32_1_0_0_1_n_n.rhsBatch by decide), dif_pos (show (1 : Fin S128x32.rank) ∈ dot_S2048x128_S128x32_S2048x32_1_0_0_1_n_n.rhsNonContracting by decide)]
  rfl

/-- The body's stored value at row `p`, column `q` of the block: the row of the first block with the one-row block added
    and clamped below at zero, against the column of the third block. -/
theorem pay1_apply (x0 : FVec Ideal S2048x128 .f32) (x1 : FVec Ideal S1x128 .f32) (x2 : FVec Ideal S128x32 .bf16)
    (p : Fin 2048) (q : Fin 32) :
    k1_pay1 (F := Ideal) x0 x1 x2 (ix2 p q)
      = ∑ k : Fin 128, max (x0 (ix2 p k) + x1 (ix2 (0 : Fin 1) k)) 0 * x2 (ix2 k q) := by
  unfold k1_pay1
  rw [shapeCast_self, shapeCast_self, shapeCast_self]
  refine (Ideal.matmul_constant_zero_apply _ none _ _ (ix2 p q)).trans ?_
  rw [← Equiv.sum_comp (contrEquiv1 dot_S2048x128_S128x32_S2048x32_1_0_0_1_n_n 128 rfl rfl).symm]
  refine Finset.sum_congr rfl fun k _ => ?_
  have hk := contrEquiv1_symm_val dot_S2048x128_S128x32_S2048x32_1_0_0_1_n_n 128 rfl rfl k
  have el : dot_S2048x128_S128x32_S2048x32_1_0_0_1_n_n.lhsIdx (ix2 p q) ((contrEquiv1 dot_S2048x128_S128x32_S2048x32_1_0_0_1_n_n 128 rfl rfl).symm k) = ix2 p k := funext fun a => Fin.ext (by
    match a with
    | ⟨0, _⟩ => exact dot1_lhs_0 _ _
    | ⟨1, _⟩ => exact (dot1_lhs_1 _ _).trans hk)
  have er : dot_S2048x128_S128x32_S2048x32_1_0_0_1_n_n.rhsIdx (ix2 p q) ((contrEquiv1 dot_S2048x128_S128x32_S2048x32_1_0_0_1_n_n 128 rfl rfl).symm k) = ix2 k q := funext fun a => Fin.ext (by
    match a with
    | ⟨0, _⟩ => exact (dot1_rhs_0 _ _).trans hk
    | ⟨1, _⟩ => exact dot1_rhs_1 _ _)
  rw [el, er]
  refine congrArg (· * x2 (ix2 k q)) ?_
  show max (x0 (ix2 p k) + broadcastTo S2048x128 x1 broadcasts_S1x128_S2048x128 (ix2 p k)) (Ideal.ofBits .f32 0x00000000#32) = _
  rw [broadcastTo_1b_ab_apply, Ideal.ofBits_zero_f32]

variable (V : (c : Dev nD) → (b : Ref sig .tc) → Buf (Elt Ideal) ((c : Thread nD τ).loc b))

/-- A [16384,128] array with a [1,128] row added to every row and clamped below at zero, times a [128,32] array, entry by
    entry: row `i 0` against column `i 1`, summed over the 128 contracted positions. -/
def act1 (a : S16384x128.Idx → EReal) (b : S1x128.Idx → EReal) (w : S128x32.Idx → EReal) : S16384x32.Idx → EReal :=
  fun i => ∑ k : Fin 128, max (a (ix2 (⟨(i 0).val, idx2_lt0 i⟩ : Fin 16384) k) + b (ix2 (0 : Fin 1) k)) 0
    * w (ix2 k (⟨(i 1).val, idx2_lt1 i⟩ : Fin 32))

theorem act1_apply (a : S16384x128.Idx → EReal) (b : S1x128.Idx → EReal) (w : S128x32.Idx → EReal) (n : Fin 16384) (q : Fin 32) :
    act1 a b w (ix2 n q) = ∑ k : Fin 128, max (a (ix2 n k) + b (ix2 (0 : Fin 1) k)) 0 * w (ix2 k q) := rfl

/-- The four index maps over the grid's eight points: the first operand's and the output's blocks are block `t` of the
    rows, the other two operands' blocks are their whole arrays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The stored block of a point whose first block is rows `[2048 r, 2048 r + 2048)` of `a` and whose other two blocks are `b`
    and `w`: at block position `j` it is the whole-array function's entry at row `2048 r + j 0`, column `j 1`. -/
theorem block1_apply (x0 : FVec Ideal S2048x128 .f32) (x1 : FVec Ideal S1x128 .f32) (x2 : FVec Ideal S128x32 .bf16)
    (a : S16384x128.Idx → EReal) (b : S1x128.Idx → EReal) (w : S128x32.Idx → EReal) (r : Nat)
    (h0 : ∀ (p : Fin 2048) (k : Fin 128) (i : S16384x128.Idx), (i 0).val = r * 2048 + p.val → (i 1).val = k.val → x0 (ix2 p k) = a i)
    (h1 : ∀ (k : Fin 128), x1 (ix2 (0 : Fin 1) k) = b (ix2 (0 : Fin 1) k))
    (h2 : ∀ (k : Fin 128) (q : Fin 32), x2 (ix2 k q) = w (ix2 k q))
    (j : S2048x32.Idx) (i : S16384x32.Idx) (hi0 : (i 0).val = r * 2048 + (j 0).val) (hi1 : (i 1).val = (j 1).val) :
    k1_pay1 (F := Ideal) x0 x1 x2 j = act1 a b w i := by
  obtain ⟨p, q, rfl⟩ : ∃ (p : Fin 2048) (q : Fin 32), j = ix2 p q := ⟨j 0, j 1, eq_ix2 j⟩
  rw [pay1_apply]
  unfold act1
  refine Finset.sum_congr rfl fun k _ => ?_
  rw [h0 p k (ix2 (⟨(i 0).val, idx2_lt0 i⟩ : Fin 16384) k) hi0 rfl, h1 k, h2 k q]
  exact congrArg (fun z => max (a _ + b _) 0 * w (ix2 k z)) (Fin.ext hi1.symm)

/-- What point `t` writes back is block `t` of that function of the three arrays the region found. -/
theorem flushed1_eq (c : Dev nD) (t : Fin cfg1.N) :
    (dat1 (F := Ideal) V c).flushed 3 t
      = ((cfg1.win 3).blk t).view.read (Elt Ideal) (act1 (V c main_v11) (V c main_v12) (V c main_v13)) := by
  show (cfg1.win 3).cut (grid1.coords t) ((dat1 V c).after 3 t) = _
  rw [after1_3]
  unfold out1_3
  rw [View.canon_unit_zero zero_offsets_pair]
  simp only [View.ld_unit_zero (S := S2048x128) zero_offsets_pair, View.ld_unit_zero (S := S1x128) zero_offsets_pair, View.ld_unit_zero (S := S128x32) zero_offsets_pair]
  obtain ⟨e0, e1, e2, e3, e4, e5, e6, e7⟩ := idx_facts1 t
  funext j
  show k1_pay1 (iblk1 V c 0 t) (iblk1 V c 1 t) (iblk1 V c 2 t) j
    = act1 (V c main_v11) (V c main_v12) (V c main_v13) (((cfg1.win 3).blk t).view.emb j)
  refine block1_apply (iblk1 V c 0 t) (iblk1 V c 1 t) (iblk1 V c 2 t) (V c main_v11) (V c main_v12) (V c main_v13) t.val ?_ ?_ ?_ j (((cfg1.win 3).blk t).view.emb j) ?_ ?_
  · intro p k i hi0 hi1
    show V c main_v11 (((cfg1.win 0).blk t).view.emb (ix2 p k)) = V c main_v11 i
    refine congrArg (V c main_v11) (funext fun a => Fin.ext ?_)
    match a with
    | ⟨0, _⟩ => show win1_0.index t (0 : Fin 2) * 2048 + 1 * p.val = (i 0).val; omega
    | ⟨1, _⟩ => show win1_0.index t (1 : Fin 2) * 128 + 1 * k.val = (i 1).val; omega
  · intro k
    show V c main_v12 (((cfg1.win 1).blk t).view.emb (ix2 (0 : Fin 1) k)) = V c main_v12 (ix2 (0 : Fin 1) k)
    refine congrArg (V c main_v12) (funext fun a => Fin.ext ?_)
    match a with
    | ⟨0, _⟩ => show win1_1.index t (0 : Fin 2) * 1 + 1 * (0 : Fin 1).val = (0 : Fin 1).val; omega
    | ⟨1, _⟩ => show win1_1.index t (1 : Fin 2) * 128 + 1 * k.val = k.val; omega
  · intro k q
    show V c main_v13 (((cfg1.win 2).blk t).view.emb (ix2 k q)) = V c main_v13 (ix2 k q)
    refine congrArg (V c main_v13) (funext fun a => Fin.ext ?_)
    match a with
    | ⟨0, _⟩ => show win1_2.index t (0 : Fin 2) * 128 + 1 * k.val = k.val; omega
    | ⟨1, _⟩ => show win1_2.index t (1 : Fin 2) * 32 + 1 * q.val = q.val; omega
  · show win1_3.index t (0 : Fin 2) * 2048 + 1 * (j 0).val = t.val * 2048 + (j 0).val; omega
  · show win1_3.index t (1 : Fin 2) * 32 + 1 * (j 1).val = (j 1).val; omega

/-- An index of the output array is in point `t`'s block iff each coordinate is in the block's range on its axis. -/
theorem mem_blk1 (t : Fin cfg1.N) (i : S16384x32.Idx) :
    i ∈ ((cfg1.win 3).blk t).view.set ↔ ∀ a : Fin 2, win1_3.index t a * S2048x32.size a ≤ (i a).val ∧ (i a).val < win1_3.index t a * S2048x32.size a + S2048x32.size a := by
  show i ∈ ((View.whole main_v14).slice (win1_3.rect t)).set ↔ _
  rw [View.set_slice_whole, Rect.mem_set_unit]
  exact Iff.rfl

/-- Row `r` of the output lies in the block of point `r / 2048`: the eight blocks tile the array. -/
theorem tiles1 (i : S16384x32.Idx) :
    ∃ t : Fin cfg1.N, (cfg1.win 3).flush t = true ∧ i ∈ ((cfg1.win 3).blk t).view.set := by
  have hN : grid1.N = 8 := N_1
  have hi0 : (i 0).val < 16384 := idx2_lt0 i
  have hi1 : (i 1).val < 32 := idx2_lt1 i
  obtain ⟨t, ht⟩ : ∃ t : Fin cfg1.N, t.val = (i 0).val / 2048 :=
    ⟨⟨(i 0).val / 2048, by show (i 0).val / 2048 < grid1.N; rw [hN]; omega⟩, rfl⟩
  obtain ⟨e0, e1, e2, e3, e4, e5, e6, e7⟩ := idx_facts1 t
  refine ⟨t, flush1_3 t, ?_⟩
  rw [mem_blk1]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 32 ≤ (i 1).val ∧ (i 1).val < win1_3.index t (1 : Fin 2) * 32 + 32; omega

/-- After the last point the output array is that function of the three arrays the region found. -/
theorem final1 (c : Dev nD) :
    (dat1 (F := Ideal) V c).arrAt 3 cfg1.N = act1 (V c main_v11) (V c main_v12) (V c main_v13) :=
  (dat1 V c).arrAt_eq_of_cover 3 _ (fun t _ => flushed1_eq V c t) tiles1

/-- Region 1's output at row `n`, column `q`, with the three operand arrays named: row `n` of the first with the one-row
    array added and clamped below at zero, against column `q` of the third. -/
theorem value1_of (c : Dev nD) (a : S16384x128.Idx → EReal) (b : S1x128.Idx → EReal) (w : S128x32.Idx → EReal)
    (ha : a = V c main_v11) (hb : b = V c main_v12) (hw : w = V c main_v13) (n : Fin 16384) (q : Fin 32) :
    (dat1 (F := Ideal) V c).arrAt 3 cfg1.N (ix2 n q)
      = ∑ j : Fin 128, max (a (ix2 n j) + b (ix2 (0 : Fin 1) j)) 0 * w (ix2 j q) := by
  subst ha hb hw
  rw [final1]
  rfl

/-- The same with the operands read off the entry contents directly. -/
theorem value1 (c : Dev nD) (n : Fin 16384) (q : Fin 32) :
    (dat1 (F := Ideal) V c).arrAt 3 cfg1.N (ix2 n q)
      = ∑ j : Fin 128, HMul.hMul (α := EReal) (β := EReal) (γ := EReal)
          (max (HAdd.hAdd (α := EReal) (β := EReal) (γ := EReal) (V c main_v11 (ix2 n j)) (V c main_v12 (ix2 (0 : Fin 1) j))) 0)
          (V c main_v13 (ix2 j q)) :=
  value1_of V c _ _ _ rfl rfl rfl n q

end Cert.KernelIdeal.Hand

end
-- ==== Proof.KI.Value2.lean ====
import proofs.«135382_j20864951123973_2_alg».proof.Proof.KI.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! Region 2 read as one whole-array function. The region walks 8 row blocks of 2048 rows: at point t it stages rows
    [2048 t, 2048 t + 2048) of two arrays `a` and `m` (16384 rows of 32 entries each) and the whole of a single row `b` of
    32 entries, and stores `(a + b) * m` entry by entry, the row `b` repeated down the 2048 rows. The output's blocks tile
    its 16384 rows, so the result at (n, q) is `(a (n, q) + b (0, q)) * m (n, q)`. -/

variable (V : (c : Dev nD) → (b : Ref sig .tc) → Buf (Elt Ideal) ((c : Thread nD τ).loc b))

theorem hz2 : (![0, 0] : Fin 2 → Nat) = fun _ => 0 := funext fun a => by fin_cases a <;> rfl

/-- THE PAYLOAD AT AN INDEX: entry (p, q) is the first block's entry plus the row's entry q, times the third block's. -/
theorem pay2_apply (x0 : Vec Ideal S2048x32 .f32) (x1 : Vec Ideal S1x32 .f32) (x2 : Vec Ideal S2048x32 .f32)
    (p : Fin 2048) (q : Fin 32) :
    k2_pay1 (F := Ideal) x0 x1 x2 (ix2 p q) = (x0 (ix2 p q) + x1 (ix2 (0 : Fin 1) q)) * x2 (ix2 p q) := by
  unfold k2_pay1
  rw [shapeCast_self, shapeCast_self]
  show (x0 (ix2 p q) + broadcastTo S2048x32 x1 broadcasts_S1x32_S2048x32 (ix2 p q)) * x2 (ix2 p q) = _
  exact congrArg (fun z => (x0 (ix2 p q) + z) * x2 (ix2 p q)) (broadcastTo_1b_ab_apply x1 broadcasts_S1x32_S2048x32 p q)

/-- The sum of `a` and the row `b` repeated down the rows, times `m`, entry by entry. -/
def addRowMul (a : S16384x32.Idx → EReal) (b : S1x32.Idx → EReal) (m : S16384x32.Idx → EReal) : S16384x32.Idx → EReal := fun i =>
  (a (ix2 (⟨(i 0).val, (i 0).isLt⟩ : Fin 16384) (⟨(i 1).val, (i 1).isLt⟩ : Fin 32))
      + b (ix2 (0 : Fin 1) (⟨(i 1).val, (i 1).isLt⟩ : Fin 32)))
    * m (ix2 (⟨(i 0).val, (i 0).isLt⟩ : Fin 16384) (⟨(i 1).val, (i 1).isLt⟩ : Fin 32))

/-- It at (n, q). -/
theorem addRowMul_apply (a : S16384x32.Idx → EReal) (b : S1x32.Idx → EReal) (m : S16384x32.Idx → EReal) (n : Fin 16384) (q : Fin 32) :
    addRowMul a b m (ix2 n q) = (a (ix2 n q) + b (ix2 (0 : Fin 1) q)) * m (ix2 n q) := rfl

/-- The index maps, decided over the 8 grid points: the two row-block inputs and the output are at block (t, 0), the
    single row at block (0, 0). -/
theorem idx_facts2 : ∀ t : Fin cfg2.N,
    win2_3.index t (0 : Fin 2) = t.val ∧ win2_3.index t (1 : Fin 2) = 0
    ∧ win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The first input's block at point t is rows 2048 t + p of its array. -/
theorem iblk2_0_apply (c : Dev nD) (t : Fin cfg2.N) (p : Fin 2048) (q : Fin 32) (n : Fin 16384) (q' : Fin 32)
    (hn : n.val = t.val * 2048 + p.val) (hq : q'.val = q.val) :
    (iblk2 V c 0 t : Vec Ideal S2048x32 .f32) (ix2 p q) = (V c main_v24 : S16384x32.Idx → EReal) (ix2 n q') := by
  obtain ⟨-, -, e0, e1, -, -, -, -⟩ := idx_facts2 t
  unfold iblk2
  rw [View.read_apply]
  show (V c main_v24 : S16384x32.Idx → EReal) _ = _
  refine congrArg _ (funext fun a => Fin.ext ?_)
  match a with
  | ⟨0, _⟩ => show win2_0.index t (0 : Fin 2) * 2048 + 1 * p.val = n.val; omega
  | ⟨1, _⟩ => show win2_0.index t (1 : Fin 2) * 32 + 1 * q.val = q'.val; omega

/-- The second input's block at every point is the single row. -/
theorem iblk2_1_apply (c : Dev nD) (t : Fin cfg2.N) (q : Fin 32) (q' : Fin 32) (hq : q'.val = q.val) :
    (iblk2 V c 1 t : Vec Ideal S1x32 .f32) (ix2 (0 : Fin 1) q) = (V c main_v25 : S1x32.Idx → EReal) (ix2 (0 : Fin 1) q') := by
  obtain ⟨-, -, -, -, e0, e1, -, -⟩ := idx_facts2 t
  unfold iblk2
  rw [View.read_apply]
  show (V c main_v25 : S1x32.Idx → EReal) _ = _
  refine congrArg _ (funext fun a => Fin.ext ?_)
  match a with
  | ⟨0, _⟩ => show win2_1.index t (0 : Fin 2) * 1 + 1 * 0 = 0; omega
  | ⟨1, _⟩ => show win2_1.index t (1 : Fin 2) * 32 + 1 * q.val = q'.val; omega

/-- The third input's block at point t is rows 2048 t + p of its array. -/
theorem iblk2_2_apply (c : Dev nD) (t : Fin cfg2.N) (p : Fin 2048) (q : Fin 32) (n : Fin 16384) (q' : Fin 32)
    (hn : n.val = t.val * 2048 + p.val) (hq : q'.val = q.val) :
    (iblk2 V c 2 t : Vec Ideal S2048x32 .f32) (ix2 p q) = (V c main_arg7 : S16384x32.Idx → EReal) (ix2 n q') := by
  obtain ⟨-, -, -, -, -, -, e0, e1⟩ := idx_facts2 t
  unfold iblk2
  rw [View.read_apply]
  show (V c main_arg7 : S16384x32.Idx → EReal) _ = _
  refine congrArg _ (funext fun a => Fin.ext ?_)
  match a with
  | ⟨0, _⟩ => show win2_2.index t (0 : Fin 2) * 2048 + 1 * p.val = n.val; omega
  | ⟨1, _⟩ => show win2_2.index t (1 : Fin 2) * 32 + 1 * q.val = q'.val; omega

/-- What point t stores, at an index of its block, is the whole-array function at that index's place in the array. -/
theorem stored2_apply (c : Dev nD) (t : Fin cfg2.N) (j : S2048x32.Idx) :
    k2_pay1 (F := Ideal) (iblk2 V c 0 t) (iblk2 V c 1 t) (iblk2 V c 2 t) j
      = addRowMul (V c main_v24) (V c main_v25) (V c main_arg7) (((cfg2.win 3).blk t).view.emb j) := by
  obtain ⟨p, q, rfl⟩ : ∃ (p : Fin 2048) (q : Fin 32), j = ix2 p q := ⟨j 0, j 1, eq_ix2 j⟩
  obtain ⟨e0, e1, -, -, -, -, -, -⟩ := idx_facts2 t
  have h0 : ((((cfg2.win 3).blk t).view.emb (ix2 p q)) 0).val = t.val * 2048 + p.val := by
    show win2_3.index t (0 : Fin 2) * 2048 + 1 * p.val = _; omega
  have h1 : ((((cfg2.win 3).blk t).view.emb (ix2 p q)) 1).val = q.val := by
    show win2_3.index t (1 : Fin 2) * 32 + 1 * q.val = _; omega
  refine (pay2_apply _ _ _ p q).trans ?_
  unfold addRowMul
  exact congrArg₂ (· * ·)
    (congrArg₂ (· + ·) (iblk2_0_apply V c t p q ⟨_, _⟩ ⟨_, _⟩ h0 h1) (iblk2_1_apply V c t q ⟨_, _⟩ h1))
    (iblk2_2_apply V c t p q ⟨_, _⟩ ⟨_, _⟩ h0 h1)

/-- WHAT POINT t WRITES BACK is block t of the whole-array function of the arrays as the region finds them. -/
theorem flushed2_eq (c : Dev nD) (t : Fin cfg2.N) :
    (dat2 V c).flushed 3 t
      = ((cfg2.win 3).blk t).view.read (Elt Ideal) (addRowMul (V c main_v24) (V c main_v25) (V c main_arg7)) := by
  show (cfg2.win 3).cut (grid2.coords t) ((dat2 V c).after 3 t) = _
  rw [after2_3]
  unfold out2_3
  rw [View.canon_unit_zero hz2]
  simp only [View.ld_unit_zero (S := S2048x32) hz2, View.ld_unit_zero (S := S1x32) hz2]
  funext j
  exact stored2_apply V c t j

/-- An index of the array is in point t's block iff each coordinate is in the block's range on its axis. -/
theorem mem_blk2 (t : Fin cfg2.N) (i : S16384x32.Idx) :
    i ∈ ((cfg2.win 3).blk t).view.set ↔ ∀ a : Fin 2, win2_3.index t a * S2048x32.size a ≤ (i a).val ∧ (i a).val < win2_3.index t a * S2048x32.size a + S2048x32.size a := by
  show i ∈ ((View.whole main_v26).slice (win2_3.rect t)).set ↔ _
  rw [View.set_slice_whole, Rect.mem_set_unit]
  exact Iff.rfl

/-- Every index (n, q) of the array is in the block of the point n / 2048. -/
theorem cover2 (i : S16384x32.Idx) :
    ∃ t : Fin cfg2.N, (cfg2.win 3).flush t = true ∧ i ∈ ((cfg2.win 3).blk t).view.set := by
  have hN : cfg2.N = 8 := N_2
  have hi0 : (i 0).val < 16384 := (i 0).isLt
  have hi1 : (i 1).val < 32 := (i 1).isLt
  obtain ⟨t, ht⟩ : ∃ t : Fin cfg2.N, t.val = (i 0).val / 2048 := ⟨⟨_, by omega⟩, rfl⟩
  obtain ⟨e0, e1, -, -, -, -, -, -⟩ := idx_facts2 t
  refine ⟨t, flush2_3 t, ?_⟩
  rw [mem_blk2]
  intro a
  match a with
  | ⟨0, _⟩ => show win2_3.index t (0 : Fin 2) * 2048 ≤ (i 0).val ∧ (i 0).val < win2_3.index t (0 : Fin 2) * 2048 + 2048; omega
  | ⟨1, _⟩ => show win2_3.index t (1 : Fin 2) * 32 ≤ (i 1).val ∧ (i 1).val < win2_3.index t (1 : Fin 2) * 32 + 32; omega

/-- THE ARRAY after the region: the sum of the first array and the repeated row, times the third array. -/
theorem arr2 (c : Dev nD) :
    (dat2 V c).arrAt 3 cfg2.N = addRowMul (V c main_v24) (V c main_v25) (V c main_arg7) :=
  (dat2 V c).arrAt_eq_of_cover 3 (addRowMul (V c main_v24) (V c main_v25) (V c main_arg7)) (fun t _ => flushed2_eq V c t) cover2

/-- Region 2's first input array on core c. -/
abbrev agg2 (c : Dev nD) : S16384x32.Idx → EReal := V c main_v24
/-- Region 2's single-row input on core c. -/
abbrev bias2 (c : Dev nD) : S1x32.Idx → EReal := V c main_v25
/-- Region 2's third input array on core c. -/
abbrev mask2 (c : Dev nD) : S16384x32.Idx → EReal := V c main_arg7

/-- Region 2's output at (n, q): the first array's entry plus the row's entry q, times the third array's entry. -/
theorem value2 (c : Dev nD) (n : Fin 16384) (q : Fin 32) :
    (dat2 V c).arrAt 3 cfg2.N (ix2 n q) = (agg2 V c (ix2 n q) + bias2 V c (ix2 (0 : Fin 1) q)) * mask2 V c (ix2 n q) := by
  rw [arr2]
  exact addRowMul_apply _ _ _ n q

end Cert.KernelIdeal.Hand

end
-- ==== Proof.KI.Value3.lean ====
import proofs.«135382_j20864951123973_2_alg».proof.Proof.KI.Blocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

/-! Region 3 read as one whole-array function. The region's two input windows stage row blocks of ONE array `a`
    (16384 rows of 32 entries): 2048 rows at a time along the first grid axis, 1024 rows at a time along the second.
    At grid point (i, j) the body multiplies the first block by the transpose of the second into a zero
    accumulator, so entry (p, r) of what it stores is `∑ q, a (2048 i + p, q) * a (1024 j + r, q)`; the output's blocks
    (i, j) of size 2048 × 1024 tile the 16384 × 16384 result, which is therefore the Gram matrix of the rows of `a`. -/

/-- The matmul's dimension numbers: rows of the left operand against columns of the right, one contracted axis. -/
abbrev D3 := dot_S2048x32_S32x1024_S2048x1024_1_0_0_1_n_n

theorem D3_lhs_0 (i : S2048x1024.Idx) (q : D3.contr.Idx) : (D3.lhsIdx i q 0).val = (i 0).val := by
  unfold DotDims.lhsIdx
  rw [dif_neg (show ¬(0 : Fin S2048x32.rank) ∈ D3.lhsBatch by decide), dif_pos (show (0 : Fin S2048x32.rank) ∈ D3.lhsNonContracting by decide)]
  rfl
theorem D3_lhs_1 (i : S2048x1024.Idx) (q : D3.contr.Idx) : (D3.lhsIdx i q 1).val = (q ⟨0, by decide⟩).val :=
  D3.lhsIdx_val_of_single rfl i q
theorem D3_rhs_0 (i : S2048x1024.Idx) (q : D3.contr.Idx) : (D3.rhsIdx i q 0).val = (q ⟨0, by decide⟩).val :=
  D3.rhsIdx_val_of_single rfl i q
theorem D3_rhs_1 (i : S2048x1024.Idx) (q : D3.contr.Idx) : (D3.rhsIdx i q 1).val = (i 1).val := by
  unfold DotDims.rhsIdx
  rw [dif_neg (show ¬(1 : Fin S32x1024.rank) ∈ D3.rhsBatch by decide), dif_pos (show (1 : Fin S32x1024.rank) ∈ D3.rhsNonContracting by decide)]
  rfl

/-- THE PAYLOAD AT AN INDEX: entry (p, r) of the product of the first block with the transpose of the second is the
    sum over the 32 columns of the products of row p of the first and row r of the second. -/
theorem pay3_apply (x0 : Vec Ideal S2048x32 .f32) (x1 : Vec Ideal S1024x32 .f32) (p : Fin 2048) (r : Fin 1024) :
    k3_pay1 (F := Ideal) x0 x1 (ix2 p r) = ∑ q : Fin 32, x0 (ix2 p q) * x1 (ix2 r q) := by
  unfold k3_pay1
  dsimp only
  rw [shapeCast_self, shapeCast_self]
  refine (Ideal.matmul_constant_zero_apply D3 none _ _ (ix2 p r)).trans ?_
  rw [← Equiv.sum_comp (contrEquiv1 D3 32 rfl rfl).symm]
  refine Finset.sum_congr rfl fun k _ => ?_
  have hk := contrEquiv1_symm_val D3 32 rfl rfl k
  -- the left factor: the rounding is the identity, the operand index is (p, k)
  have el : D3.lhsIdx (ix2 p r) ((contrEquiv1 D3 32 rfl rfl).symm k) = ix2 p k := funext fun a => Fin.ext (by
    match a with
    | ⟨0, _⟩ => exact D3_lhs_0 _ _
    | ⟨1, _⟩ => exact (D3_lhs_1 _ _).trans hk)
  -- the right factor: the transpose at (k, r) is the second block at (r, k)
  have er : transpose S32x1024 [1, 0] (truncf (F := Ideal) FTy.bf16 x1 bitsLt_bf16_f32) transposes_S1024x32_p1_0_S32x1024
      (D3.rhsIdx (ix2 p r) ((contrEquiv1 D3 32 rfl rfl).symm k)) = x1 (ix2 r k) :=
    transpose_apply [1, 0] _ transposes_S1024x32_p1_0_S32x1024 _ (ix2 r k) (fun b => by
      match b with
      | ⟨0, _⟩ => exact ((D3_rhs_0 (ix2 p r) _).trans hk).symm
      | ⟨1, _⟩ => exact (D3_rhs_1 (ix2 p r) _).symm)
  rw [el, er]
  rfl

variable (V : (c : Dev nD) → (b : Ref sig .tc) → Buf (Elt Ideal) ((c : Thread nD τ).loc b))

theorem hz3 : (![0, 0] : Fin 2 → Nat) = fun _ => 0 := funext fun a => by fin_cases a <;> rfl

/-- The Gram matrix of the rows of `a`: entry (n, n') is the sum over the 32 columns of the products of rows n and n'. -/
def gram (a : S16384x32.Idx → EReal) : S16384x16384.Idx → EReal := fun i =>
  ∑ q : Fin 32, a (ix2 (⟨(i 0).val, (i 0).isLt⟩ : Fin 16384) q) * a (ix2 (⟨(i 1).val, (i 1).isLt⟩ : Fin 16384) q)

/-- The index maps, decided over the 128 grid points: point t is (t / 16, t % 16); the output's block index is the
    point, the first input's is its first coordinate, the second input's is its second coordinate. -/
theorem idx_facts3 : ∀ t : Fin cfg3.N,
    win3_2.index t (0 : Fin 2) = t.val / 16 ∧ win3_2.index t (1 : Fin 2) = t.val % 16
    ∧ win3_0.index t (0 : Fin 2) = t.val / 16 ∧ win3_0.index t (1 : Fin 2) = 0
    ∧ win3_1.index t (0 : Fin 2) = t.val % 16 ∧ win3_1.index t (1 : Fin 2) = 0 :=
  (by decide +kernel : ∀ t : Fin grid3.N, _)

/-- The first input's block at point t is rows 2048 (t / 16) + p of the array. -/
theorem iblk3_0_apply (c : Dev nD) (t : Fin cfg3.N) (p : Fin 2048) (q : Fin 32) (n : Fin 16384)
    (hn : n.val = t.val / 16 * 2048 + p.val) :
    (iblk3 V c 0 t : Vec Ideal S2048x32 .f32) (ix2 p q) = (V c main_v26 : S16384x32.Idx → EReal) (ix2 n q) := by
  obtain ⟨-, -, e0, e1, -, -⟩ := idx_facts3 t
  unfold iblk3
  rw [View.read_apply]
  show (V c main_v26 : S16384x32.Idx → EReal) _ = _
  refine congrArg _ (funext fun a => Fin.ext ?_)
  match a with
  | ⟨0, _⟩ => show win3_0.index t (0 : Fin 2) * 2048 + 1 * p.val = n.val; omega
  | ⟨1, _⟩ => show win3_0.index t (1 : Fin 2) * 32 + 1 * q.val = q.val; omega

/-- The second input's block at point t is rows 1024 (t % 16) + r of the same array. -/
theorem iblk3_1_apply (c : Dev nD) (t : Fin cfg3.N) (r : Fin 1024) (q : Fin 32) (n : Fin 16384)
    (hn : n.val = t.val % 16 * 1024 + r.val) :
    (iblk3 V c 1 t : Vec Ideal S1024x32 .f32) (ix2 r q) = (V c main_v26 : S16384x32.Idx → EReal) (ix2 n q) := by
  obtain ⟨-, -, -, -, e0, e1⟩ := idx_facts3 t
  unfold iblk3
  rw [View.read_apply]
  show (V c main_v26 : S16384x32.Idx → EReal) _ = _
  refine congrArg _ (funext fun a => Fin.ext ?_)
  match a with
  | ⟨0, _⟩ => show win3_1.index t (0 : Fin 2) * 1024 + 1 * r.val = n.val; omega
  | ⟨1, _⟩ => show win3_1.index t (1 : Fin 2) * 32 + 1 * q.val = q.val; omega

/-- What point t stores, at an index of its block, is the Gram matrix at that index's place in the array. -/
theorem stored3_apply (c : Dev nD) (t : Fin cfg3.N) (j : S2048x1024.Idx) :
    k3_pay1 (F := Ideal) (iblk3 V c 0 t) (iblk3 V c 1 t) j = gram (V c main_v26) (((cfg3.win 2).blk t).view.emb j) := by
  obtain ⟨p, r, rfl⟩ : ∃ (p : Fin 2048) (r : Fin 1024), j = ix2 p r := ⟨j 0, j 1, eq_ix2 j⟩
  obtain ⟨e0, e1, -, -, -, -⟩ := idx_facts3 t
  have h0 : ((((cfg3.win 2).blk t).view.emb (ix2 p r)) 0).val = t.val / 16 * 2048 + p.val := by
    show win3_2.index t (0 : Fin 2) * 2048 + 1 * p.val = _; omega
  have h1 : ((((cfg3.win 2).blk t).view.emb (ix2 p r)) 1).val = t.val % 16 * 1024 + r.val := by
    show win3_2.index t (1 : Fin 2) * 1024 + 1 * r.val = _; omega
  refine (pay3_apply _ _ p r).trans ?_
  unfold gram
  refine Finset.sum_congr rfl fun q _ => ?_
  exact congrArg₂ (· * ·) (iblk3_0_apply V c t p q ⟨_, _⟩ h0) (iblk3_1_apply V c t r q ⟨_, _⟩ h1)

/-- WHAT POINT t WRITES BACK is block t of the Gram matrix of the array as the region finds it. -/
theorem flushed3_eq (c : Dev nD) (t : Fin cfg3.N) :
    (dat3 V c).flushed 2 t = ((cfg3.win 2).blk t).view.read (Elt Ideal) (gram (V c main_v26)) := by
  show (cfg3.win 2).cut (grid3.coords t) ((dat3 V c).after 2 t) = _
  rw [after3_2]
  unfold out3_2
  rw [View.canon_unit_zero hz3]
  simp only [View.ld_unit_zero (S := S2048x32) hz3, View.ld_unit_zero (S := S1024x32) hz3]
  funext j
  exact stored3_apply V c t j

/-- An index of the array is in point t's block iff each coordinate is in the block's range on its axis. -/
theorem mem_blk3 (t : Fin cfg3.N) (i : S16384x16384.Idx) :
    i ∈ ((cfg3.win 2).blk t).view.set ↔ ∀ a : Fin 2, win3_2.index t a * S2048x1024.size a ≤ (i a).val ∧ (i a).val < win3_2.index t a * S2048x1024.size a + S2048x1024.size a := by
  show i ∈ ((View.whole main_v27).slice (win3_2.rect t)).set ↔ _
  rw [View.set_slice_whole, Rect.mem_set_unit]
  exact Iff.rfl

/-- Every index (n, n') of the array is in the block of the point (n / 2048, n' / 1024). -/
theorem cover3 (i : S16384x16384.Idx) :
    ∃ t : Fin cfg3.N, (cfg3.win 2).flush t = true ∧ i ∈ ((cfg3.win 2).blk t).view.set := by
  have hN : cfg3.N = 128 := N_3
  have hi0 : (i 0).val < 16384 := (i 0).isLt
  have hi1 : (i 1).val < 16384 := (i 1).isLt
  obtain ⟨t, ht⟩ : ∃ t : Fin cfg3.N, t.val = 16 * ((i 0).val / 2048) + (i 1).val / 1024 := ⟨⟨_, by omega⟩, rfl⟩
  obtain ⟨e0, e1, -, -, -, -⟩ := idx_facts3 t
  refine ⟨t, flush3_2 t, ?_⟩
  rw [mem_blk3]
  intro a
  match a with
  | ⟨0, _⟩ => show win3_2.index t (0 : Fin 2) * 2048 ≤ (i 0).val ∧ (i 0).val < win3_2.index t (0 : Fin 2) * 2048 + 2048; omega
  | ⟨1, _⟩ => show win3_2.index t (1 : Fin 2) * 1024 ≤ (i 1).val ∧ (i 1).val < win3_2.index t (1 : Fin 2) * 1024 + 1024; omega

/-- THE ARRAY after the region: the Gram matrix of the rows of the input array. -/
theorem arr3 (c : Dev nD) : (dat3 V c).arrAt 2 cfg3.N = gram (V c main_v26) :=
  (dat3 V c).arrAt_eq_of_cover 2 (gram (V c main_v26)) (fun t _ => flushed3_eq V c t) cover3

/-- The Gram matrix at (n, n'). -/
theorem gram_apply (a : S16384x32.Idx → EReal) (n n' : Fin 16384) :
    gram a (ix2 n n') = ∑ q : Fin 32, a (ix2 n q) * a (ix2 n' q) := rfl

/-- Region 3's input array on core c, as a function of its two coordinates' index. -/
abbrev rows3 (c : Dev nD) : S16384x32.Idx → EReal := V c main_v26

/-- Region 3's output at (n, n'): the sum over the 32 columns of the products of rows n and n' of its input. -/
theorem value3 (c : Dev nD) (n n' : Fin 16384) :
    (dat3 V c).arrAt 2 cfg3.N (ix2 n n') = ∑ q : Fin 32, rows3 V c (ix2 n q) * rows3 V c (ix2 n' q) := by
  rw [arr3]
  exact gram_apply _ n n'

end Cert.KernelIdeal.Hand

end
-- ==== Proof.KI.KerValue.lean ====
import proofs.«135382_j20864951123973_2_alg».proof.Proof.KI.Mid
import proofs.«135382_j20864951123973_2_alg».proof.Proof.KI.HostVals
import proofs.«135382_j20864951123973_2_alg».proof.Proof.KI.Value0
import proofs.«135382_j20864951123973_2_alg».proof.Proof.KI.Value1
import proofs.«135382_j20864951123973_2_alg».proof.Proof.KI.Value2
import proofs.«135382_j20864951123973_2_alg».proof.Proof.KI.Value3

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx Idealize.ShloMosaic.StableHlo

/-! The kernel program's result over the extended reals, as a function of the launch arrays: following the buffers' contents
    item by item — project, aggregate, add the bias and rectify, project, aggregate, add the bias and mask, inner
    products — gives the specification's kernel-order computation, index by index. -/

variable (m : (ℓ : Loc nD τ sig) → Buf (Elt Ideal) ℓ) (c : Dev nD)

/-- The launch arrays of core `c`, as functions into the extended reals (the two index arrays: into 32-bit words). -/
abbrev aFeat : S16384x256.Idx → EReal := m ((c : Thread nD τ).loc main_arg0)
abbrev aSrc : S524288.Idx → BitVec 32 := m ((c : Thread nD τ).loc main_arg1)
abbrev aDst : S524288.Idx → BitVec 32 := m ((c : Thread nD τ).loc main_arg2)
abbrev aW0 : S256x128.Idx → EReal := m ((c : Thread nD τ).loc main_arg3)
abbrev aB0 : S128.Idx → EReal := m ((c : Thread nD τ).loc main_arg4)
abbrev aW1 : S128x32.Idx → EReal := m ((c : Thread nD τ).loc main_arg5)
abbrev aB1 : S32.Idx → EReal := m ((c : Thread nD τ).loc main_arg6)
abbrev aDrop : S16384x32.Idx → EReal := m ((c : Thread nD τ).loc main_arg7)

/-- The first projection, the rectified first layer and the second projection, as the specification spells them. -/
abbrev sP0 : Fin 16384 → Fin 128 → EReal := Cert.Spec.mm (Cert.Spec.at2 (aFeat m c)) (Cert.Spec.at2 (aW0 m c))
abbrev sH : Fin 16384 → Fin 128 → EReal := fun n j =>
  max (Cert.Spec.agg (Cert.Spec.row (aSrc m c)) (Cert.Spec.into (aDst m c)) (sP0 m c) n j + Cert.Spec.at1 (aB0 m c) j) 0
abbrev sP1 : Fin 16384 → Fin 32 → EReal := Cert.Spec.mm (sH m c) (Cert.Spec.at2 (aW1 m c))

/-- Region 0 leaves the first projection. -/
theorem v1_eq (n : Fin 16384) (j : Fin 128) :
    (U2 m c main_v1 : S16384x128.Idx → EReal) (ix2 n j) = sP0 m c n j := by
  have h : U2 m c main_v1 = (dat0 (U1 m) c).arrAt 2 cfg0.N := W2_arr m c 2
  rw [h]
  exact value0_of (U1 m) c (aFeat m c) (aW0 m c) (W1_main_arg0 m c).symm
    (funext fun i => ((v0_apply (W0 m c) i).trans rfl).symm) n j

/-- The second stretch aggregates it, -/
theorem v11_eq (n : Fin 16384) (j : Fin 128) :
    (U3 m c main_v11 : S16384x128.Idx → EReal) (ix2 n j)
      = Cert.Spec.agg (Cert.Spec.row (aSrc m c)) (Cert.Spec.into (aDst m c)) (sP0 m c) n j := by
  have h := v11_apply (W2 m c) n j
  have hX : Cert.Spec.at2 (W2 m c (Proc.devRef .tc main_v1) : S16384x128.Idx → EReal) = sP0 m c :=
    funext fun n => funext fun j => v1_eq m c n j
  rw [W2_main_arg1 m c, W2_main_arg2 m c, hX] at h
  exact h
/-- lays the first bias as a row, -/
theorem v12_eq (j : Fin 128) : (U3 m c main_v12 : S1x128.Idx → EReal) (ix2 (0 : Fin 1) j) = aB0 m c (ix1 j) := by
  have h := v12_apply (W2 m c) j
  rw [W2_main_arg4 m c] at h
  exact h
/-- and keeps the second weight matrix. -/
theorem v13_eq (i : S128x32.Idx) : (U3 m c main_v13 : S128x32.Idx → EReal) i = aW1 m c i := by
  have h := v13_apply (W2 m c) i
  rw [W2_main_arg5 m c] at h
  exact h

/-- Region 1 leaves the second projection of the rectified first layer. -/
theorem v14_eq (n : Fin 16384) (q : Fin 32) :
    (U4 m c main_v14 : S16384x32.Idx → EReal) (ix2 n q) = sP1 m c n q := by
  have h : U4 m c main_v14 = (dat1 (U3 m) c).arrAt 3 cfg1.N := W4_arr m c 3
  show @Eq EReal _ _
  rw [h, value1_of (U3 m) c (U3 m c main_v11) (U3 m c main_v12) (U3 m c main_v13) rfl rfl rfl n q]
  exact Finset.sum_congr rfl fun j _ => by rw [v11_eq, v12_eq, v13_eq]

/-- The third stretch aggregates it, -/
theorem v24_eq (n : Fin 16384) (q : Fin 32) :
    (U5 m c main_v24 : S16384x32.Idx → EReal) (ix2 n q)
      = Cert.Spec.agg (Cert.Spec.row (aSrc m c)) (Cert.Spec.into (aDst m c)) (sP1 m c) n q := by
  have h := v24_apply (W4 m c) n q
  have hX : Cert.Spec.at2 (W4 m c (Proc.devRef .tc main_v14) : S16384x32.Idx → EReal) = sP1 m c :=
    funext fun n => funext fun q => v14_eq m c n q
  rw [W4_main_arg1 m c, W4_main_arg2 m c, hX] at h
  exact h
/-- and lays the second bias as a row. -/
theorem v25_eq (q : Fin 32) : (U5 m c main_v25 : S1x32.Idx → EReal) (ix2 (0 : Fin 1) q) = aB1 m c (ix1 q) := by
  have h := v25_apply (W4 m c) q
  rw [W4_main_arg6 m c] at h
  exact h

/-- Region 2 leaves the kernel-order node rows. -/
theorem v26_eq (n : Fin 16384) (q : Fin 32) :
    (U6 m c main_v26 : S16384x32.Idx → EReal) (ix2 n q)
      = Cert.Spec.zKer (Cert.Spec.row (aSrc m c)) (Cert.Spec.into (aDst m c)) (Cert.Spec.at2 (aFeat m c)) (Cert.Spec.at2 (aW0 m c))
          (Cert.Spec.at1 (aB0 m c)) (Cert.Spec.at2 (aW1 m c)) (Cert.Spec.at1 (aB1 m c)) (Cert.Spec.at2 (aDrop m c)) n q := by
  have h : U6 m c main_v26 = (dat2 (U5 m) c).arrAt 3 cfg2.N := W6_arr m c 3
  rw [h, value2 (U5 m) c n q]
  dsimp only [agg2, bias2, mask2]
  rw [v24_eq, v25_eq, show (U5 m c main_arg7 : S16384x32.Idx → EReal) = aDrop m c from W5_main_arg7 m c]
  rfl

/-- Region 3 leaves their inner products: the kernel program's result. -/
theorem ker_out (n n' : Fin 16384) :
    (W7 m c (Proc.devRef .tc main_v27) : S16384x16384.Idx → EReal) (ix2 n n')
      = Cert.Spec.outer (Cert.Spec.zKer (Cert.Spec.row (aSrc m c)) (Cert.Spec.into (aDst m c)) (Cert.Spec.at2 (aFeat m c))
          (Cert.Spec.at2 (aW0 m c)) (Cert.Spec.at1 (aB0 m c)) (Cert.Spec.at2 (aW1 m c)) (Cert.Spec.at1 (aB1 m c))
          (Cert.Spec.at2 (aDrop m c))) n n' := by
  show @Eq EReal _ _
  rw [W7_out m c, value3 (U6 m) c n n']
  dsimp only [rows3]
  exact Finset.sum_congr rfl fun q _ => by rw [v26_eq, v26_eq]

end Cert.KernelIdeal.Hand

end
-- ==== Proof.RefRead.lean ====
import proofs.«135382_j20864951123973_2_alg».proof.Proof.Gen.ReferenceIdeal.Read

/-! The reference's run and its read-at-an-index lemmas, brought into scope for the modules that state what the
    reference computes. -/
-- ==== Proof.RefValue.lean ====
import proofs.«135382_j20864951123973_2_alg».proof.Proof.RefRead
import proofs.«135382_j20864951123973_2_alg».proof.Proof.Spec
import proofs.«135382_j20864951123973_2_alg».proof.Proof.HostIndex

/-! The reference program's result, read at an index, is the specification's: two rounds of "aggregate over the edges
    landing at a node, multiply by a weight matrix, add a bias", a rectifier after the first round, a mask after the
    second, then the matrix of inner products of the nodes' rows. Each stage is read at an index with literal
    coordinates. -/

noncomputable section

open scoped BigOperators

namespace Cert.ReferenceIdeal.RefValue

open Cert.ReferenceIdeal Cert.ReferenceIdeal.Read Idealize.ShloMosaic Idealize.ShloMosaic.ValueIdx

/-- The normalised source word of edge `e`, as the first gather's start index. -/
theorem v5_at (x1 : (⟨S524288, .i32⟩ : BufTy).Contents (Elt Ideal)) (e : Fin 524288) :
    val_main_v5 (F := Ideal) x1 (ix2 e (0 : Fin 1)) = Cert.Spec.normWord (x1 (ix1 e)) := by
  rw [val_main_v5_apply, val_main_v4_apply, val_main_v1_apply, val_main_v3_apply, val_main_v0_apply, val_main_v2_apply,
    val_main_c_apply, val_main_c_0_apply]
  have hi : idx_main_v5 (ix2 e (0 : Fin 1)) = ix1 e := funext fun a => by
    match a with | ⟨0, _⟩ => rfl
  rw [hi]
  rfl

/-- The same word, as the second gather's start index. -/
theorem v20_at (x1 : (⟨S524288, .i32⟩ : BufTy).Contents (Elt Ideal)) (e : Fin 524288) :
    val_main_v20 (F := Ideal) x1 (ix2 e (0 : Fin 1)) = Cert.Spec.normWord (x1 (ix1 e)) := by
  rw [val_main_v20_apply, val_main_v19_apply, val_main_v16_apply, val_main_v18_apply, val_main_v15_apply, val_main_v17_apply,
    val_main_c_1_apply, val_main_c_2_apply]
  have hi : idx_main_v20 (ix2 e (0 : Fin 1)) = ix1 e := funext fun a => by
    match a with | ⟨0, _⟩ => rfl
  rw [hi]
  rfl

/-- The destination word of edge `e`, as the first scatter's index. -/
theorem v8_at (x2 : (⟨S524288, .i32⟩ : BufTy).Contents (Elt Ideal)) (e : Fin 524288) :
    val_main_v8 (F := Ideal) x2 (ix2 e (0 : Fin 1)) = x2 (ix1 e) := by
  rw [val_main_v8_apply]
  have hi : idx_main_v8 (ix2 e (0 : Fin 1)) = ix1 e := funext fun a => by
    match a with | ⟨0, _⟩ => rfl
  rw [hi]

/-- The same word, as the second scatter's index. -/
theorem v23_at (x2 : (⟨S524288, .i32⟩ : BufTy).Contents (Elt Ideal)) (e : Fin 524288) :
    val_main_v23 (F := Ideal) x2 (ix2 e (0 : Fin 1)) = x2 (ix1 e) := by
  rw [val_main_v23_apply]
  have hi : idx_main_v23 (ix2 e (0 : Fin 1)) = ix1 e := funext fun a => by
    match a with | ⟨0, _⟩ => rfl
  rw [hi]

/-- The first gather reads, at edge `e`, the feature row of the node the edge reads. -/
theorem v6_at (x0 : (⟨S16384x256, .f32⟩ : BufTy).Contents (Elt Ideal)) (x1 : (⟨S524288, .i32⟩ : BufTy).Contents (Elt Ideal))
    (e : Fin 524288) (k : Fin 256) :
    val_main_v6 (F := Ideal) x0 x1 (ix2 e k) = x0 (ix2 (Cert.Spec.row x1 e) k) := by
  have hd : gather_S16384x256_S524288x1_S524288x256_1_0_n_n_0_1_1256
      = Cert.HostIndex.gatherRows 16384 256 524288 Facts₀.gather_S16384x256_S524288x1_S524288x256_1_0_n_n_0_1_1256_wf := rfl
  unfold val_main_v6
  rw [hd, Cert.HostIndex.gather_rows_apply (by decide : 0 < 16384), v5_at]
  rfl

/-- The first scatter-add holds, at node `n`, the sum of the feature rows read by the edges landing there. -/
theorem v9_at (x0 : (⟨S16384x256, .f32⟩ : BufTy).Contents (Elt Ideal)) (x1 x2 : (⟨S524288, .i32⟩ : BufTy).Contents (Elt Ideal))
    (n : Fin 16384) (k : Fin 256) :
    val_main_v9 (F := Ideal) x0 x1 x2 (ix2 n k)
      = Cert.Spec.agg (Cert.Spec.row x1) (Cert.Spec.into x2) (Cert.Spec.at2 x0) n k := by
  have hd : scatter_S16384x256_S524288x1_S524288x256_1_0_0_1
      = Cert.HostIndex.scatterRows 16384 256 524288 Facts₀.scatter_S16384x256_S524288x1_S524288x256_1_0_0_1_wf := rfl
  have h0 : val_main_v7 (F := Ideal) (ix2 n k) = 0 := by
    rw [val_main_v7_apply, val_main_cst_apply]
    exact Ideal.ofBits_zero_f32
  unfold val_main_v9
  show Ideal.hostScatterAdd scatter_S16384x256_S524288x1_S524288x256_1_0_0_1 _ _ _ _ = _
  rw [hd, Cert.HostIndex.scatterAdd_rows_apply, h0, zero_add]
  simp only [v8_at, v6_at]
  rfl

/-- The first product: aggregated features times the first weight matrix. -/
theorem v10_at (x0 : (⟨S16384x256, .f32⟩ : BufTy).Contents (Elt Ideal)) (x1 x2 : (⟨S524288, .i32⟩ : BufTy).Contents (Elt Ideal))
    (x3 : (⟨S256x128, .f32⟩ : BufTy).Contents (Elt Ideal)) (n : Fin 16384) (j : Fin 128) :
    val_main_v10 (F := Ideal) x0 x1 x2 x3 (ix2 n j)
      = Cert.Spec.mm (Cert.Spec.agg (Cert.Spec.row x1) (Cert.Spec.into x2) (Cert.Spec.at2 x0)) (Cert.Spec.at2 x3) n j := by
  rw [val_main_v10_apply]
  have hl : ∀ k : Fin 256, lidx_main_v10 (ix2 n j) k = ix2 n k := fun k => funext fun a => by
    match a with | ⟨0, _⟩ => rfl | ⟨1, _⟩ => rfl
  have hr : ∀ k : Fin 256, ridx_main_v10 (ix2 n j) k = ix2 k j := fun k => funext fun a => by
    match a with | ⟨0, _⟩ => rfl | ⟨1, _⟩ => rfl
  simp only [hl, hr, v9_at]
  rfl

/-- The hidden layer: the first product plus the first bias, rectified. -/
theorem v14_at (x0 : (⟨S16384x256, .f32⟩ : BufTy).Contents (Elt Ideal)) (x1 x2 : (⟨S524288, .i32⟩ : BufTy).Contents (Elt Ideal))
    (x3 : (⟨S256x128, .f32⟩ : BufTy).Contents (Elt Ideal)) (x4 : (⟨S128, .f32⟩ : BufTy).Contents (Elt Ideal))
    (n : Fin 16384) (j : Fin 128) :
    val_main_v14 (F := Ideal) x0 x1 x2 x3 x4 (ix2 n j)
      = max (Cert.Spec.mm (Cert.Spec.agg (Cert.Spec.row x1) (Cert.Spec.into x2) (Cert.Spec.at2 x0)) (Cert.Spec.at2 x3) n j
          + Cert.Spec.at1 x4 j) 0 := by
  have hb : idx_main_v11 (idx_main_v12 (ix2 n j)) = ix1 j := funext fun a => by
    match a with | ⟨0, _⟩ => rfl
  rw [val_main_v14_apply, val_main_v13_apply, val_main_v12_apply, val_main_v11_apply, val_main_call0_v0_apply,
    val_main_call0_cst_apply, v10_at, hb, Ideal.maximumf_def, Ideal.addf_def]
  rw [show (FloatOps.ofBits (F := Ideal) .f32 0x00000000#32) = 0 from Ideal.ofBits_zero_f32]

/-- The second gather reads, at edge `e`, the hidden row of the node the edge reads. -/
theorem v21_at (x0 : (⟨S16384x256, .f32⟩ : BufTy).Contents (Elt Ideal)) (x1 x2 : (⟨S524288, .i32⟩ : BufTy).Contents (Elt Ideal))
    (x3 : (⟨S256x128, .f32⟩ : BufTy).Contents (Elt Ideal)) (x4 : (⟨S128, .f32⟩ : BufTy).Contents (Elt Ideal))
    (e : Fin 524288) (j : Fin 128) :
    val_main_v21 (F := Ideal) x0 x1 x2 x3 x4 (ix2 e j)
      = val_main_v14 (F := Ideal) x0 x1 x2 x3 x4 (ix2 (Cert.Spec.row x1 e) j) := by
  have hd : gather_S16384x128_S524288x1_S524288x128_1_0_n_n_0_1_1128
      = Cert.HostIndex.gatherRows 16384 128 524288 Facts₀.gather_S16384x128_S524288x1_S524288x128_1_0_n_n_0_1_1128_wf := rfl
  unfold val_main_v21
  rw [hd, Cert.HostIndex.gather_rows_apply (by decide : 0 < 16384), v20_at]
  rfl

/-- The second scatter-add holds, at node `n`, the sum of the hidden rows read by the edges landing there. -/
theorem v24_at (x0 : (⟨S16384x256, .f32⟩ : BufTy).Contents (Elt Ideal)) (x1 x2 : (⟨S524288, .i32⟩ : BufTy).Contents (Elt Ideal))
    (x3 : (⟨S256x128, .f32⟩ : BufTy).Contents (Elt Ideal)) (x4 : (⟨S128, .f32⟩ : BufTy).Contents (Elt Ideal))
    (n : Fin 16384) (j : Fin 128) :
    val_main_v24 (F := Ideal) x0 x1 x2 x3 x4 (ix2 n j)
      = Cert.Spec.agg (Cert.Spec.row x1) (Cert.Spec.into x2)
          (fun n j => max (Cert.Spec.mm (Cert.Spec.agg (Cert.Spec.row x1) (Cert.Spec.into x2) (Cert.Spec.at2 x0)) (Cert.Spec.at2 x3) n j
            + Cert.Spec.at1 x4 j) 0) n j := by
  have hd : scatter_S16384x128_S524288x1_S524288x128_1_0_0_1
      = Cert.HostIndex.scatterRows 16384 128 524288 Facts₀.scatter_S16384x128_S524288x1_S524288x128_1_0_0_1_wf := rfl
  have h0 : val_main_v22 (F := Ideal) (ix2 n j) = 0 := by
    rw [val_main_v22_apply, val_main_cst_3_apply]
    exact Ideal.ofBits_zero_f32
  unfold val_main_v24
  show Ideal.hostScatterAdd scatter_S16384x128_S524288x1_S524288x128_1_0_0_1 _ _ _ _ = _
  rw [hd, Cert.HostIndex.scatterAdd_rows_apply, h0, zero_add]
  simp only [v23_at, v21_at, v14_at]
  rfl

/-- The node rows: the second product plus the second bias, masked. -/
theorem v29_at (x0 : (⟨S16384x256, .f32⟩ : BufTy).Contents (Elt Ideal)) (x1 x2 : (⟨S524288, .i32⟩ : BufTy).Contents (Elt Ideal))
    (x3 : (⟨S256x128, .f32⟩ : BufTy).Contents (Elt Ideal)) (x4 : (⟨S128, .f32⟩ : BufTy).Contents (Elt Ideal))
    (x5 : (⟨S128x32, .f32⟩ : BufTy).Contents (Elt Ideal)) (x6 : (⟨S32, .f32⟩ : BufTy).Contents (Elt Ideal))
    (x7 : (⟨S16384x32, .f32⟩ : BufTy).Contents (Elt Ideal)) (n : Fin 16384) (c : Fin 32) :
    val_main_v29 (F := Ideal) x0 x1 x2 x3 x4 x5 x6 x7 (ix2 n c)
      = Cert.Spec.zRef (Cert.Spec.row x1) (Cert.Spec.into x2) (Cert.Spec.at2 x0) (Cert.Spec.at2 x3) (Cert.Spec.at1 x4)
          (Cert.Spec.at2 x5) (Cert.Spec.at1 x6) (Cert.Spec.at2 x7) n c := by
  have hl : ∀ k : Fin 128, lidx_main_v25 (ix2 n c) k = ix2 n k := fun k => funext fun a => by
    match a with | ⟨0, _⟩ => rfl | ⟨1, _⟩ => rfl
  have hr : ∀ k : Fin 128, ridx_main_v25 (ix2 n c) k = ix2 k c := fun k => funext fun a => by
    match a with | ⟨0, _⟩ => rfl | ⟨1, _⟩ => rfl
  have hb : idx_main_v26 (idx_main_v27 (ix2 n c)) = ix1 c := funext fun a => by
    match a with | ⟨0, _⟩ => rfl
  rw [val_main_v29_apply, val_main_v28_apply, val_main_v27_apply, val_main_v26_apply, val_main_v25_apply, hb,
    Ideal.mulf_def, Ideal.addf_def]
  simp only [hl, hr, v24_at]
  rfl

/-- The result: the matrix of inner products of the node rows. -/
theorem ref_out (x0 : (⟨S16384x256, .f32⟩ : BufTy).Contents (Elt Ideal)) (x1 x2 : (⟨S524288, .i32⟩ : BufTy).Contents (Elt Ideal))
    (x3 : (⟨S256x128, .f32⟩ : BufTy).Contents (Elt Ideal)) (x4 : (⟨S128, .f32⟩ : BufTy).Contents (Elt Ideal))
    (x5 : (⟨S128x32, .f32⟩ : BufTy).Contents (Elt Ideal)) (x6 : (⟨S32, .f32⟩ : BufTy).Contents (Elt Ideal))
    (x7 : (⟨S16384x32, .f32⟩ : BufTy).Contents (Elt Ideal)) (n n' : Fin 16384) :
    val_main_v31 (F := Ideal) x0 x1 x2 x3 x4 x5 x6 x7 (ix2 n n')
      = Cert.Spec.outer (Cert.Spec.zRef (Cert.Spec.row x1) (Cert.Spec.into x2) (Cert.Spec.at2 x0) (Cert.Spec.at2 x3)
          (Cert.Spec.at1 x4) (Cert.Spec.at2 x5) (Cert.Spec.at1 x6) (Cert.Spec.at2 x7)) n n' := by
  have hl : ∀ k : Fin 32, lidx_main_v31 (ix2 n n') k = ix2 n k := fun k => funext fun a => by
    match a with | ⟨0, _⟩ => rfl | ⟨1, _⟩ => rfl
  have ht : ∀ k : Fin 32, idx_main_v30 (ridx_main_v31 (ix2 n n') k) = ix2 n' k := fun k => funext fun a => by
    match a with | ⟨0, _⟩ => rfl | ⟨1, _⟩ => rfl
  rw [val_main_v31_apply]
  simp only [val_main_v30_apply, hl, ht, v29_at]
  rfl

end Cert.ReferenceIdeal.RefValue

end
-- ==== Proof.SpecLaw.lean ====
import proofs.«135382_j20864951123973_2_alg».proof.Proof.Spec

/-! Two facts about the node rows of `Cert.Spec`.

Over the reals, aggregation is linear, so it commutes with a matrix product on the right; hence the kernel's node rows
(multiply, then aggregate) equal the reference's (aggregate, then multiply).

The embedding of the reals into the extended reals preserves finite sums, products and maxima, so either computation,
run in the extended reals on embedded real arrays, gives the embedding of the same computation run in the reals.
Together: on extended-real arrays all of whose entries are real, the two computations agree. -/

noncomputable section

open scoped BigOperators

namespace Cert.Spec

/-- Over the reals, aggregating the rows of a matrix product is the matrix product of the aggregated rows:
`Σ_{e ∈ into n} Σ_k X (row e) k * W k j = Σ_k (Σ_{e ∈ into n} X (row e) k) * W k j`. -/
theorem agg_mm_real {N E K J : Type} [Fintype K] (row : E → N) (into : N → Finset E) (X : N → K → ℝ)
    (W : K → J → ℝ) : agg row into (mm X W) = mm (agg row into X) W := by
  funext n j
  simp only [agg, mm]
  rw [Finset.sum_comm]
  refine Finset.sum_congr rfl fun k _ => ?_
  rw [Finset.sum_mul]

/-- Over the reals the kernel's node rows are the reference's. -/
theorem zKer_eq_zRef_real {N E K J C : Type} [Fintype K] [Fintype J] [Fintype C] (row : E → N)
    (into : N → Finset E) (feat : N → K → ℝ) (W0 : K → J → ℝ) (b0 : J → ℝ) (W1 : J → C → ℝ) (b1 : C → ℝ)
    (drop : N → C → ℝ) :
    zKer row into feat W0 b0 W1 b1 drop = zRef row into feat W0 b0 W1 b1 drop := by
  unfold zKer zRef
  rw [agg_mm_real, agg_mm_real]

/-- The embedding of the reals into the extended reals preserves finite sums. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- The embedding preserves the rectified sum `max (x + b) 0`. -/
theorem relu_coe (x b : ℝ) : max ((x : EReal) + (b : EReal)) 0 = ((max (x + b) 0 : ℝ) : EReal) := by
  rw [EReal.coe_strictMono.monotone.map_max, EReal.coe_add, EReal.coe_zero]

/-- Aggregation of embedded rows is the embedding of the aggregated rows. -/
theorem agg_coe {N E K : Type} (row : E → N) (into : N → Finset E) (X : N → K → ℝ) :
    agg row into (fun n k => (X n k : EReal)) = fun n k => ((agg row into X n k : ℝ) : EReal) := by
  funext n k
  simp only [agg]
  rw [coe_sum]

/-- The product of embedded matrices is the embedding of the product. -/
theorem mm_coe {N K J : Type} [Fintype K] (X : N → K → ℝ) (W : K → J → ℝ) :
    mm (fun n k => (X n k : EReal)) (fun k j => (W k j : EReal)) = fun n j => ((mm X W n j : ℝ) : EReal) := by
  funext n j
  simp only [mm]
  rw [coe_sum]
  refine Finset.sum_congr rfl fun k _ => ?_
  rw [EReal.coe_mul]

/-- The reference's node rows on embedded real arrays are the embedding of its node rows over the reals. -/
theorem zRef_coe {N E K J C : Type} [Fintype K] [Fintype J] [Fintype C] (row : E → N)
    (into : N → Finset E) (feat : N → K → ℝ) (W0 : K → J → ℝ) (b0 : J → ℝ) (W1 : J → C → ℝ) (b1 : C → ℝ)
    (drop : N → C → ℝ) :
    zRef (R := EReal) row into (fun n k => (feat n k : EReal)) (fun k j => (W0 k j : EReal))
        (fun j => (b0 j : EReal)) (fun j c => (W1 j c : EReal)) (fun c => (b1 c : EReal))
        (fun n c => (drop n c : EReal))
      = fun n c => ((zRef row into feat W0 b0 W1 b1 drop n c : ℝ) : EReal) := by
  unfold zRef
  rw [agg_coe, mm_coe]
  simp only [relu_coe]
  rw [agg_coe, mm_coe]
  funext n c
  rw [EReal.coe_mul, EReal.coe_add]

/-- The kernel's node rows on embedded real arrays are the embedding of its node rows over the reals. -/
theorem zKer_coe {N E K J C : Type} [Fintype K] [Fintype J] [Fintype C] (row : E → N)
    (into : N → Finset E) (feat : N → K → ℝ) (W0 : K → J → ℝ) (b0 : J → ℝ) (W1 : J → C → ℝ) (b1 : C → ℝ)
    (drop : N → C → ℝ) :
    zKer (R := EReal) row into (fun n k => (feat n k : EReal)) (fun k j => (W0 k j : EReal))
        (fun j => (b0 j : EReal)) (fun j c => (W1 j c : EReal)) (fun c => (b1 c : EReal))
        (fun n c => (drop n c : EReal))
      = fun n c => ((zKer row into feat W0 b0 W1 b1 drop n c : ℝ) : EReal) := by
  unfold zKer
  rw [mm_coe, agg_coe]
  simp only [relu_coe]
  rw [mm_coe, agg_coe]
  funext n c
  rw [EReal.coe_mul, EReal.coe_add]

/-- On extended-real arrays all of whose entries are real, the kernel's node rows are the reference's. -/
theorem zKer_eq_zRef_of_real {N E K J C : Type} [Fintype K] [Fintype J] [Fintype C] (row : E → N)
    (into : N → Finset E) (feat : N → K → EReal) (W0 : K → J → EReal) (b0 : J → EReal) (W1 : J → C → EReal)
    (b1 : C → EReal) (drop : N → C → EReal)
    (hfeat : ∀ n k, ∃ r : ℝ, feat n k = r) (hW0 : ∀ k j, ∃ r : ℝ, W0 k j = r) (hb0 : ∀ j, ∃ r : ℝ, b0 j = r)
    (hW1 : ∀ j c, ∃ r : ℝ, W1 j c = r) (hb1 : ∀ c, ∃ r : ℝ, b1 c = r) (hdrop : ∀ n c, ∃ r : ℝ, drop n c = r) :
    zKer row into feat W0 b0 W1 b1 drop = zRef row into feat W0 b0 W1 b1 drop := by
  choose feat' hfeat using hfeat
  choose W0' hW0 using hW0
  choose b0' hb0 using hb0
  choose W1' hW1 using hW1
  choose b1' hb1 using hb1
  choose drop' hdrop using hdrop
  have e1 : feat = fun n k => ((feat' n k : ℝ) : EReal) := funext fun n => funext fun k => hfeat n k
  have e2 : W0 = fun k j => ((W0' k j : ℝ) : EReal) := funext fun k => funext fun j => hW0 k j
  have e3 : b0 = fun j => ((b0' j : ℝ) : EReal) := funext fun j => hb0 j
  have e4 : W1 = fun j c => ((W1' j c : ℝ) : EReal) := funext fun j => funext fun c => hW1 j c
  have e5 : b1 = fun c => ((b1' c : ℝ) : EReal) := funext fun c => hb1 c
  have e6 : drop = fun n c => ((drop' n c : ℝ) : EReal) := funext fun n => funext fun c => hdrop n c
  rw [e1, e2, e3, e4, e5, e6, zKer_coe, zRef_coe, zKer_eq_zRef_real]

end Cert.Spec

end
-- ==== Proof.Finite.lean ====
import proofs.«135382_j20864951123973_2_alg».proof.Pre_finite_inputs
import Idealize.ShloMosaic.Lib.ReduceAll
import Idealize.ShloMosaic.Lib.Pipeline.Value
import Idealize.ShloMosaic.Lib.ValueIdx
import Idealize.ShloMosaic.PureOps.Ideal.Laws

/-! The precondition read back over the extended reals: it says of each of the six float arrays that every entry's
    absolute value is below +∞, so every entry is a real number. -/

noncomputable section

namespace Cert.Pre_finite_inputs.Real

open Cert.Pre_finite_inputs Cert.Pre_finite_inputs.Facts Idealize.ShloMosaic

/-- An extended real whose absolute value is below the float pattern of +∞ is a real number. -/
theorem real_of_abs_lt (x : EReal) (h : Ideal.cmp .olt (max x (-x)) (Ideal.ofBits .f32 0x7F800000#32) = 1#1) :
    ∃ r : ℝ, x = r := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- One entry of an array compared, in absolute value, against the +∞ pattern broadcast to the array's shape. -/
theorem elem_real {s : Shape} (a : FVec Ideal s .f32) (hb : S_.BroadcastsInDim s (![] : Fin 0 → Fin s.rank)) (i : s.Idx)
    (h : cmpf .olt (Host.absf a) (broadcastInDim s ![] hb (constant S_ .f32 0x7F800000#32)) i = 1#1) : ∃ r : ℝ, a i = r := by
  have e : broadcastInDim s ![] hb (constant (F := Ideal) S_ .f32 0x7F800000#32) i = Ideal.ofBits .f32 0x7F800000#32 :=
    broadcastInDim_apply _ hb _ i (fun a => a.elim0) (fun a => a.elim0)
  have h' : Ideal.cmp .olt (max (a i) (-(a i))) (Ideal.ofBits .f32 0x7F800000#32) = 1#1 := by rw [← e]; exact h
  exact real_of_abs_lt _ h'

instance : Subsingleton S_.Idx := ⟨fun a b => funext fun d => d.elim0⟩

variable [Facts]

/-- The precondition, all ones, makes every entry of the six float arrays a real number. -/
theorem real_of_pre (a0 : FVec Ideal S16384x256 .f32) (a1 a2 : IVec S524288 32) (a3 : FVec Ideal S256x128 .f32)
    (a4 : FVec Ideal S128 .f32) (a5 : FVec Ideal S128x32 .f32) (a6 : FVec Ideal S32 .f32) (a7 : FVec Ideal S16384x32 .f32)
    (h : fn (F := Ideal) a0 a1 a2 a3 a4 a5 a6 a7 = fun _ => 1#1) :
    (∀ i, ∃ r : ℝ, a0 i = r) ∧ (∀ i, ∃ r : ℝ, a3 i = r) ∧ (∀ i, ∃ r : ℝ, a4 i = r) ∧ (∀ i, ∃ r : ℝ, a5 i = r)
      ∧ (∀ i, ∃ r : ℝ, a6 i = r) ∧ (∀ i, ∃ r : ℝ, a7 i = r) := by
  have h0 := congrFun h (fun d => d.elim0)
  dsimp only [fn, fn_part1] at h0
  obtain ⟨h1, e7⟩ := IntOp.andi_eq_one.1 h0
  obtain ⟨h2, e6⟩ := IntOp.andi_eq_one.1 h1
  obtain ⟨h3, e5⟩ := IntOp.andi_eq_one.1 h2
  obtain ⟨h4, e4⟩ := IntOp.andi_eq_one.1 h3
  obtain ⟨e0, e3⟩ := IntOp.andi_eq_one.1 h4
  exact ⟨fun i => elem_real a0 _ i (Host.reduce_andi_all _ _ _ _ _ e0 i),
    fun i => elem_real a3 _ i (Host.reduce_andi_all _ _ _ _ _ e3 i),
    fun i => elem_real a4 _ i (Host.reduce_andi_all _ _ _ _ _ e4 i),
    fun i => elem_real a5 _ i (Host.reduce_andi_all _ _ _ _ _ e5 i),
    fun i => elem_real a6 _ i (Host.reduce_andi_all _ _ _ _ _ e6 i),
    fun i => elem_real a7 _ i (Host.reduce_andi_all _ _ _ _ _ e7 i)⟩

end Cert.Pre_finite_inputs.Real

end
-- ==== Proof.lean ====
/- A graph autoencoder's forward pass, kernel against reference, over the extended reals.

   Both programs take node features, two arrays of edge endpoints, two weight matrices with biases and a mask, run two
   rounds of "sum each node's incoming neighbour rows, multiply by a weight matrix, add a bias" — a rectifier after
   the first round, the mask after the second — and return the matrix of inner products of the nodes' final rows. The
   reference sums the neighbour rows first and multiplies after; the kernel multiplies every node's row first (in a
   tiled matrix-product region), then sums the projected rows. The two orders agree because a finite sum of real rows
   commutes with a matrix product — which needs every entry to be a real number, and that is what the precondition says.

   The kernel program is three stretches of host operations around four kernel regions. Its run is followed item by
   item (Proof/KI/Run.lean, the same text at the word-level instance in Proof/K/Run.lean): each region's grid points
   write back blocks that tile its output array, whose contents are then one function of the region's inputs
   (Proof/KI/Value0..3.lean); the host stretches between them are read at an index (Proof/KI/HostVals.lean), the
   gather and the scatter-add through Proof/HostIndex.lean. Composed, the kernel's result is the specification's
   kernel-order function of the arguments (Proof/KI/KerValue.lean); the reference's result is its reference-order
   function (Proof/RefValue.lean); on real entries the two are equal (Proof/SpecLaw.lean), and the precondition gives
   real entries (Proof/Finite.lean). -/
import proofs.«135382_j20864951123973_2_alg».proof.Defs
import proofs.«135382_j20864951123973_2_alg».proof.Proof.Gen.Kernel
import proofs.«135382_j20864951123973_2_alg».proof.Proof.Gen.KernelIdeal
import proofs.«135382_j20864951123973_2_alg».proof.Proof.Gen.ReferenceIdeal
import proofs.«135382_j20864951123973_2_alg».proof.Proof.Gen.Pre_finite_inputs
import proofs.«135382_j20864951123973_2_alg».proof.Proof.K.Args
import proofs.«135382_j20864951123973_2_alg».proof.Proof.KI.Args
import proofs.«135382_j20864951123973_2_alg».proof.Proof.KI.KerValue
import proofs.«135382_j20864951123973_2_alg».proof.Proof.RefValue
import proofs.«135382_j20864951123973_2_alg».proof.Proof.SpecLaw
import proofs.«135382_j20864951123973_2_alg».proof.Proof.Finite
import Idealize.ShloMosaic.Adequacy
import Idealize.ShloMosaic.Init

noncomputable section

namespace Cert.Proof

open Idealize.ShloMosaic Idealize.ShloMosaic.ValueIdx Idealize.SL.Sem

/-- The word-level kernel program runs to the end and leaves its arguments as launched. -/
theorem frame_k : Cert.frame_Kernel := fun m ρ _ => Cert.Kernel.Hand.frame (F := Bits) m ρ

/-- So does the kernel program read over the extended reals. -/
theorem frame_ki : Cert.frame_KernelIdeal := fun m ρ _ => Cert.KernelIdeal.Hand.frame (F := Ideal) m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments, whose float entries the precondition makes real, the two programs end with
    the same result: the kernel's is the kernel-order function of the arguments, the reference's the reference-order
    function, and on real entries these are one function. -/
theorem algebraic : Cert.algebraic_KernelIdeal_ReferenceIdeal := by
  intro m ρ m' ρ' hpre hagree
  refine ⟨fun c => Cert.KernelIdeal.Hand.W7 (F := Ideal) m c (Proc.devRef .tc Cert.KernelIdeal.main_v27),
    Cert.KernelIdeal.Hand.run_out (F := Ideal) m ρ, ?_⟩
  refine (θ_run Cert.ReferenceIdeal.defs _ _).mono (fun r h c => ⟨(h c).1.trans ?_, (h c).2⟩)
    (Cert.ReferenceIdeal.Value.run (F := Ideal) m' ρ')
  obtain ⟨hfeat, hW0, hb0, hW1, hb1, hdrop⟩ := Cert.Pre_finite_inputs.Real.real_of_pre _ _ _ _ _ _ _ _ (hpre c)
  rw [Cert.ReferenceIdeal.Read.val_main_v31_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  funext i
  obtain ⟨n, n', rfl⟩ : ∃ (n n' : Fin 16384), i = ix2 n n' := ⟨i 0, i 1, eq_ix2 i⟩
  refine (Cert.ReferenceIdeal.RefValue.ref_out _ _ _ _ _ _ _ _ n n').trans ?_
  refine Eq.trans ?_ (Cert.KernelIdeal.Hand.ker_out m c n n').symm
  refine congrArg (fun z => Cert.Spec.outer z n n') (Cert.Spec.zKer_eq_zRef_of_real _ _ _ _ _ _ _ _
    (fun n k => hfeat (ix2 n k)) (fun k j => hW0 (ix2 k j)) (fun j => hb0 (ix1 j)) (fun j q => hW1 (ix2 j q))
    (fun q => hb1 (ix1 q)) (fun n q => hdrop (ix2 n q))).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
